-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x2048 : Shape := ⟨2, ![16384, 2048]⟩
abbrev S256 : Shape := ⟨1, ![256]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S256 : S_.BroadcastsInDim S256 (![] : Fin 0 → Fin S256.rank)
  reducesTo_S256_S_d0 : S256.ReducesTo [0] S_

variable [Facts]

def fn {F : FTy → Type} [FloatOps F] (main_arg0 : FVec F S16384x2048 .f32) (main_arg1 : IVec S256 32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_c_0 : IVec S_ 32 := constantI S_ 32 0#32
  let main_v4 : IVec S256 32 := broadcastInDim S256 ![] bcast_S_S256 main_c_0
  let main_v5 : IVec S256 1 := cmpi .sge main_arg1 main_v4
  let main_c_1 : IVec S_ 32 := constantI S_ 32 2047#32
  let main_v6 : IVec S256 32 := broadcastInDim S256 ![] bcast_S_S256 main_c_1
  let main_v7 : IVec S256 1 := cmpi .sle main_arg1 main_v6
  let main_v8 : IVec S256 1 := andi main_v5 main_v7
  let main_c_2 : IVec S_ 1 := constantI S_ 1 1#1
  let main_v9 : IVec S_ 1 := (fun x v => Host.reduce IntOp.andi x v reducesTo_S256_S_d0 h_S_) main_v8 main_c_2
  let main_v10 : IVec S_ 1 := andi main_v3 main_v9
  main_v10
-- ==== Kernel.lean ====
abbrev S16384x2048 : Shape := ⟨2, ![16384, 2048]⟩
abbrev S256 : Shape := ⟨1, ![256]⟩
abbrev S2048 : Shape := ⟨1, ![2048]⟩
abbrev S_ : Shape := ⟨0, ![]⟩
abbrev S16 : Shape := ⟨1, ![16]⟩
abbrev S1x2048 : Shape := ⟨2, ![1, 2048]⟩
abbrev S1024x2048 : Shape := ⟨2, ![1024, 2048]⟩

abbrev nBuf : Table → Nat
  | .hbm => 5
  | .local .tc .vmem => 5
  | .local .scVector .vmem => 2
  | _ => 0

abbrev bufTy : (tb : Table) → Fin (nBuf tb) → BufTy
  | .hbm, ⟨0, _⟩ => ⟨S16384x2048, .f32⟩
  | .hbm, ⟨1, _⟩ => ⟨S256, .i32⟩
  | .hbm, ⟨2, _⟩ => ⟨S2048, .f32⟩
  | .hbm, ⟨3, _⟩ => ⟨S1x2048, .f32⟩
  | .hbm, ⟨4, _⟩ => ⟨S16384x2048, .f32⟩
  | .local .tc .vmem, ⟨0, _⟩ => ⟨S1024x2048, .f32⟩
  | .local .tc .vmem, ⟨1, _⟩ => ⟨S1024x2048, .f32⟩
  | .local .tc .vmem, ⟨2, _⟩ => ⟨S1x2048, .f32⟩
  | .local .tc .vmem, ⟨3, _⟩ => ⟨S1024x2048, .f32⟩
  | .local .tc .vmem, ⟨4, _⟩ => ⟨S1024x2048, .f32⟩
  | .local .scVector .vmem, ⟨0, _⟩ => ⟨S256, .i32⟩
  | .local .scVector .vmem, ⟨1, _⟩ => ⟨S2048, .f32⟩
  | _, _ => ⟨S16384x2048, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => true
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scv : Ref sig .scVector := ⟨.hbm, 1, rfl⟩
abbrev main_v0_scv : Ref sig .scVector := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem2_0 : DmaSem sig := 5
abbrev cc1_sem2_1 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_chk1 (i : grid0.Coords) (v135 : IVec S16 32) : Prop :=
  (∀ (k0_h1 : k0_cond1 i = 1#1), ∀ a x, ((![v135] : Fin 1 → IVec S16 32) a x).toNat < S2048.size a)
instance k0_chk1.dec : ∀ (i : grid0.Coords) (v135 : IVec S16 32), Decidable (k0_chk1 i v135) := fun i v135 => decidable_of_iff' _ (Iff.of_eq (k0_chk1.eq_1 i v135))
theorem k0_idx1_inb : ∀ (i : grid0.Coords) (v135 : IVec S16 32) (k0_hw1 : k0_chk1 i v135), ∀ (k0_h1 : k0_cond1 i = 1#1), ∀ a x, ((![v135] : Fin 1 → IVec S16 32) a x).toNat < S2048.size a := fun i v135 k0_hw1 k0_h1 => k0_hw1 k0_h1

def k0_chk2 (i : grid0.Coords) (v136 : IVec S16 32) : Prop :=
  (∀ (k0_h1 : k0_cond1 i = 1#1), ∀ a x, ((![v136] : Fin 1 → IVec S16 32) a x).toNat < S2048.size a)
instance k0_chk2.dec : ∀ (i : grid0.Coords) (v136 : IVec S16 32), Decidable (k0_chk2 i v136) := fun i v136 => decidable_of_iff' _ (Iff.of_eq (k0_chk2.eq_1 i v136))
theorem k0_idx2_inb : ∀ (i : grid0.Coords) (v136 : IVec S16 32) (k0_hw2 : k0_chk2 i v136), ∀ (k0_h1 : k0_cond1 i = 1#1), ∀ a x, ((![v136] : Fin 1 → IVec S16 32) a x).toNat < S2048.size a := fun i v136 k0_hw2 k0_h1 => k0_hw2 k0_h1

def k0_chk3 (i : grid0.Coords) (v137 : IVec S16 32) : Prop :=
  (∀ (k0_h1 : k0_cond1 i = 1#1), ∀ a x, ((![v137] : Fin 1 → IVec S16 32) a x).toNat < S2048.size a)
instance k0_chk3.dec : ∀ (i : grid0.Coords) (v137 : IVec S16 32), Decidable (k0_chk3 i v137) := fun i v137 => decidable_of_iff' _ (Iff.of_eq (k0_chk3.eq_1 i v137))
theorem k0_idx3_inb : ∀ (i : grid0.Coords) (v137 : IVec S16 32) (k0_hw3 : k0_chk3 i v137), ∀ (k0_h1 : k0_cond1 i = 1#1), ∀ a x, ((![v137] : Fin 1 → IVec S16 32) a x).toNat < S2048.size a := fun i v137 k0_hw3 k0_h1 => k0_hw3 k0_h1

def k0_chk4 (i : grid0.Coords) (v138 : IVec S16 32) : Prop :=
  (∀ (k0_h1 : k0_cond1 i = 1#1), ∀ a x, ((![v138] : Fin 1 → IVec S16 32) a x).toNat < S2048.size a)
instance k0_chk4.dec : ∀ (i : grid0.Coords) (v138 : IVec S16 32), Decidable (k0_chk4 i v138) := fun i v138 => decidable_of_iff' _ (Iff.of_eq (k0_chk4.eq_1 i v138))
theorem k0_idx4_inb : ∀ (i : grid0.Coords) (v138 : IVec S16 32) (k0_hw4 : k0_chk4 i v138), ∀ (k0_h1 : k0_cond1 i = 1#1), ∀ a x, ((![v138] : Fin 1 → IVec S16 32) a x).toNat < S2048.size a := fun i v138 k0_hw4 k0_h1 => k0_hw4 k0_h1

def k0_chk5 (i : grid0.Coords) (v139 : IVec S16 32) : Prop :=
  (∀ (k0_h1 : k0_cond1 i = 1#1), ∀ a x, ((![v139] : Fin 1 → IVec S16 32) a x).toNat < S2048.size a)
instance k0_chk5.dec : ∀ (i : grid0.Coords) (v139 : IVec S16 32), Decidable (k0_chk5 i v139) := fun i v139 => decidable_of_iff' _ (Iff.of_eq (k0_chk5.eq_1 i v139))
theorem k0_idx5_inb : ∀ (i : grid0.Coords) (v139 : IVec S16 32) (k0_hw5 : k0_chk5 i v139), ∀ (k0_h1 : k0_cond1 i = 1#1), ∀ a x, ((![v139] : Fin 1 → IVec S16 32) a x).toNat < S2048.size a := fun i v139 k0_hw5 k0_h1 => k0_hw5 k0_h1

def k0_chk6 (i : grid0.Coords) (v140 : IVec S16 32) : Prop :=
  (∀ (k0_h1 : k0_cond1 i = 1#1), ∀ a x, ((![v140] : Fin 1 → IVec S16 32) a x).toNat < S2048.size a)
instance k0_chk6.dec : ∀ (i : grid0.Coords) (v140 : IVec S16 32), Decidable (k0_chk6 i v140) := fun i v140 => decidable_of_iff' _ (Iff.of_eq (k0_chk6.eq_1 i v140))
theorem k0_idx6_inb : ∀ (i : grid0.Coords) (v140 : IVec S16 32) (k0_hw6 : k0_chk6 i v140), ∀ (k0_h1 : k0_cond1 i = 1#1), ∀ a x, ((![v140] : Fin 1 → IVec S16 32) a x).toNat < S2048.size a := fun i v140 k0_hw6 k0_h1 => k0_hw6 k0_h1

def k0_chk7 (i : grid0.Coords) (v141 : IVec S16 32) : Prop :=
  (∀ (k0_h1 : k0_cond1 i = 1#1), ∀ a x, ((![v141] : Fin 1 → IVec S16 32) a x).toNat < S2048.size a)
instance k0_chk7.dec : ∀ (i : grid0.Coords) (v141 : IVec S16 32), Decidable (k0_chk7 i v141) := fun i v141 => decidable_of_iff' _ (Iff.of_eq (k0_chk7.eq_1 i v141))
theorem k0_idx7_inb : ∀ (i : grid0.Coords) (v141 : IVec S16 32) (k0_hw7 : k0_chk7 i v141), ∀ (k0_h1 : k0_cond1 i = 1#1), ∀ a x, ((![v141] : Fin 1 → IVec S16 32) a x).toNat < S2048.size a := fun i v141 k0_hw7 k0_h1 => k0_hw7 k0_h1

def k0_chk8 (i : grid0.Coords) (v142 : IVec S16 32) : Prop :=
  (∀ (k0_h1 : k0_cond1 i = 1#1), ∀ a x, ((![v142] : Fin 1 → IVec S16 32) a x).toNat < S2048.size a)
instance k0_chk8.dec : ∀ (i : grid0.Coords) (v142 : IVec S16 32), Decidable (k0_chk8 i v142) := fun i v142 => decidable_of_iff' _ (Iff.of_eq (k0_chk8.eq_1 i v142))
theorem k0_idx8_inb : ∀ (i : grid0.Coords) (v142 : IVec S16 32) (k0_hw8 : k0_chk8 i v142), ∀ (k0_h1 : k0_cond1 i = 1#1), ∀ a x, ((![v142] : Fin 1 → IVec S16 32) a x).toNat < S2048.size a := fun i v142 k0_hw8 k0_h1 => k0_hw8 k0_h1

def k0_chk9 (i : grid0.Coords) (v143 : IVec S16 32) : Prop :=
  (∀ (k0_h1 : k0_cond1 i = 1#1), ∀ a x, ((![v143] : Fin 1 → IVec S16 32) a x).toNat < S2048.size a)
instance k0_chk9.dec : ∀ (i : grid0.Coords) (v143 : IVec S16 32), Decidable (k0_chk9 i v143) := fun i v143 => decidable_of_iff' _ (Iff.of_eq (k0_chk9.eq_1 i v143))
theorem k0_idx9_inb : ∀ (i : grid0.Coords) (v143 : IVec S16 32) (k0_hw9 : k0_chk9 i v143), ∀ (k0_h1 : k0_cond1 i = 1#1), ∀ a x, ((![v143] : Fin 1 → IVec S16 32) a x).toNat < S2048.size a := fun i v143 k0_hw9 k0_h1 => k0_hw9 k0_h1

def k0_chk10 (i : grid0.Coords) (v144 : IVec S16 32) : Prop :=
  (∀ (k0_h1 : k0_cond1 i = 1#1), ∀ a x, ((![v144] : Fin 1 → IVec S16 32) a x).toNat < S2048.size a)
instance k0_chk10.dec : ∀ (i : grid0.Coords) (v144 : IVec S16 32), Decidable (k0_chk10 i v144) := fun i v144 => decidable_of_iff' _ (Iff.of_eq (k0_chk10.eq_1 i v144))
theorem k0_idx10_inb : ∀ (i : grid0.Coords) (v144 : IVec S16 32) (k0_hw10 : k0_chk10 i v144), ∀ (k0_h1 : k0_cond1 i = 1#1), ∀ a x, ((![v144] : Fin 1 → IVec S16 32) a x).toNat < S2048.size a := fun i v144 k0_hw10 k0_h1 => k0_hw10 k0_h1

def k0_chk11 (i : grid0.Coords) (v145 : IVec S16 32) : Prop :=
  (∀ (k0_h1 : k0_cond1 i = 1#1), ∀ a x, ((![v145] : Fin 1 → IVec S16 32) a x).toNat < S2048.size a)
instance k0_chk11.dec : ∀ (i : grid0.Coords) (v145 : IVec S16 32), Decidable (k0_chk11 i v145) := fun i v145 => decidable_of_iff' _ (Iff.of_eq (k0_chk11.eq_1 i v145))
theorem k0_idx11_inb : ∀ (i : grid0.Coords) (v145 : IVec S16 32) (k0_hw11 : k0_chk11 i v145), ∀ (k0_h1 : k0_cond1 i = 1#1), ∀ a x, ((![v145] : Fin 1 → IVec S16 32) a x).toNat < S2048.size a := fun i v145 k0_hw11 k0_h1 => k0_hw11 k0_h1

def k0_chk12 (i : grid0.Coords) (v146 : IVec S16 32) : Prop :=
  (∀ (k0_h1 : k0_cond1 i = 1#1), ∀ a x, ((![v146] : Fin 1 → IVec S16 32) a x).toNat < S2048.size a)
instance k0_chk12.dec : ∀ (i : grid0.Coords) (v146 : IVec S16 32), Decidable (k0_chk12 i v146) := fun i v146 => decidable_of_iff' _ (Iff.of_eq (k0_chk12.eq_1 i v146))
theorem k0_idx12_inb : ∀ (i : grid0.Coords) (v146 : IVec S16 32) (k0_hw12 : k0_chk12 i v146), ∀ (k0_h1 : k0_cond1 i = 1#1), ∀ a x, ((![v146] : Fin 1 → IVec S16 32) a x).toNat < S2048.size a := fun i v146 k0_hw12 k0_h1 => k0_hw12 k0_h1

def k0_chk13 (i : grid0.Coords) (v147 : IVec S16 32) : Prop :=
  (∀ (k0_h1 : k0_cond1 i = 1#1), ∀ a x, ((![v147] : Fin 1 → IVec S16 32) a x).toNat < S2048.size a)
instance k0_chk13.dec : ∀ (i : grid0.Coords) (v147 : IVec S16 32), Decidable (k0_chk13 i v147) := fun i v147 => decidable_of_iff' _ (Iff.of_eq (k0_chk13.eq_1 i v147))
theorem k0_idx13_inb : ∀ (i : grid0.Coords) (v147 : IVec S16 32) (k0_hw13 : k0_chk13 i v147), ∀ (k0_h1 : k0_cond1 i = 1#1), ∀ a x, ((![v147] : Fin 1 → IVec S16 32) a x).toNat < S2048.size a := fun i v147 k0_hw13 k0_h1 => k0_hw13 k0_h1

def k0_chk14 (i : grid0.Coords) (v148 : IVec S16 32) : Prop :=
  (∀ (k0_h1 : k0_cond1 i = 1#1), ∀ a x, ((![v148] : Fin 1 → IVec S16 32) a x).toNat < S2048.size a)
instance k0_chk14.dec : ∀ (i : grid0.Coords) (v148 : IVec S16 32), Decidable (k0_chk14 i v148) := fun i v148 => decidable_of_iff' _ (Iff.of_eq (k0_chk14.eq_1 i v148))
theorem k0_idx14_inb : ∀ (i : grid0.Coords) (v148 : IVec S16 32) (k0_hw14 : k0_chk14 i v148), ∀ (k0_h1 : k0_cond1 i = 1#1), ∀ a x, ((![v148] : Fin 1 → IVec S16 32) a x).toNat < S2048.size a := fun i v148 k0_hw14 k0_h1 => k0_hw14 k0_h1

def k0_chk15 (i : grid0.Coords) (v149 : IVec S16 32) : Prop :=
  (∀ (k0_h1 : k0_cond1 i = 1#1), ∀ a x, ((![v149] : Fin 1 → IVec S16 32) a x).toNat < S2048.size a)
instance k0_chk15.dec : ∀ (i : grid0.Coords) (v149 : IVec S16 32), Decidable (k0_chk15 i v149) := fun i v149 => decidable_of_iff' _ (Iff.of_eq (k0_chk15.eq_1 i v149))
theorem k0_idx15_inb : ∀ (i : grid0.Coords) (v149 : IVec S16 32) (k0_hw15 : k0_chk15 i v149), ∀ (k0_h1 : k0_cond1 i = 1#1), ∀ a x, ((![v149] : Fin 1 → IVec S16 32) a x).toNat < S2048.size a := fun i v149 k0_hw15 k0_h1 => k0_hw15 k0_h1

def k0_chk16 (i : grid0.Coords) (v150 : IVec S16 32) : Prop :=
  (∀ (k0_h1 : k0_cond1 i = 1#1), ∀ a x, ((![v150] : Fin 1 → IVec S16 32) a x).toNat < S2048.size a)
instance k0_chk16.dec : ∀ (i : grid0.Coords) (v150 : IVec S16 32), Decidable (k0_chk16 i v150) := fun i v150 => decidable_of_iff' _ (Iff.of_eq (k0_chk16.eq_1 i v150))
theorem k0_idx16_inb : ∀ (i : grid0.Coords) (v150 : IVec S16 32) (k0_hw16 : k0_chk16 i v150), ∀ (k0_h1 : k0_cond1 i = 1#1), ∀ a x, ((![v150] : Fin 1 → IVec S16 32) a x).toNat < S2048.size a := fun i v150 k0_hw16 k0_h1 => k0_hw16 k0_h1
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S2048_S16_0 : ∀ a, (![0] : Fin 1 → Nat) a + S16.size a ≤ S2048.size a
  h_S16 : 0 < S16.numel
  inb_S2048_S16_16 : ∀ a, (![16] : Fin 1 → Nat) a + S16.size a ≤ S2048.size a
  inb_S2048_S16_32 : ∀ a, (![32] : Fin 1 → Nat) a + S16.size a ≤ S2048.size a
  inb_S2048_S16_48 : ∀ a, (![48] : Fin 1 → Nat) a + S16.size a ≤ S2048.size a
  inb_S2048_S16_64 : ∀ a, (![64] : Fin 1 → Nat) a + S16.size a ≤ S2048.size a
  inb_S2048_S16_80 : ∀ a, (![80] : Fin 1 → Nat) a + S16.size a ≤ S2048.size a
  inb_S2048_S16_96 : ∀ a, (![96] : Fin 1 → Nat) a + S16.size a ≤ S2048.size a
  inb_S2048_S16_112 : ∀ a, (![112] : Fin 1 → Nat) a + S16.size a ≤ S2048.size a
  inb_S2048_S16_128 : ∀ a, (![128] : Fin 1 → Nat) a + S16.size a ≤ S2048.size a
  inb_S2048_S16_144 : ∀ a, (![144] : Fin 1 → Nat) a + S16.size a ≤ S2048.size a
  inb_S2048_S16_160 : ∀ a, (![160] : Fin 1 → Nat) a + S16.size a ≤ S2048.size a
  inb_S2048_S16_176 : ∀ a, (![176] : Fin 1 → Nat) a + S16.size a ≤ S2048.size a
  inb_S2048_S16_192 : ∀ a, (![192] : Fin 1 → Nat) a + S16.size a ≤ S2048.size a
  inb_S2048_S16_208 : ∀ a, (![208] : Fin 1 → Nat) a + S16.size a ≤ S2048.size a
  inb_S2048_S16_224 : ∀ a, (![224] : Fin 1 → Nat) a + S16.size a ≤ S2048.size a
  inb_S2048_S16_240 : ∀ a, (![240] : Fin 1 → Nat) a + S16.size a ≤ S2048.size a
  inb_S2048_S16_256 : ∀ a, (![256] : Fin 1 → Nat) a + S16.size a ≤ S2048.size a
  inb_S2048_S16_272 : ∀ a, (![272] : Fin 1 → Nat) a + S16.size a ≤ S2048.size a
  inb_S2048_S16_288 : ∀ a, (![288] : Fin 1 → Nat) a + S16.size a ≤ S2048.size a
  inb_S2048_S16_304 : ∀ a, (![304] : Fin 1 → Nat) a + S16.size a ≤ S2048.size a
  inb_S2048_S16_320 : ∀ a, (![320] : Fin 1 → Nat) a + S16.size a ≤ S2048.size a
  inb_S2048_S16_336 : ∀ a, (![336] : Fin 1 → Nat) a + S16.size a ≤ S2048.size a
  inb_S2048_S16_352 : ∀ a, (![352] : Fin 1 → Nat) a + S16.size a ≤ S2048.size a
  inb_S2048_S16_368 : ∀ a, (![368] : Fin 1 → Nat) a + S16.size a ≤ S2048.size a
  inb_S2048_S16_384 : ∀ a, (![384] : Fin 1 → Nat) a + S16.size a ≤ S2048.size a
  inb_S2048_S16_400 : ∀ a, (![400] : Fin 1 → Nat) a + S16.size a ≤ S2048.size a
  inb_S2048_S16_416 : ∀ a, (![416] : Fin 1 → Nat) a + S16.size a ≤ S2048.size a
  inb_S2048_S16_432 : ∀ a, (![432] : Fin 1 → Nat) a + S16.size a ≤ S2048.size a
  inb_S2048_S16_448 : ∀ a, (![448] : Fin 1 → Nat) a + S16.size a ≤ S2048.size a
  inb_S2048_S16_464 : ∀ a, (![464] : Fin 1 → Nat) a + S16.size a ≤ S2048.size a
  inb_S2048_S16_480 : ∀ a, (![480] : Fin 1 → Nat) a + S16.size a ≤ S2048.size a
  inb_S2048_S16_496 : ∀ a, (![496] : Fin 1 → Nat) a + S16.size a ≤ S2048.size a
  inb_S2048_S16_512 : ∀ a, (![512] : Fin 1 → Nat) a + S16.size a ≤ S2048.size a
  inb_S2048_S16_528 : ∀ a, (![528] : Fin 1 → Nat) a + S16.size a ≤ S2048.size a
  inb_S2048_S16_544 : ∀ a, (![544] : Fin 1 → Nat) a + S16.size a ≤ S2048.size a
  inb_S2048_S16_560 : ∀ a, (![560] : Fin 1 → Nat) a + S16.size a ≤ S2048.size a
  inb_S2048_S16_576 : ∀ a, (![576] : Fin 1 → Nat) a + S16.size a ≤ S2048.size a
  inb_S2048_S16_592 : ∀ a, (![592] : Fin 1 → Nat) a + S16.size a ≤ S2048.size a
  inb_S2048_S16_608 : ∀ a, (![608] : Fin 1 → Nat) a + S16.size a ≤ S2048.size a
  inb_S2048_S16_624 : ∀ a, (![624] : Fin 1 → Nat) a + S16.size a ≤ S2048.size a
  inb_S2048_S16_640 : ∀ a, (![640] : Fin 1 → Nat) a + S16.size a ≤ S2048.size a
  inb_S2048_S16_656 : ∀ a, (![656] : Fin 1 → Nat) a + S16.size a ≤ S2048.size a
  inb_S2048_S16_672 : ∀ a, (![672] : Fin 1 → Nat) a + S16.size a ≤ S2048.size a
  inb_S2048_S16_688 : ∀ a, (![688] : Fin 1 → Nat) a + S16.size a ≤ S2048.size a
  inb_S2048_S16_704 : ∀ a, (![704] : Fin 1 → Nat) a + S16.size a ≤ S2048.size a
  inb_S2048_S16_720 : ∀ a, (![720] : Fin 1 → Nat) a + S16.size a ≤ S2048.size a
  inb_S2048_S16_736 : ∀ a, (![736] : Fin 1 → Nat) a + S16.size a ≤ S2048.size a
  inb_S2048_S16_752 : ∀ a, (![752] : Fin 1 → Nat) a + S16.size a ≤ S2048.size a
  inb_S2048_S16_768 : ∀ a, (![768] : Fin 1 → Nat) a + S16.size a ≤ S2048.size a
  inb_S2048_S16_784 : ∀ a, (![784] : Fin 1 → Nat) a + S16.size a ≤ S2048.size a
  inb_S2048_S16_800 : ∀ a, (![800] : Fin 1 → Nat) a + S16.size a ≤ S2048.size a
  inb_S2048_S16_816 : ∀ a, (![816] : Fin 1 → Nat) a + S16.size a ≤ S2048.size a
  inb_S2048_S16_832 : ∀ a, (![832] : Fin 1 → Nat) a + S16.size a ≤ S2048.size a
  inb_S2048_S16_848 : ∀ a, (![848] : Fin 1 → Nat) a + S16.size a ≤ S2048.size a
  inb_S2048_S16_864 : ∀ a, (![864] : Fin 1 → Nat) a + S16.size a ≤ S2048.size a
  inb_S2048_S16_880 : ∀ a, (![880] : Fin 1 → Nat) a + S16.size a ≤ S2048.size a
  inb_S2048_S16_896 : ∀ a, (![896] : Fin 1 → Nat) a + S16.size a ≤ S2048.size a
  inb_S2048_S16_912 : ∀ a, (![912] : Fin 1 → Nat) a + S16.size a ≤ S2048.size a
  inb_S2048_S16_928 : ∀ a, (![928] : Fin 1 → Nat) a + S16.size a ≤ S2048.size a
  inb_S2048_S16_944 : ∀ a, (![944] : Fin 1 → Nat) a + S16.size a ≤ S2048.size a
  inb_S2048_S16_960 : ∀ a, (![960] : Fin 1 → Nat) a + S16.size a ≤ S2048.size a
  inb_S2048_S16_976 : ∀ a, (![976] : Fin 1 → Nat) a + S16.size a ≤ S2048.size a
  inb_S2048_S16_992 : ∀ a, (![992] : Fin 1 → Nat) a + S16.size a ≤ S2048.size a
  inb_S2048_S16_1008 : ∀ a, (![1008] : Fin 1 → Nat) a + S16.size a ≤ S2048.size a
  inb_S2048_S16_1024 : ∀ a, (![1024] : Fin 1 → Nat) a + S16.size a ≤ S2048.size a
  inb_S2048_S16_1040 : ∀ a, (![1040] : Fin 1 → Nat) a + S16.size a ≤ S2048.size a
  inb_S2048_S16_1056 : ∀ a, (![1056] : Fin 1 → Nat) a + S16.size a ≤ S2048.size a
  inb_S2048_S16_1072 : ∀ a, (![1072] : Fin 1 → Nat) a + S16.size a ≤ S2048.size a
  inb_S2048_S16_1088 : ∀ a, (![1088] : Fin 1 → Nat) a + S16.size a ≤ S2048.size a
  inb_S2048_S16_1104 : ∀ a, (![1104] : Fin 1 → Nat) a + S16.size a ≤ S2048.size a
  inb_S2048_S16_1120 : ∀ a, (![1120] : Fin 1 → Nat) a + S16.size a ≤ S2048.size a
  inb_S2048_S16_1136 : ∀ a, (![1136] : Fin 1 → Nat) a + S16.size a ≤ S2048.size a
  inb_S2048_S16_1152 : ∀ a, (![1152] : Fin 1 → Nat) a + S16.size a ≤ S2048.size a
  inb_S2048_S16_1168 : ∀ a, (![1168] : Fin 1 → Nat) a + S16.size a ≤ S2048.size a
  inb_S2048_S16_1184 : ∀ a, (![1184] : Fin 1 → Nat) a + S16.size a ≤ S2048.size a
  inb_S2048_S16_1200 : ∀ a, (![1200] : Fin 1 → Nat) a + S16.size a ≤ S2048.size a
  inb_S2048_S16_1216 : ∀ a, (![1216] : Fin 1 → Nat) a + S16.size a ≤ S2048.size a
  inb_S2048_S16_1232 : ∀ a, (![1232] : Fin 1 → Nat) a + S16.size a ≤ S2048.size a
  inb_S2048_S16_1248 : ∀ a, (![1248] : Fin 1 → Nat) a + S16.size a ≤ S2048.size a
  inb_S2048_S16_1264 : ∀ a, (![1264] : Fin 1 → Nat) a + S16.size a ≤ S2048.size a
  inb_S2048_S16_1280 : ∀ a, (![1280] : Fin 1 → Nat) a + S16.size a ≤ S2048.size a
  inb_S2048_S16_1296 : ∀ a, (![1296] : Fin 1 → Nat) a + S16.size a ≤ S2048.size a
  inb_S2048_S16_1312 : ∀ a, (![1312] : Fin 1 → Nat) a + S16.size a ≤ S2048.size a
  inb_S2048_S16_1328 : ∀ a, (![1328] : Fin 1 → Nat) a + S16.size a ≤ S2048.size a
  inb_S2048_S16_1344 : ∀ a, (![1344] : Fin 1 → Nat) a + S16.size a ≤ S2048.size a
  inb_S2048_S16_1360 : ∀ a, (![1360] : Fin 1 → Nat) a + S16.size a ≤ S2048.size a
  inb_S2048_S16_1376 : ∀ a, (![1376] : Fin 1 → Nat) a + S16.size a ≤ S2048.size a
  inb_S2048_S16_1392 : ∀ a, (![1392] : Fin 1 → Nat) a + S16.size a ≤ S2048.size a
  inb_S2048_S16_1408 : ∀ a, (![1408] : Fin 1 → Nat) a + S16.size a ≤ S2048.size a
  inb_S2048_S16_1424 : ∀ a, (![1424] : Fin 1 → Nat) a + S16.size a ≤ S2048.size a
  inb_S2048_S16_1440 : ∀ a, (![1440] : Fin 1 → Nat) a + S16.size a ≤ S2048.size a
  inb_S2048_S16_1456 : ∀ a, (![1456] : Fin 1 → Nat) a + S16.size a ≤ S2048.size a
  inb_S2048_S16_1472 : ∀ a, (![1472] : Fin 1 → Nat) a + S16.size a ≤ S2048.size a
  inb_S2048_S16_1488 : ∀ a, (![1488] : Fin 1 → Nat) a + S16.size a ≤ S2048.size a
  inb_S2048_S16_1504 : ∀ a, (![1504] : Fin 1 → Nat) a + S16.size a ≤ S2048.size a
  inb_S2048_S16_1520 : ∀ a, (![1520] : Fin 1 → Nat) a + S16.size a ≤ S2048.size a
  inb_S2048_S16_1536 : ∀ a, (![1536] : Fin 1 → Nat) a + S16.size a ≤ S2048.size a
  inb_S2048_S16_1552 : ∀ a, (![1552] : Fin 1 → Nat) a + S16.size a ≤ S2048.size a
  inb_S2048_S16_1568 : ∀ a, (![1568] : Fin 1 → Nat) a + S16.size a ≤ S2048.size a
  inb_S2048_S16_1584 : ∀ a, (![1584] : Fin 1 → Nat) a + S16.size a ≤ S2048.size a
  inb_S2048_S16_1600 : ∀ a, (![1600] : Fin 1 → Nat) a + S16.size a ≤ S2048.size a
  inb_S2048_S16_1616 : ∀ a, (![1616] : Fin 1 → Nat) a + S16.size a ≤ S2048.size a
  inb_S2048_S16_1632 : ∀ a, (![1632] : Fin 1 → Nat) a + S16.size a ≤ S2048.size a
  inb_S2048_S16_1648 : ∀ a, (![1648] : Fin 1 → Nat) a + S16.size a ≤ S2048.size a
  inb_S2048_S16_1664 : ∀ a, (![1664] : Fin 1 → Nat) a + S16.size a ≤ S2048.size a
  inb_S2048_S16_1680 : ∀ a, (![1680] : Fin 1 → Nat) a + S16.size a ≤ S2048.size a
  inb_S2048_S16_1696 : ∀ a, (![1696] : Fin 1 → Nat) a + S16.size a ≤ S2048.size a
  inb_S2048_S16_1712 : ∀ a, (![1712] : Fin 1 → Nat) a + S16.size a ≤ S2048.size a
  inb_S2048_S16_1728 : ∀ a, (![1728] : Fin 1 → Nat) a + S16.size a ≤ S2048.size a
  inb_S2048_S16_1744 : ∀ a, (![1744] : Fin 1 → Nat) a + S16.size a ≤ S2048.size a
  inb_S2048_S16_1760 : ∀ a, (![1760] : Fin 1 → Nat) a + S16.size a ≤ S2048.size a
  inb_S2048_S16_1776 : ∀ a, (![1776] : Fin 1 → Nat) a + S16.size a ≤ S2048.size a
  inb_S2048_S16_1792 : ∀ a, (![1792] : Fin 1 → Nat) a + S16.size a ≤ S2048.size a
  inb_S2048_S16_1808 : ∀ a, (![1808] : Fin 1 → Nat) a + S16.size a ≤ S2048.size a
  inb_S2048_S16_1824 : ∀ a, (![1824] : Fin 1 → Nat) a + S16.size a ≤ S2048.size a
  inb_S2048_S16_1840 : ∀ a, (![1840] : Fin 1 → Nat) a + S16.size a ≤ S2048.size a
  inb_S2048_S16_1856 : ∀ a, (![1856] : Fin 1 → Nat) a + S16.size a ≤ S2048.size a
  inb_S2048_S16_1872 : ∀ a, (![1872] : Fin 1 → Nat) a + S16.size a ≤ S2048.size a
  inb_S2048_S16_1888 : ∀ a, (![1888] : Fin 1 → Nat) a + S16.size a ≤ S2048.size a
  inb_S2048_S16_1904 : ∀ a, (![1904] : Fin 1 → Nat) a + S16.size a ≤ S2048.size a
  inb_S2048_S16_1920 : ∀ a, (![1920] : Fin 1 → Nat) a + S16.size a ≤ S2048.size a
  inb_S2048_S16_1936 : ∀ a, (![1936] : Fin 1 → Nat) a + S16.size a ≤ S2048.size a
  inb_S2048_S16_1952 : ∀ a, (![1952] : Fin 1 → Nat) a + S16.size a ≤ S2048.size a
  inb_S2048_S16_1968 : ∀ a, (![1968] : Fin 1 → Nat) a + S16.size a ≤ S2048.size a
  inb_S2048_S16_1984 : ∀ a, (![1984] : Fin 1 → Nat) a + S16.size a ≤ S2048.size a
  inb_S2048_S16_2000 : ∀ a, (![2000] : Fin 1 → Nat) a + S16.size a ≤ S2048.size a
  inb_S2048_S16_2016 : ∀ a, (![2016] : Fin 1 → Nat) a + S16.size a ≤ S2048.size a
  inb_S2048_S16_2032 : ∀ a, (![2032] : Fin 1 → Nat) a + S16.size a ≤ S2048.size a
  inb_S256_S16_0 : ∀ a, (![0] : Fin 1 → Nat) a + S16.size a ≤ S256.size a
  h_S2048 : 0 < S2048.numel
  inb_S256_S16_16 : ∀ a, (![16] : Fin 1 → Nat) a + S16.size a ≤ S256.size a
  inb_S256_S16_32 : ∀ a, (![32] : Fin 1 → Nat) a + S16.size a ≤ S256.size a
  inb_S256_S16_48 : ∀ a, (![48] : Fin 1 → Nat) a + S16.size a ≤ S256.size a
  inb_S256_S16_64 : ∀ a, (![64] : Fin 1 → Nat) a + S16.size a ≤ S256.size a
  inb_S256_S16_80 : ∀ a, (![80] : Fin 1 → Nat) a + S16.size a ≤ S256.size a
  inb_S256_S16_96 : ∀ a, (![96] : Fin 1 → Nat) a + S16.size a ≤ S256.size a
  inb_S256_S16_112 : ∀ a, (![112] : Fin 1 → Nat) a + S16.size a ≤ S256.size a
  inb_S256_S16_128 : ∀ a, (![128] : Fin 1 → Nat) a + S16.size a ≤ S256.size a
  inb_S256_S16_144 : ∀ a, (![144] : Fin 1 → Nat) a + S16.size a ≤ S256.size a
  inb_S256_S16_160 : ∀ a, (![160] : Fin 1 → Nat) a + S16.size a ≤ S256.size a
  inb_S256_S16_176 : ∀ a, (![176] : Fin 1 → Nat) a + S16.size a ≤ S256.size a
  inb_S256_S16_192 : ∀ a, (![192] : Fin 1 → Nat) a + S16.size a ≤ S256.size a
  inb_S256_S16_208 : ∀ a, (![208] : Fin 1 → Nat) a + S16.size a ≤ S256.size a
  inb_S256_S16_224 : ∀ a, (![224] : Fin 1 → Nat) a + S16.size a ≤ S256.size a
  inb_S256_S16_240 : ∀ a, (![240] : Fin 1 → Nat) a + S16.size a ≤ S256.size a
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  hcc0_scoped0 : 0 + S_.numel ≤ 7
  hcc0_scoped1 : 1 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x2048.size a
  hwx1_0 : ∀ i : grid1.Coords, EltTy.bits .f32 = 32 ∨ (Rect.block (s := S16384x2048) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048.size a ≤ S1x2048.size a
  hwx1_1 : ∀ i : grid1.Coords, EltTy.bits .f32 = 32 ∨ (Rect.block (s := S1x2048) S1x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S16384x2048.size a
  hwx1_2 : ∀ i : grid1.Coords, EltTy.bits .f32 = 32 ∨ (Rect.block (s := S16384x2048) S1024x2048.size (cc1_transform_2 i) (hinb1_2 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1

abbrev win1_0 : Pipeline.Window sig grid1 :=
  Pipeline.Window.ofSpec (Memref.whole main_arg0) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x2048 : Shape := ⟨2, ![16384, 2048]⟩
abbrev S256 : Shape := ⟨1, ![256]⟩
abbrev S_ : Shape := ⟨0, ![]⟩
abbrev S256x1 : Shape := ⟨2, ![256, 1]⟩
abbrev S16384x256 : Shape := ⟨2, ![16384, 256]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S256, .i32⟩
  | .hbm, ⟨2, _⟩ => ⟨S_, .i32⟩
  | .hbm, ⟨3, _⟩ => ⟨S256, .i32⟩
  | .hbm, ⟨4, _⟩ => ⟨S256, .i1⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S256, .i32⟩
  | .hbm, ⟨9, _⟩ => ⟨S256x1, .i32⟩
  | .hbm, ⟨10, _⟩ => ⟨S_, .f32⟩
  | .hbm, ⟨11, _⟩ => ⟨S16384x256, .f32⟩
  | .hbm, ⟨12, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S256 : S_.BroadcastsInDim S256 (![] : Fin 0 → Fin S256.rank)
  bcast_S256_S256x1_0 : S256.BroadcastsInDim S256x1 (![0] : Fin 1 → Fin S256x1.rank)
  bcast_S_S16384x256 : S_.BroadcastsInDim S16384x256 (![] : Fin 0 → Fin S16384x256.rank)
  scatter_S16384x2048_S256x1_S16384x256_0_1_1_1_wf : ScatterDims.WF S16384x2048 S256x1 S16384x256 [0] [1] [1] 1

variable [Facts₀]

def scatter_S16384x2048_S256x1_S16384x256_0_1_1_1 : ScatterDims S16384x2048 S256x1 S16384x256 where
  updateWindowDims := [0]
  insertedWindowDims := [1]
  scatterDimsToOperandDims := [1]
  indexVectorDim := 1
  wf := scatter_S16384x2048_S256x1_S16384x256_0_1_1_1_wf

class Facts : Prop extends Facts₀ where

variable [Facts]
-- ==== Proof.PreFacts.lean ====
/-
  What the input-domain precondition says about the index list. The precondition is a conjunction of two
  "for all" tests, each printed as an and-reduction of a one-bit array down to a single bit: every table entry
  has magnitude below +inf, and every index word, read as a signed integer, lies between 0 and 2047. This module
  reads the second test back: when the whole predicate is 1, each index word k satisfies 0 ≤ k ≤ 2047 as a
  signed integer, hence its unsigned reading is below 2048 (a non-negative signed reading IS the unsigned one).
  Nothing here depends on the float instance: the table's entries are never inspected.
-/
import proofs.«207358_g28870770164171_cont_9to1_1763_19_alg».proof.Pre_input_domain
import proofs.«207358_g28870770164171_cont_9to1_1763_19_alg».proof.Proof.Gen.Pre_input_domain
import Idealize.ShloMosaic.Lib.ReduceAll
import Idealize.ShloMosaic.Lib.ValueIdx

namespace Cert.PreFacts

open Idealize.ShloMosaic Cert.Pre_input_domain

/-- The rank-0 shape has exactly one index. -/
instance : Subsingleton S_.Idx := ⟨fun a b => funext fun d => d.elim0⟩

/-- A signed reading in [0, 2047] of a 32-bit word is its unsigned reading. -/
theorem toNat_of_toInt_range (b : BitVec 32) (h0 : 0 ≤ b.toInt) : (b.toNat : Int) = b.toInt := by
  have hlt := b.isLt
  rw [BitVec.toInt_eq_toNat_cond] at h0 ⊢
  by_cases hc : 2 * b.toNat < 2 ^ 32
  · rw [if_pos hc]
  · rw [if_neg hc] at h0; omega

/-- Under the precondition every index word is, as a signed integer, between 0 and 2047. -/
theorem idx_range {F : FTy → Type} [FloatOps F] [Cert.Pre_input_domain.Facts]
    (x : FVec F Cert.Pre_input_domain.S16384x2048 .f32) (idx : IVec Cert.Pre_input_domain.S256 32)
    (h : Cert.Pre_input_domain.fn (F := F) x idx = fun _ => 1#1) :
    ∀ k : Cert.Pre_input_domain.S256.Idx, 0 ≤ (idx k).toInt ∧ (idx k).toInt ≤ 2047 := by
  intro k
  have h0 := congrFun h ValueIdx.ix0
  dsimp only [Cert.Pre_input_domain.fn] at h0
  -- the predicate is the conjunction of the two tests
  obtain ⟨_, h9⟩ := IntOp.andi_eq_one.1 h0
  -- the second test is an and-reduction over every index word: each word passes
  have hk := Host.reduce_andi_all _ _ _ _ _ h9 k
  obtain ⟨h5, h7⟩ := IntOp.andi_eq_one.1 hk
  have h5' := IntOp.cmpi_sge.1 h5
  have h7' := IntOp.cmpi_sle.1 h7
  exact ⟨h5', h7'⟩

/-- Under the precondition every index word, read unsigned, names a column of the table. -/
theorem idx_lt {F : FTy → Type} [FloatOps F] [Cert.Pre_input_domain.Facts]
    (x : FVec F Cert.Pre_input_domain.S16384x2048 .f32) (idx : IVec Cert.Pre_input_domain.S256 32)
    (h : Cert.Pre_input_domain.fn (F := F) x idx = fun _ => 1#1) :
    ∀ k : Cert.Pre_input_domain.S256.Idx, (idx k).toNat < 2048 := by
  intro k
  obtain ⟨h0, h1⟩ := idx_range x idx h k
  have := toNat_of_toInt_range (idx k) h0
  omega

end Cert.PreFacts
-- ==== Proof.Spec.lean ====
/-
  What both programs compute. A column of the table is HIT when some entry of the index list names it. The mask row
  holds the word of 0.0 at every hit column and the word of 1.0 elsewhere; the masked table keeps an entry of a column that
  is not hit and holds the word of 0.0 at a hit one. The kernel's result is the table times the mask row, entry by entry
  (`timesMask`); on the extended reals that product is the masked table (`timesMask_eq_masked`), because x · 0 = 0 and
  x · 1 = x hold for every extended real x, the infinities included.
-/
import Idealize.ShloMosaic.PureOps.Ideal
import Idealize.ShloMosaic.PureOps.Ideal.Laws
import Idealize.ShloMosaic.Lib.ValueIdx

noncomputable section

namespace Cert.MaskSpec

open Idealize.ShloMosaic Idealize.ShloMosaic.ValueIdx

/-- The table, the index list, the mask row. -/
abbrev SX : Shape := ⟨2, ![16384, 2048]⟩
abbrev SI : Shape := ⟨1, ![256]⟩
abbrev SM : Shape := ⟨1, ![2048]⟩

/-- Column `c` is named by some entry of the index list (read as an unsigned word). -/
def Hit (idx : IVec SI 32) (c : Nat) : Prop := ∃ k : SI.Idx, (idx k).toNat = c

variable {F : FTy → Type} [FloatOps F]

open Classical in
/-- The mask row: 0.0 at a hit column, 1.0 elsewhere. -/
def maskOf (idx : IVec SI 32) : FVec F SM .f32 := fun j =>
  if Hit idx (j 0).val then Scalar.ofBits .f32 0x00000000#32 else Scalar.ofBits .f32 0x3F800000#32

/-- The table times the mask row, entry by entry: entry (r, c) times the mask's entry c. -/
def timesMask (x : FVec F SX .f32) (idx : IVec SI 32) : FVec F SX .f32 := fun i =>
  FloatOps.mulf (x i) (maskOf (F := F) idx (ix1 (i 1)))

open Classical in
/-- The masked table: 0.0 in every hit column, the table's entry elsewhere. -/
def masked (x : FVec F SX .f32) (idx : IVec SI 32) : FVec F SX .f32 := fun i =>
  if Hit idx (i 1).val then Scalar.ofBits .f32 0x00000000#32 else x i

theorem one_word : Ideal.ofBits .f32 0x3F800000#32 = 1 := by
  simp [Ideal.ofBits, Ideal.ieee, -EReal.coe_mul]; norm_num

/-- On the extended reals the product with the mask row is the masked table. -/
theorem timesMask_eq_masked (x : FVec Ideal SX .f32) (idx : IVec SI 32) :
    timesMask (F := Ideal) x idx = masked (F := Ideal) x idx := by
  funext i
  unfold timesMask masked maskOf
  by_cases h : Hit idx (i 1).val
  · have h' : Hit idx ((ix1 (i 1) : SM.Idx) 0).val := h
    rw [if_pos h', if_pos h]
    show x i * Ideal.ofBits .f32 0x00000000#32 = Ideal.ofBits .f32 0x00000000#32
    rw [Ideal.ofBits_zero_f32, mul_zero]
  · have h' : ¬ Hit idx ((ix1 (i 1) : SM.Idx) 0).val := h
    rw [if_neg h', if_neg h]
    show x i * Ideal.ofBits .f32 0x3F800000#32 = x i
    rw [one_word, mul_one]

end Cert.MaskSpec

end
-- ==== Proof.LibFoldOverwrite.lean ====
/-
  A left fold that overwrites single entries of a function with one fixed value.

  Let `step r n` either replace the entry of `r` at ONE index — the target `tgt n = some i` — by a value `z` that
  does not depend on `n` or on `r`, leaving every other entry alone, or (when `tgt n = none`) return `r` unchanged.
  Folding such steps over a list `l` from a start function `x` gives, at an index `i'`, the value `z` if some element of
  `l` has target `i'`, and `x i'` otherwise. Because the written value is always the same `z`, neither the order of the
  list nor repeated targets matter: an entry once overwritten stays `z`, an entry never targeted keeps its start value.
  The proof is an induction on the list with the start function generalised.
-/
import Mathlib.Data.List.Basic

namespace Cert.LibFoldOverwrite

open Classical in
/-- The result of a left fold of overwrite-one-index-with-`z` steps, read at an index: `z` where some list element
    targets the index, the start value elsewhere. The steps are given abstractly by the two equations they satisfy:
    on a target `i` the new function is `z` at `i` and the old function off `i`; without a target it is the old function. -/
theorem foldl_overwrite {ι β α : Type} (step : (β → α) → ι → (β → α)) (tgt : ι → Option β) (z : α)
    (hsome : ∀ (r : β → α) (n : ι) (i : β), tgt n = some i → step r n i = z ∧ ∀ i', i' ≠ i → step r n i' = r i')
    (hnone : ∀ (r : β → α) (n : ι), tgt n = none → step r n = r) :
    ∀ (l : List ι) (x : β → α) (i' : β),
      l.foldl step x i' = if ∃ n ∈ l, tgt n = some i' then z else x i'
  | [], x, i' => by
    rw [List.foldl_nil, if_neg]
    rintro ⟨n, hn, _⟩
    exact absurd hn (List.not_mem_nil)
  | a :: l, x, i' => by
    rw [List.foldl_cons, foldl_overwrite step tgt z hsome hnone l (step x a) i']
    by_cases hl : ∃ n ∈ l, tgt n = some i'
    · obtain ⟨n, hn, e⟩ := hl
      rw [if_pos ⟨n, hn, e⟩, if_pos ⟨n, List.mem_cons_of_mem _ hn, e⟩]
    · rw [if_neg hl]
      cases ha : tgt a with
      | none =>
        rw [hnone x a ha, if_neg]
        rintro ⟨n, hn, e⟩
        rcases List.mem_cons.1 hn with rfl | hn
        · rw [ha] at e; cases e
        · exact hl ⟨n, hn, e⟩
      | some i =>
        by_cases hi : i' = i
        · subst hi
          rw [(hsome x a i' ha).1, if_pos ⟨a, List.mem_cons_self, ha⟩]
        · rw [(hsome x a i ha).2 i' hi, if_neg]
          rintro ⟨n, hn, e⟩
          rcases List.mem_cons.1 hn with rfl | hn
          · rw [ha] at e; exact hi (Option.some.inj e).symm
          · exact hl ⟨n, hn, e⟩

end Cert.LibFoldOverwrite
-- ==== Proof.RefValue.lean ====
/-
  The reference, read as a function of the table and the index list.

  The reference overwrites columns of the table: for each of the 256 index words it sets, in every one of the 16384
  rows, the entry of the column the word names to 0.0. It is printed as ONE scatter of a [16384, 256] array of zeros
  into the table, update (r, c) going to row r and to the column named by index word c — a word that is negative as a
  signed integer is first moved up by 2048 — and being dropped when that column is outside the table. The scatter is a
  left fold over all 16384 · 256 updates, each overwriting one entry with the same value 0.0.

  Since every update writes the same value, the fold's result at an entry (r, q) is 0.0 when SOME update lands on
  (r, q) and the table's entry otherwise (the overwrite-fold lemma). Update (r', c) lands on (r, q) exactly when
  r' = r and the word c, as a signed integer t, has 0 ≤ t < 2048 and t = q. With every word in [0, 2047] — the range
  hypothesis — no word is moved, the signed and the unsigned reading of a word agree, and "some update lands on (r, q)"
  says "some index word, read unsigned, is q": column q is hit. So the reference's result is the masked table of the
  specification: 0.0 in every hit column, the table's own entry elsewhere.
-/
import proofs.«207358_g28870770164171_cont_9to1_1763_19_alg».proof.Defs
import proofs.«207358_g28870770164171_cont_9to1_1763_19_alg».proof.Proof.Gen.Pre_input_domain
import proofs.«207358_g28870770164171_cont_9to1_1763_19_alg».proof.Proof.Gen.ReferenceIdeal.Run
import proofs.«207358_g28870770164171_cont_9to1_1763_19_alg».proof.Proof.Gen.ReferenceIdeal.Read
import proofs.«207358_g28870770164171_cont_9to1_1763_19_alg».proof.Proof.Spec
import proofs.«207358_g28870770164171_cont_9to1_1763_19_alg».proof.Proof.LibFoldOverwrite

noncomputable section

namespace Cert.ReferenceIdeal.RefValue

open Cert.ReferenceIdeal Cert.ReferenceIdeal.Gen Idealize.ShloMosaic Idealize.ShloMosaic.ValueIdx
  Idealize.ShloMosaic.TcCoe Idealize.SL.Sem

/-- The scatter's dimension numbers: update axis 0 is the window axis and goes to table axis 0; update axis 1 runs over
    the index words; each index word is a start on table axis 1, where the window has extent one. -/
abbrev D : ScatterDims S16384x2048 S256x1 S16384x256 := scatter_S16384x2048_S256x1_S16384x256_0_1_1_1

/-! ## Where update (r, c) lands -/

/-- Update (r, c) reads its start index at row c of the [256, 1] index array. -/
theorem siIdx_eq (r : Fin 16384) (c : Fin 256) (e : Fin D.scatterDimsToOperandDims.length) :
    D.siIdx (ix2 r c) e = ix2 c (0 : Fin 1) := by
  funext b
  match b with
  | ⟨0, _⟩ => rfl
  | ⟨1, _⟩ => exact Fin.ext (by have := e.isLt; change e.val < 1 at this; show e.val = 0; omega)

/-- No start on the row axis. -/
theorem start_zero {w : Nat} (r : Fin 16384) (c : Fin 256) (idx : IVec S256x1 w) :
    D.start (ix2 r c) idx (0 : Fin 2) = 0 := rfl

/-- The start on the column axis is index word c, read signed. -/
theorem start_one {w : Nat} (r : Fin 16384) (c : Fin 256) (idx : IVec S256x1 w) :
    D.start (ix2 r c) idx (1 : Fin 2) = (idx (ix2 c (0 : Fin 1))).toInt :=
  congrArg (fun k => (idx k).toInt) (siIdx_eq r c ⟨0, by decide⟩)

/-- The window coordinate on the row axis is the update's row. -/
theorem window_zero (r : Fin 16384) (c : Fin 256) : D.window (ix2 r c) (0 : Fin 2) = r.val := rfl

/-- The window has extent one on the column axis. -/
theorem window_one (r : Fin 16384) (c : Fin 256) : D.window (ix2 r c) (1 : Fin 2) = 0 := rfl

/-- Update (r, c) lands on table entry `i` exactly when `i` is in row r and index word c, as a signed integer, is a
    column of the table and is `i`'s column. -/
theorem resultIdx?_eq_some_iff {w : Nat} (r : Fin 16384) (c : Fin 256) (idx : IVec S256x1 w) (i : S16384x2048.Idx) :
    D.resultIdx? (ix2 r c) idx = some i ↔
      (i 0).val = r.val ∧ 0 ≤ (idx (ix2 c (0 : Fin 1))).toInt ∧ (idx (ix2 c (0 : Fin 1))).toInt < 2048
        ∧ ((i 1).val : Int) = (idx (ix2 c (0 : Fin 1))).toInt := by
  have e0 : D.start (ix2 r c) idx (0 : Fin 2) + D.window (ix2 r c) (0 : Fin 2) = (r.val : Int) := by
    rw [start_zero, window_zero, zero_add]
  have e1 : D.start (ix2 r c) idx (1 : Fin 2) + D.window (ix2 r c) (1 : Fin 2) = (idx (ix2 c (0 : Fin 1))).toInt := by
    rw [start_one, window_one, Nat.cast_zero, add_zero]
  have s0 : S16384x2048.size (0 : Fin 2) = 16384 := rfl
  have s1 : S16384x2048.size (1 : Fin 2) = 2048 := rfl
  have hr := r.isLt
  unfold ScatterDims.resultIdx?
  constructor
  · intro h
    by_cases hall : ∀ a, 0 ≤ D.start (ix2 r c) idx a + D.window (ix2 r c) a
        ∧ D.start (ix2 r c) idx a + D.window (ix2 r c) a < S16384x2048.size a
    · rw [dif_pos hall] at h
      have hi := Option.some.inj h
      have h0 := congrArg (fun f : S16384x2048.Idx => (f (0 : Fin 2)).val) hi
      have h1 := congrArg (fun f : S16384x2048.Idx => (f (1 : Fin 2)).val) hi
      have b1 := hall (1 : Fin 2)
      dsimp only at h0 h1
      rw [e0] at h0
      rw [e1] at h1
      rw [e1, s1] at b1
      refine ⟨by omega, b1.1, by exact_mod_cast b1.2, by omega⟩
    · rw [dif_neg hall] at h; cases h
  · rintro ⟨h0, h1, h2, h3⟩
    have hall : ∀ a : Fin 2, 0 ≤ D.start (ix2 r c) idx a + D.window (ix2 r c) a
        ∧ D.start (ix2 r c) idx a + D.window (ix2 r c) a < S16384x2048.size a := by
      refine Fin.forall_fin_two.2 ⟨?_, ?_⟩
      · rw [e0, s0]; omega
      · rw [e1, s1]; exact ⟨h1, by exact_mod_cast h2⟩
    rw [dif_pos hall]
    refine congrArg some (funext fun a => Fin.ext ?_)
    revert a
    refine Fin.forall_fin_two.2 ⟨?_, ?_⟩
    · show (D.start (ix2 r c) idx (0 : Fin 2) + D.window (ix2 r c) (0 : Fin 2)).toNat = (i (0 : Fin 2)).val
      rw [e0]; omega
    · show (D.start (ix2 r c) idx (1 : Fin 2) + D.window (ix2 r c) (1 : Fin 2)).toNat = (i (1 : Fin 2)).val
      rw [e1]; omega

/-! ## The index words the scatter reads -/

variable {F : FTy → Type} [FloatOps F]

/-- A 32-bit word whose signed reading is non-negative has that reading as its unsigned one. -/
theorem toNat_eq_toInt (b : BitVec 32) (h0 : 0 ≤ b.toInt) : (b.toNat : Int) = b.toInt := by
  have hlt := b.isLt
  rw [BitVec.toInt_eq_toNat_cond] at h0 ⊢
  by_cases hc : 2 * b.toNat < 2 ^ 32
  · rw [if_pos hc]
  · rw [if_neg hc] at h0; omega

/-- The reference moves a negative index word up by 2048 and keeps the others: a word in range is kept, so row c of the
    [256, 1] index array the scatter reads is index word c itself. -/
theorem index_word (idx : IVec S256 32) (c : Fin 256) (h0 : 0 ≤ (idx (ix1 c)).toInt) :
    Read.val_main_v5 (F := F) idx (ix2 c (0 : Fin 1)) = idx (ix1 c) := by
  have hk : Read.idx_main_v5 (ix2 c (0 : Fin 1)) = ix1 c := funext fun a => by
    match a with
    | ⟨0, _⟩ => rfl
  rw [Read.val_main_v5_apply, hk, Read.val_main_v4_apply, Read.val_main_v1_apply, Read.val_main_v0_apply,
    Read.val_main_c_apply]
  have hc : IntOp.cmpi .slt (idx (ix1 c)) 0#32 = 0#1 :=
    eq_zero_of_ne_one fun h => by
      have := IntOp.cmpi_slt.1 h
      rw [BitVec.toInt_zero] at this
      omega
  rw [hc, select_zero]

/-! ## The scatter is the masked table -/

/-- With every index word in [0, 2047]: some update lands on table entry `i'` exactly when the column of `i'` is hit,
    that is, named by some index word read unsigned. -/
theorem lands_iff_hit (idx : IVec S256 32) (hr : ∀ k : S256.Idx, 0 ≤ (idx k).toInt ∧ (idx k).toInt ≤ 2047)
    (i' : S16384x2048.Idx) :
    (∃ n ∈ List.finRange S16384x256.numel,
        D.resultIdx? (S16384x256.rowMajor.symm n) (Read.val_main_v5 (F := F) idx) = some i')
      ↔ Cert.MaskSpec.Hit idx (i' 1).val := by
  constructor
  · -- an update that lands in column q carries an index word equal to q
    rintro ⟨n, _, h⟩
    obtain ⟨r, c, hj⟩ : ∃ (r : Fin 16384) (c : Fin 256), S16384x256.rowMajor.symm n = ix2 r c :=
      ⟨_, _, eq_ix2 _⟩
    rw [hj, resultIdx?_eq_some_iff] at h
    obtain ⟨_, h1, _, h3⟩ := h
    have h0 := (hr (ix1 c)).1
    rw [index_word idx c h0] at h3
    refine ⟨ix1 c, ?_⟩
    have := toNat_eq_toInt (idx (ix1 c)) h0
    omega
  · -- a word equal to q gives, in each row, an update that lands in column q
    rintro ⟨k, hk⟩
    obtain ⟨c, rfl⟩ : ∃ c : Fin 256, k = ix1 c := ⟨_, eq_ix1 k⟩
    obtain ⟨h0, h1⟩ := hr (ix1 c)
    obtain ⟨r, hr0⟩ : ∃ r : Fin 16384, r.val = (i' 0).val := ⟨⟨(i' 0).val, (i' 0).isLt⟩, rfl⟩
    refine ⟨S16384x256.rowMajor (ix2 r c), List.mem_finRange _, ?_⟩
    rw [Equiv.symm_apply_apply, resultIdx?_eq_some_iff, index_word idx c h0]
    have := toNat_eq_toInt (idx (ix1 c)) h0
    exact ⟨hr0.symm, h0, by omega, by omega⟩

/-- The reference's result, for any float values: with every index word in [0, 2047], the table with the word of 0.0
    in every column some index word names, and its own entry elsewhere. -/
theorem ref_eq_masked_any (x : FVec F S16384x2048 .f32) (idx : IVec S256 32)
    (hr : ∀ k : S256.Idx, 0 ≤ (idx k).toInt ∧ (idx k).toInt ≤ 2047) :
    Read.val_main_v7 (F := F) x idx = Cert.MaskSpec.masked (F := F) x idx := by
  funext i'
  unfold Read.val_main_v7 Host.scatter
  -- every update writes the word of 0.0: the fold is 0.0 where some update lands, the table elsewhere
  refine (Cert.LibFoldOverwrite.foldl_overwrite _
    (fun n => D.resultIdx? (S16384x256.rowMajor.symm n) (Read.val_main_v5 (F := F) idx))
    (Scalar.ofBits .f32 0x00000000#32) ?_ ?_ _ _ _).trans ?_
  · intro r n i h
    dsimp only at h ⊢
    simp only [h]
    exact ⟨(if_pos trivial).trans rfl, fun i' hi => if_neg hi⟩
  · intro r n h
    dsimp only at h ⊢
    simp only [h]
  · unfold Cert.MaskSpec.masked
    by_cases hh : Cert.MaskSpec.Hit idx (i' 1).val
    · rw [if_pos hh, if_pos ((lands_iff_hit (F := F) idx hr i').2 hh)]
    · rw [if_neg hh, if_neg (mt (lands_iff_hit (F := F) idx hr i').1 hh)]

/-- The reference's result on the extended reals is the specification's masked table. -/
theorem ref_eq_masked (x : FVec Ideal Cert.ReferenceIdeal.S16384x2048 .f32) (idx : IVec Cert.ReferenceIdeal.S256 32)
    (hr : ∀ k : Cert.ReferenceIdeal.S256.Idx, 0 ≤ (idx k).toInt ∧ (idx k).toInt ≤ 2047) :
    Cert.ReferenceIdeal.Read.val_main_v7 (F := Ideal) x idx = Cert.MaskSpec.masked (F := Ideal) x idx :=
  ref_eq_masked_any x idx hr

/-! ## The reference's run -/

/-- Every run of the reference from a memory whose index list is in range ends with the masked table of the launch
    arguments in the result buffer, and with both arguments as they were. -/
theorem run_masked (m' : (ℓ : Loc Cert.ReferenceIdeal.nD Cert.ReferenceIdeal.τ Cert.ReferenceIdeal.sig) → Buf (Elt Ideal) ℓ)
    (ρ' : Dev Cert.ReferenceIdeal.nD → PrngReg)
    (hr : ∀ (c : Dev Cert.ReferenceIdeal.nD) (k : Cert.ReferenceIdeal.S256.Idx),
      0 ≤ ((m' ((c.tc : Thread Cert.ReferenceIdeal.nD Cert.ReferenceIdeal.τ).loc Cert.ReferenceIdeal.main_arg1)) k).toInt
      ∧ ((m' ((c.tc : Thread _ _).loc Cert.ReferenceIdeal.main_arg1)) k).toInt ≤ 2047) :
    θ_run (Cert.ReferenceIdeal.defs (F := Ideal)) (onTc (τ := Cert.ReferenceIdeal.τ) (Cert.ReferenceIdeal.main (F := Ideal)))
      ⟨m', fun _ => 0, ρ'⟩
      (fun r => ∀ c : Dev Cert.ReferenceIdeal.nD,
        r.2.mem ((c.tc : Thread _ _).loc Cert.ReferenceIdeal.main_v7)
          = Cert.MaskSpec.masked (F := Ideal) (m' ((c.tc : Thread _ _).loc Cert.ReferenceIdeal.main_arg0))
              (m' ((c.tc : Thread _ _).loc Cert.ReferenceIdeal.main_arg1))
        ∧ r.2.mem ((c.tc : Thread _ _).loc Cert.ReferenceIdeal.main_arg0) = m' ((c.tc : Thread _ _).loc Cert.ReferenceIdeal.main_arg0)
        ∧ r.2.mem ((c.tc : Thread _ _).loc Cert.ReferenceIdeal.main_arg1) = m' ((c.tc : Thread _ _).loc Cert.ReferenceIdeal.main_arg1)) :=
  (θ_run (Cert.ReferenceIdeal.defs (F := Ideal)) _ _).mono
    (fun _ h c => ⟨(h c).1.trans ((Read.val_main_v7_eq _ _).trans (ref_eq_masked _ _ (hr c))), (h c).2⟩)
    (Cert.ReferenceIdeal.Value.run (F := Ideal) m' ρ')

/-- The reference runs to the end and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.Kernel.Common.lean ====
/-
  The masking program as the launch theorem reads it, and what its handshakes carry. SparseCore 0 alone works, and of its
  sixteen vector subcores only subcore 0: the call hands that one subcore the index list and the mask row's array whole,
  and takes both back, the mask row at the mask of the index list (0.0 at every column the list names, 1.0 elsewhere);
  every other subcore is handed nothing. The ghost state is the handshakes' rounds beside the rounds of the multiply
  kernel's staging semaphores and the counters of the subcore's own two copies.
-/
import proofs.«207358_g28870770164171_cont_9to1_1763_19_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«207358_g28870770164171_cont_9to1_1763_19_alg».proof.Proof.Gen.Kernel
import proofs.«207358_g28870770164171_cont_9to1_1763_19_alg».proof.Proof.Gen.Kernel.Skeleton
import proofs.«207358_g28870770164171_cont_9to1_1763_19_alg».proof.Proof.Gen.Kernel.Launch
import proofs.«207358_g28870770164171_cont_9to1_1763_19_alg».proof.Proof.Gen.Kernel.Points
import proofs.«207358_g28870770164171_cont_9to1_1763_19_alg».proof.Proof.Spec

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, the left factor. -/
abbrev EH : Emb UH (MT nD τ sig (HIx 1) (Elt F) ℕ UU ℕ) := embL
/-- The staging semaphores' rounds, the left factor of the right factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## The launch memory and the buffers -/

variable (m : (ℓ : Loc nD τ sig) → Buf (Elt F) ℓ) (ρ : Dev nD → PrngReg)

/-- The table, the index list, the mask row, the mask row as one row of a matrix, the result. -/
abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1
abbrev yLoc (d : Dev nD) : Loc nD τ sig := (SparseCore.T d).loc main_v2

variable [FloatOps F]

abbrev xPts (d : Dev nD) : sProp 𝕄 := xLoc d ↦{fullShare} m (xLoc d)
abbrev iPts (d : Dev nD) : sProp 𝕄 := iLoc d ↦{fullShare} m (iLoc d)
abbrev oPts (d : Dev nD) (f : Buf (Elt F) (oLoc d)) : sProp 𝕄 := oLoc d ↦{fullShare} f
abbrev rPts (d : Dev nD) (f : Buf (Elt F) (rLoc d)) : sProp 𝕄 := rLoc d ↦{fullShare} f
abbrev yPts (d : Dev nD) (f : Buf (Elt F) (yLoc d)) : sProp 𝕄 := yLoc d ↦{fullShare} f

/-- The mask of the launch's index list, as the mask row's array holds it after the call. -/
def maskBuf (d : Dev nD) : Buf (Elt F) (oLoc d) := Cert.MaskSpec.maskOf (F := F) (m (iLoc d))

/-- What the working subcore is handed, and what it hands back. -/
abbrev handed (d : Dev nD) : sProp 𝕄 := iprop(iPts m d ∗ ∃ f, oPts d f)
abbrev back (d : Dev nD) : sProp 𝕄 := iprop(iPts m d ∗ oPts d (maskBuf m d))

/-- The call's payloads: SparseCore 0 and its vector subcore 0 get the index list and the mask row's array; the
    others nothing. -/
def P : (K (F := F)).Pay (nD := nD) (Val := Elt F) (Name := ℕ) (U := UU) where
  st := fun _ d c => if c.val = 0 then handed m d else iprop(emp)
  dn := fun _ d c => if c.val = 0 then back m d else iprop(emp)
  go := fun _ d c i => if c.val = 0 ∧ i.val = 0 then handed m d else iprop(emp)
  td := fun _ d c i => if c.val = 0 ∧ i.val = 0 then back m d else iprop(emp)
  x := fun _ _ => iprop(emp)

instance P_storable : (P (F := F) m).IsStorable where
  st _ d c := by unfold P; dsimp only; split <;> infer_instance
  dn _ d c := by unfold P; dsimp only; split <;> infer_instance
  go _ _ _ _ := by unfold P; dsimp only; split <;> infer_instance
  td _ _ _ _ := by unfold P; dsimp only; split <;> infer_instance

/-- The grid point of SparseCore `c`'s vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

end Cert.Proof.KernelRun

end
-- ==== Proof.Kernel.Launch.lean ====
/-
  The launch of the masking program: how SparseCore 0's operands go to its one working subcore and come back, the launch
  element of the ghost state (the handshakes' rounds, the staging semaphores' rounds funded for the multiply kernel, the
  copies' counters), the TensorCore's program — the call, the reshape of the mask row into a one-row matrix, the multiply
  kernel's region —, and how the final memory reads the result: the table times the mask of the index list.
-/
import proofs.«207358_g28870770164171_cont_9to1_1763_19_alg».proof.Proof.Kernel.Common

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## One working subcore among sixteen -/

omit m in
/-- A family over the subcores that is `A` at subcore 0 of SparseCore 0 and empty elsewhere is `A` on SparseCore 0
    and empty on SparseCore 1. -/
theorem tasks_one (c : Fin ((K (F := F)).nCore 0)) (A : sProp 𝕄) :
    (bigSep Finset.univ fun i : Fin ((K (F := F)).nSub 0) => if c.val = 0 ∧ i.val = 0 then A else iprop(emp))
      = if c.val = 0 then A else iprop(emp) := by
  by_cases hc : c.val = 0
  · simp only [hc, _root_.true_and, if_true]
    refine ((bigSep_filter Finset.univ (fun i : Fin ((K (F := F)).nSub 0) => i.val = 0) (fun _ => A)).symm).trans ?_
    have hf : ((Finset.univ : Finset (Fin 16)).filter fun i => i.val = 0) = {(0 : Fin 16)} := by decide
    exact (congrArg (fun s : Finset (Fin 16) => bigSep s fun _ => A) hf).trans bigSep_singleton
  · simp only [hc, _root_.false_and, if_false]
    exact bigSep_emp_const _

variable [FloatOps F]

theorem vecSplit : (K (F := F)).VecSplit' (P m) 0 := by
  intro d c
  show (if c.val = 0 then handed m d else iprop(emp)) ⊢ |={Set.univ}=> iprop(
      (bigSep Finset.univ fun i : Fin ((K (F := F)).nSub 0) => if c.val = 0 ∧ i.val = 0 then handed m d else iprop(emp))
      ∗ ((bigSep Finset.univ fun i : Fin ((K (F := F)).nSub 0) => if c.val = 0 ∧ i.val = 0 then back m d else iprop(emp))
          -∗ (if c.val = 0 then back m d else iprop(emp))))
  rw [tasks_one, tasks_one]
  iintro H; imodintro
  isplitl [H]; · iexact H
  iintro H; iexact H

/-! ## The launch element -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What the launch deals the TensorCore of each device for the multiply kernel's region: its staging semaphores'
    ghost state and duty tokens. -/
abbrev G (d : Dev nD) : sProp 𝕄 :=
  iprop(Pipeline.cellsGhost (nD := nD) (τ := τ) cfgs EP 0 d ∗ Pipeline.toksInit (nD := nD) (τ := τ) cfgs EP 0 d)

omit [FloatOps F] in
theorem bigSep_emp' {I : Type} (s : Finset I) : (bigSep s fun _ => iprop(emp)) = (iprop(emp) : sProp 𝕄) := bigSep_emp_const s

omit [FloatOps F] in
theorem bigSep_fin1 (Φ : Fin 1 → sProp 𝕄) : bigSep Finset.univ Φ = Φ 0 := by
  rw [show (Finset.univ : Finset (Fin 1)) = {0} from rfl, bigSep_singleton]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  have e1 : ∀ (X : Fin 1 → Dev nD → sProp 𝕄), (bigSep Finset.univ fun c : Dev nD => bigSep Finset.univ fun p : Fin 1 => X p c)
      = bigSep Finset.univ fun c : Dev nD => X 0 c := fun X => bigSep_congr fun d _ => bigSep_fin1 (F := F) _
  show _ ⊢ |={Set.univ}=> iprop(_ ∗ (bigSep Finset.univ fun d : Dev nD =>
      iprop(Pipeline.cellsGhost (nD := nD) (τ := τ) cfgs (EP (F := F)) 0 d ∗ Pipeline.toksInit (nD := nD) (τ := τ) cfgs (EP (F := F)) 0 d)) ∗ _)
  rw [bigSep_sep']
  iintro Hu
  ihave H := (ownU_pair _ _) $$ Hu
  icases H with ⟨HH, HR⟩
  ihave HR' := (own_pair_emb (embR : Emb (UP × Counters) 𝕄) _ _) $$ HR
  icases HR' with ⟨HP, -⟩
  have e : ∀ x : UP, (BI.own (((Emb.inl : Emb UP (UP × Counters)).trans (embR : Emb (UP × Counters) 𝕄)) x) : sProp 𝕄)
      = BI.own (EP (F := F) x) := fun _ => rfl
  ihave HP2 := (Entails.of_eq (e _)) $$ HP
  imod (Pipeline.fund_ghost (nD := nD) (τ := τ) cfgs (EP (F := F)) cellOf_inj) $$ HP2 with HG
  icases HG with ⟨Hc, Ht⟩
  ihave Hc' := (Entails.of_eq (e1 _)) $$ Hc
  ihave Ht' := (Entails.of_eq (e1 _)) $$ Ht
  imodintro
  isplitl [HH]; · iexact HH
  isplitl [Hc' Ht']
  · isplitl [Hc']
    · iexact Hc'
    · iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev i' : DevRef τ sig := Proc.devRef .tc (main_arg1 : Ref sig .tc)
abbrev o' : DevRef τ sig := Proc.devRef .tc (main_v0 : Ref sig .tc)
abbrev r' : DevRef τ sig := Proc.devRef .tc (main_v1 : Ref sig .tc)
abbrev y' : DevRef τ sig := Proc.devRef .tc (main_v2 : Ref sig .tc)
abbrev opReshape : HloOp τ sig (Elt F) := StableHlo.reshape main_v0 main_v1 rfl shapeCasts_S2048_S1x2048

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1)
      ∗ (oLoc d ↦{fullShare} W main_v0) ∗ (rLoc d ↦{fullShare} W main_v1) ∗ (yLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The two arrays the reshape touches. -/
abbrev S2 : Finset (DevRef τ sig) := {o', r'}

omit [FloatOps F] in
theorem held_S2 (d : Dev nD) (W : Valuation τ sig (Elt F)) :
    (held (T d) S2 W : sProp 𝕄) = iprop((oLoc d ↦{fullShare} W o') ∗ (rLoc d ↦{fullShare} W r')) := by
  unfold held S2
  rw [SparseCore.bigSep_insert' (by decide), bigSep_singleton]

/-- The mask row as the one row of a matrix. -/
def rowOf (d : Dev nD) (g : Buf (Elt F) (oLoc d)) : Buf (Elt F) (rLoc d) := shapeCast S1x2048 g shapeCasts_S2048_S1x2048

/-- The valuation the reshape runs at: the mask row at `g`, the one-row matrix at whatever `h` it holds. -/
def V1 (d : Dev nD) (g : Buf (Elt F) (oLoc d)) (h : Buf (Elt F) (rLoc d)) : Valuation τ sig (Elt F) :=
  Function.update (Function.update (fun b => m (d, b)) o' g) r' h

theorem V1_o (d : Dev nD) (g : Buf (Elt F) (oLoc d)) (h : Buf (Elt F) (rLoc d)) : V1 m d g h o' = g := by
  unfold V1; rw [Function.update_of_ne (show o' ≠ r' by decide), Function.update_self]
theorem V1_r (d : Dev nD) (g : Buf (Elt F) (oLoc d)) (h : Buf (Elt F) (rLoc d)) : V1 m d g h r' = h := Function.update_self _ _ _

theorem reshape_o (d : Dev nD) (g : Buf (Elt F) (oLoc d)) (h : Buf (Elt F) (rLoc d)) :
    (opReshape (F := F)).result (V1 m d g h) o' = g := by
  rw [(opReshape (F := F)).result_of_not_mem (V1 m d g h) (b := o') (show o' ∉ ({r'} : Finset (DevRef τ sig)) by decide), V1_o]
theorem reshape_r (d : Dev nD) (g : Buf (Elt F) (oLoc d)) (h : Buf (Elt F) (rLoc d)) :
    (opReshape (F := F)).result (V1 m d g h) r' = rowOf d g := by
  unfold opReshape
  rw [StableHlo.reshape_result]
  funext i
  show shapeCast S1x2048 (V1 m d g h o') shapeCasts_S2048_S1x2048 i = _
  rw [V1_o]; rfl

/-- The multiply kernel's region as the launch meets it: from the table, the one-row matrix `row` and the result's array
    whole, the TensorCore owing nothing, and the staging semaphores' ghost state, it runs to the result at `prodOf` of the
    table and the row, everything else as it was. -/
def RegionRule (prodOf : (d : Dev nD) → Buf (Elt F) (xLoc d) → Buf (Elt F) (rLoc d) → Buf (Elt F) (yLoc d)) : Prop :=
  ∀ (d : Dev nD) (row : Buf (Elt F) (rLoc d)) (W₀ : Waits sig (HIx 1)) {α : Type}
    (k : PUnit → Prog (TpuEff nD τ sig (Elt F) (ΛP (F := F)) .tc) α) (Φ : α → sProp 𝕄),
    iprop(levAts (K (F := F)).L (K (F := F)).lev ∗ boundary (SparseCore.T d) ∗ xPts m d ∗ rPts d row ∗ (∃ f, yPts d f) ∗ owes (SparseCore.T d) 0 W₀
        ∗ Pipeline.cellsGhost (nD := nD) (τ := τ) cfgs EP 0 d ∗ Pipeline.toksInit (nD := nD) (τ := τ) cfgs EP 0 d
        ∗ (iprop(boundary (SparseCore.T d) ∗ xPts m d ∗ rPts d row ∗ yPts d (prodOf d (m (xLoc d)) row)
              ∗ ∃ W', ⌜∀ p ∈ W', p ∈ W₀ ∨ p.2 = none⌝ ∗ owes (SparseCore.T d) 0 W')
             -∗ wp frame (wpE (D (F := F)) 𝒱 (SparseCore.T d) none) Set.univ (k ⟨⟩) Φ))
      ⊢ wp frame (wpE (D (F := F)) 𝒱 (SparseCore.T d) none) Set.univ (.op (.customCall (Pipeline.entry 0) ()) k) Φ

variable (prodOf : (d : Dev nD) → Buf (Elt F) (xLoc d) → Buf (Elt F) (rLoc d) → Buf (Elt F) (yLoc d))

/-- What @main leaves the claim: the table and the index list as launched, the result at the product of the table and
    the mask row of the index list. -/
abbrev FIN (d : Dev nD) : sProp 𝕄 :=
  iprop(xPts m d ∗ iPts m d ∗ yPts d (prodOf d (m (xLoc d)) (rowOf d (maskBuf m d))))

theorem st0_eq (d : Dev nD) : (bigSep Finset.univ fun c : Fin ((K (F := F)).nCore 0) => (P m).st 0 d c) = iprop(handed m d ∗ emp) := by
  show (bigSep (Finset.univ : Finset (Fin 2)) fun c => if c.val = 0 then handed m d else iprop(emp)) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m).dn 0 d c) = iprop(back m d ∗ emp) := by
  show (bigSep (Finset.univ : Finset (Fin 2)) fun c => if c.val = 0 then back m d else iprop(emp)) = _
  rw [show (Finset.univ : Finset (Fin 2)) = {0, 1} by decide, SparseCore.bigSep_insert' (by decide), bigSep_singleton]
  rfl

theorem Otc_one (d : Dev nD) : (K (F := F)).Otc d 1 = 0 := (K (F := F)).Otc_end d (le_refl _)

theorem held_after (d : Dev nD) :
    (held (T d) S2 ((opReshape (F := F)).result (V1 m d (maskBuf m d) (m (rLoc d)))) : sProp 𝕄)
      = iprop(oPts d (maskBuf m d) ∗ rPts d (rowOf d (maskBuf m d))) := by
  rw [held_S2, reshape_o, reshape_r]

/-- After the one call the TensorCore owes nothing: its state gives up its `owes` at no tallies, and takes one back. -/
theorem tcSt_open (d : Dev nD) : ((K (F := F)).tcSt EH d 1 : sProp 𝕄)
    ⊢ iprop((∃ W, ⌜(K (F := F)).WBelow (T d) W (8 * 1)⌝ ∗ owes (T d) 0 W)
        ∗ ((∃ W, ⌜(K (F := F)).WBelow (T d) W (8 * 1)⌝ ∗ owes (T d) 0 W) -∗ (K (F := F)).tcSt EH d 1)) := by
  unfold SparseCore.Cfg.tcSt
  rw [Otc_one]
  iintro ⟨HO, HR⟩
  isplitl [HO]; · iexact HO
  iintro HO
  isplitl [HO]; · iexact HO
  iexact HR

theorem hmain (hR : RegionRule m prodOf) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m prodOf d) := by
  unfold SparseCore.Cfg.tcRes
  rw [unscopedBufs_eq]
  simp only [main, wp_bind, wp_pure]
  iintro ⟨#Hctx, Hst, ⟨Hb, ⟨Hx, Hi, Ho, Hr, Hy⟩, -, -⟩, ⟨Hcg, Htk⟩⟩
  -- the call: the index list and the mask row's array to SparseCore 0 and back
  iapply ((K (F := F)).wp_run (D (F := F)) 𝒱 (EH := EH) (P := P m) κ d 0) $$ [Hst Hi Ho Hb Hx Hr Hy Hcg Htk]
  isplitr; · iexact Hctx
  isplitl [Hst]; · iexact Hst
  isplitl [Hi Ho]
  · rw [st0_eq]
    isplitl [Hi Ho]
    · isplitl [Hi]; · iexact Hi
      iexists _; iexact Ho
    · iempintro
  iintro ⟨Hst, Hdn⟩
  ihave Hdn' := (Entails.of_eq (dn0_eq m d)) $$ Hdn
  icases Hdn' with ⟨⟨Hi, Ho⟩, -⟩
  -- the reshape of the mask row into a one-row matrix
  iapply (wp_hlo_within 𝒱 (SparseCore.T d) none Set.univ (op := opReshape) (S := S2) (Finset.Subset.refl _)
    (V := V1 m d (maskBuf m d) (m (rLoc d)))) $$ [Hb Ho Hr]
  · isplitl [Hb]; · iexact Hb
    rw [held_S2, V1_o, V1_r]
    isplitl [Ho]; · iexact Ho
    iexact Hr
  iintro ⟨Hb, Hheld⟩
  ihave Hh := (Entails.of_eq (held_after (F := F) m d)) $$ Hheld
  icases Hh with ⟨Ho, Hr⟩
  rw [wp_ret]; imodintro
  -- the multiply kernel's region
  ihave Hst' := (show ((K (F := F)).tcSt EH d ((0 : Fin 1).val + 1) : sProp 𝕄) ⊢ _ from tcSt_open (F := F) d) $$ Hst
  icases Hst' with ⟨⟨%W, %hW, HO⟩, HR⟩
  ihave Hlev := ((K (F := F)).ctx_levAts κ) $$ Hctx
  have hprog : (Prog.lift (TpuEff.customCall (SparseCore.inner (Pipeline.entry 0)) ()) : Prog (TpuEff nD τ sig (Elt F) (SparseCore.Sig (ΛP (F := F)) 1) .tc) PUnit)
      = SparseCore.liftProg (.op (.customCall (Pipeline.entry 0) ()) fun _ => .ret ⟨⟩) := rfl
  rw [hprog]
  iapply ((K (F := F)).wp_liftProg (D (F := F)) 𝒱 (SparseCore.T d) Set.univ none _ _)
  have hreg := hR d (rowOf d (maskBuf m d)) W (α := PUnit) (fun _ => Prog.ret PUnit.unit)
    (fun _ => iprop(|={Set.univ}=> ((K (F := F)).tcSt EH d 1 ∗ FIN m prodOf d)))
  iapply hreg $$ [Hlev Hb Hx Hr Hy HO Hcg Htk Hi HR]
  isplitl [Hlev]; · iexact Hlev
  isplitl [Hb]; · iexact Hb
  isplitl [Hx]; · iexact Hx
  isplitl [Hr]; · iexact Hr
  isplitl [Hy]; · iexists _; iexact Hy
  isplitl [HO]; · iexact HO
  isplitl [Hcg]; · iexact Hcg
  isplitl [Htk]; · iexact Htk
  iintro ⟨Hb, Hx, Hr, Hy, %W', %hW', HO⟩
  rw [wp_ret]; imodintro; imodintro
  isplitl [HO HR]
  · iapply HR
    iexists W'; isplitr
    · ipureintro; intro p hp
      rcases hW' p hp with h | h
      · exact hW p h
      · show (K (F := F)).lev (T d, p.1) p.2 ≤ 8 * 1
        rw [h]; exact Nat.zero_le _
    · iexact HO
  isplitl [Hx]; · iexact Hx
  isplitl [Hi]; · iexact Hi
  iexact Hy

/-! ## Reading the claim off the final memory -/

def fq (d : Dev nD) (s' : Phys nD τ sig (Elt F)) : Prop :=
  s'.mem.mem (xLoc d) = m (xLoc d) ∧ s'.mem.mem (iLoc d) = m (iLoc d)
    ∧ s'.mem.mem (yLoc d) = prodOf d (m (xLoc d)) (rowOf d (maskBuf m d))

omit [FloatOps F] m in
/-- An array held whole beside the state interpretation is the state's array. -/
theorem agree_whole (ℓ : Loc nD τ sig) (f : Buf (Elt F) ℓ) (s' : Phys nD τ sig (Elt F)) (A : sProp 𝕄) :
    iprop((ℓ ↦{fullShare} f) ∗ A ∗ SI s') ⊢ (⌜s'.mem.mem ℓ = f⌝ : sProp 𝕄) := by
  iintro ⟨Hx, -, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m prodOf d ∗ SI s') ⊢ (⌜fq m prodOf d s'⌝ : sProp 𝕄) := by
  refine Laws.pure_elim (s'.mem.mem (xLoc d) = m (xLoc d)) ?_ fun hx => ?_
  · iintro ⟨⟨Hx, Hi, Hy⟩, HSI⟩
    iapply (agree_whole (xLoc d) (m (xLoc d)) s' iprop(iPts m d ∗ yPts d (prodOf d (m (xLoc d)) (rowOf d (maskBuf m d)))))
    isplitl [Hx]; · iexact Hx
    isplitl [Hi Hy]
    · isplitl [Hi]; · iexact Hi
      iexact Hy
    iexact HSI
  refine Laws.pure_elim (s'.mem.mem (iLoc d) = m (iLoc d)) ?_ fun hi => ?_
  · iintro ⟨⟨Hx, Hi, Hy⟩, HSI⟩
    iapply (agree_whole (iLoc d) (m (iLoc d)) s' iprop(xPts m d ∗ yPts d (prodOf d (m (xLoc d)) (rowOf d (maskBuf m d)))))
    isplitl [Hi]; · iexact Hi
    isplitl [Hx Hy]
    · isplitl [Hx]; · iexact Hx
      iexact Hy
    iexact HSI
  refine Entails.trans ?_ (Laws.pure_mono fun hy => (⟨hx, hi, hy⟩ : fq m prodOf d s'))
  iintro ⟨⟨Hx, Hi, Hy⟩, HSI⟩
  iapply (agree_whole (yLoc d) (prodOf d (m (xLoc d)) (rowOf d (maskBuf m d))) s' iprop(xPts m d ∗ iPts m d))
  isplitl [Hy]; · iexact Hy
  isplitl [Hx Hi]
  · isplitl [Hx]; · iexact Hx
    iexact Hi
  iexact HSI

/-! ## The program's run -/

/-- Every final memory has the table and the index list as launched and the result at the table times the mask row. -/
def QC : PUnit × MemSt nD τ sig (Elt F) → Prop := fun r => ∀ c : Dev nD,
  r.2.mem (yLoc c) = prodOf c (m (xLoc c)) (rowOf c (maskBuf m c)) ∧ r.2.mem (xLoc c) = m (xLoc c) ∧ r.2.mem (iLoc c) = m (iLoc c)

theorem run_of [∀ e, Nonempty (Elt F e)] (hT : (K (F := F)).TileObl (D (F := F)) 𝒱 (P m) v₀ 0) (hR : RegionRule m prodOf) :
    θ_run (Cert.Kernel.defs (F := F)) (Cert.Kernel.threads (F := F)) ⟨m, fun _ => 0, ρ⟩ (QC m prodOf) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (G (F := F)) (FIN m prodOf) (u₀ (F := F)) (sep_elim_left.trans (hu₀ m)) (hmain m ρ prodOf hR) (fq m prodOf) (hfin m prodOf) (QC m prodOf)
    (fun _ h c => ⟨(h c).2.2, (h c).1, (h c).2.1⟩)

end Cert.Proof.KernelRun

end
-- ==== Proof.Kernel.Region.lean ====
/-
  The multiply kernel's region: the pipelined call whose body multiplies a block of the table by the one-row matrix,
  broadcast down the block's rows. Its proof data (what each staging buffer holds after the body at each point), the
  body's triple, the body obligation, and the region's step: from the table, the row and the result's array held
  whole, the call runs to the same with the result at the product.
-/
import proofs.«207358_g28870770164171_cont_9to1_1763_19_alg».proof.Proof.Kernel.Common
import Idealize.ShloMosaic.Lib.Pipeline.FrameBody
import Idealize.ShloMosaic.Lib.Pipeline.Value
import Idealize.ShloMosaic.Lib.Tactic

set_option maxRecDepth 16384

noncomputable section

namespace Cert.Proof.KernelRun

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-! ## The proof data -/

/-- The one admissible (empty) contents of the prefetched tables: the call has none. -/
abbrev adm : (p : Fin 1) → (pcfgs (F := F) p).Adm := fun p => (cfgs p).toPCfg_adm

/-- The three windows' arrays as the region finds them: the table as launched, the one-row matrix at `row`, the
    result's array at `f`. -/
def entryA (rows : (c : Dev nD) → Buf (Elt F) (rLoc c)) (fs : (c : Dev nD) → Buf (Elt F) (yLoc c)) (c : Dev nD) :
    (w : Fin cfg1.W) → Buf (Elt F) ((cfg1.win w).arr.view.loc (c.tc : Thread nD τ))
  | ⟨0, _⟩ => m (xLoc c)
  | ⟨1, _⟩ => rows c
  | ⟨2, _⟩ => fs c

variable (rows : (c : Dev nD) → Buf (Elt F) (rLoc c)) (fs : (c : Dev nD) → Buf (Elt F) (yLoc c)) (Ws : Dev nD → Waits sig (HIx 1))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (entryA m rows fs c w)

/-- The whole of a block-sized buffer. -/
abbrev rAll : Rect S1024x2048 := Rect.unit (s := S1024x2048) ![0, 0] S1024x2048.size inb_S1024x2048_S1024x2048_0_0

/-- The whole of a buffer of one row. -/
abbrev rRow : Rect S1x2048 := Rect.unit (s := S1x2048) ![0, 0] S1x2048.size inb_S1x2048_S1x2048_0_0

/-- The result's staging buffer after the body: its one store, the product of the two blocks as loaded. -/
def outBlk (x0 : Vec F S1024x2048 .f32) (x1 : Vec F S1x2048 .f32) : Vec F S1024x2048 .f32 :=
  View.canon [⟨rAll, k1_pay1 (View.ld x0 rAll) (View.ld x1 rRow)⟩]

/-- The store covers the buffer. -/
theorem cover_out (p0 : Vec F S1024x2048 .f32) (y : S1024x2048.Idx) :
    ∃ pc ∈ ([⟨rAll, p0⟩] : List (View.Piece (Elt F) S1024x2048 .f32)), y ∈ pc.1.set :=
  View.cover_of_tiled [⟨rAll, p0⟩] S1024x2048.size (by rfl) y

/-- The proof data: the arrays as the region finds them; after the body at point `t` each input's buffer at its block
    and the result's at the product of the two; no invariant; nothing owed, the recorded pairs those the core came with; full shares. -/
def dat1 (c : Dev nD) : Dat τ (Elt F) (HIx 1) ℕ UU ℕ cfg1 c where
  A w := entryA m rows fs c w
  after w t := match w with
    | ⟨0, _⟩ => iblk m rows fs c 0 t
    | ⟨1, _⟩ => iblk m rows fs c 1 t
    | ⟨2, _⟩ => outBlk (iblk m rows fs c 0 t) (iblk m rows fs c 1 t)
  Φ _ := iprop(emp)
  q _ := fullShare
  owed _ := 0
  recorded _ := (↑(Ws c) : Set (SemLoc sig × HIx 1))

def pdats : (p : Fin 1) → (c : Dev nD) → Dat τ (Elt F) (HIx 1) ℕ UU ℕ (Pipeline.pin (pcfgs (F := F)) adm p) c
  | 0 => dat1 m rows fs Ws

theorem after1_0 (c : Dev nD) (t : Fin cfg1.N) : (dat1 m rows fs Ws c).after 0 t = iblk m rows fs c 0 t := by dsimp only [dat1]
theorem after1_1 (c : Dev nD) (t : Fin cfg1.N) : (dat1 m rows fs Ws c).after 1 t = iblk m rows fs c 1 t := by dsimp only [dat1]
theorem after1_2 (c : Dev nD) (t : Fin cfg1.N) :
    (dat1 m rows fs Ws c).after 2 t = outBlk (iblk m rows fs c 0 t) (iblk m rows fs c 1 t) := by dsimp only [dat1]

/-- Each input's current staging buffer holds its block at every point, fetched there or not. -/
theorem before1_0 (c : Dev nD) (t : Fin cfg1.N) (d) : (dat1 m rows fs Ws c).before 0 t d = iblk m rows fs c 0 t :=
  ((dat1 m rows fs Ws c).before_in_eq_fetched 0 rfl (fun _ => rfl) (fun _ _ _ => rfl)
    (fun t => by rw [after1_0]; unfold Dat.blockOf iblk; rfl) t d).trans (by unfold Dat.fetched Dat.blockOf iblk; rfl)
theorem before1_1 (c : Dev nD) (t : Fin cfg1.N) (d) : (dat1 m rows fs Ws c).before 1 t d = iblk m rows fs c 1 t :=
  ((dat1 m rows fs Ws c).before_in_eq_fetched 1 rfl (fun _ => rfl) (fun _ _ _ => rfl)
    (fun t => by rw [after1_1]; unfold Dat.blockOf iblk; rfl) t d).trans (by unfold Dat.fetched Dat.blockOf iblk; rfl)

/-! ## The body's triple -/

set_option maxHeartbeats 1000000 in
/-- The body on whole staging memrefs, the inputs' at read contents and the result's at anything, runs to the
    continuation holding the inputs' as they were and the result's at the product. -/
theorem sound_body1 (c : Dev nD) (E : Set ℕ) (i : grid1.Coords) (arg1 : Memref sig .tc .vmem S1024x2048 .f32) (harg1 : arg1.IsWhole)
    (arg2 : Memref sig .tc .vmem S1x2048 .f32) (harg2 : arg2.IsWhole) (arg3 : Memref sig .tc .vmem S1024x2048 .f32) (harg3 : arg3.IsWhole)
    (x0 : Vec F S1024x2048 .f32) (x1 : Vec F S1x2048 .f32) (Q : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ Q ⟨⟩))
      ⊢ wp frame (wpE (defs₀ (F := F)) Variants.none c none) E (cc1__tc_body i arg1 harg1 arg2 harg2 arg3 harg3) Q := by
  simp only [cc1__tc_body_eq_skeleton]; unfold cc1__tc_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The body obligation -/

/-- The body at any point: the inputs' buffers hold their blocks, so the triple applies; the invariant and the core's
    `owes` pass through unread. -/
theorem sound_pt (c : Dev nD) (t : Fin cfg1.N) :
    iprop((dat1 m rows fs Ws c).Φ t.castSucc ∗ (dat1 m rows fs Ws c).owesAt none t.castSucc
        ∗ (∃ d, owns (c : Thread nD τ) (st1_0 t) fullShare ((dat1 m rows fs Ws c).before 0 t d))
        ∗ (∃ d, owns (c : Thread nD τ) (st1_1 t) fullShare ((dat1 m rows fs Ws c).before 1 t d))
        ∗ (∃ d, owns (c : Thread nD τ) (st1_2 t) fullShare ((dat1 m rows fs Ws c).before 2 t d)))
      ⊢ wp frame (wpE (defs₀ (F := F)) Variants.none c none) Set.univ (bodyAt1 t) (fun _ =>
          iprop((dat1 m rows fs Ws c).Φ t.succ ∗ (dat1 m rows fs Ws c).owesAt none t.succ
            ∗ owns (c : Thread nD τ) (st1_0 t) fullShare ((dat1 m rows fs Ws c).after 0 t)
            ∗ owns (c : Thread nD τ) (st1_1 t) fullShare ((dat1 m rows fs Ws c).after 1 t)
            ∗ owns (c : Thread nD τ) (st1_2 t) fullShare ((dat1 m rows fs Ws c).after 2 t))) := by
  unfold bodyAt1
  simp only [before1_0, before1_1]
  rw [show (dat1 m rows fs Ws c).Φ t.succ = (dat1 m rows fs Ws c).Φ t.castSucc from rfl,
    show (dat1 m rows fs Ws c).owesAt none t.succ = (dat1 m rows fs Ws c).owesAt none t.castSucc from rfl,
    after1_0, after1_1, after1_2]
  iintro ⟨HΦ, Ho, ⟨%d0, H0⟩, ⟨%d1, H1⟩, ⟨%d2, H2⟩⟩
  iapply (sound_body1 c Set.univ (grid1.coords t) _ _ _ _ _ _ (iblk m rows fs c 0 t) (iblk m rows fs c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) :
    BodyObligation (dat1 (F := F) m rows fs Ws c) (defs₀ (F := F)) Variants.none (none : HIx 1) Set.univ := fun t => by
  rw [bigSep_W1, bigSep_W1]
  exact sound_pt m rows fs Ws c t

/-! ## The region -/

/-- The region's arrays at contents `Fa` are the table, the one-row matrix and the result's array held. -/
theorem arrays1_eq (c : Dev nD) (Fa) : ((pdats m rows fs Ws 0 c).arrays Fa : sProp 𝕄)
    = iprop((xLoc c ↦{fullShare} Fa 0) ∗ (rLoc c ↦{fullShare} Fa 1) ∗ (yLoc c ↦{fullShare} Fa 2)) := by
  rw [Pipeline.arrays_eq (Pipeline.pin (pcfgs (F := F)) adm) (pdats m rows fs Ws) 0 c launch1.arr_whole
    ((pdats m rows fs Ws 0 c).share_full fun _ => rfl) Fa, bigSep_W1]

/-- The input arrays reach the region's exit as it found them. -/
theorem arrAt1_x (c : Dev nD) (n : ℕ) : (pdats (F := F) m rows fs Ws 0 c).arrAt 0 n = m (xLoc c) :=
  (dat1 (F := F) m rows fs Ws c).arrAt_in 0 rfl n
theorem arrAt1_r (c : Dev nD) (n : ℕ) : (pdats (F := F) m rows fs Ws 0 c).arrAt 1 n = rows c :=
  (dat1 (F := F) m rows fs Ws c).arrAt_in 1 rfl n

/-- What the result's array holds after the region, as the pipeline library computes it from the proof data. -/
def finalY (c : Dev nD) : Buf (Elt F) (yLoc c) := (dat1 (F := F) m rows fs Ws c).arrAt 2 cfg1.N

/-- THE REGION: the three arrays into the pipeline, nothing beside them; the core owing nothing throughout, its
    recorded pairs those it came with and the pipeline's own waits'. -/
def reg1 : Pipeline.RegionSeg (pcfgs (F := F)) adm (pdats m rows fs Ws) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation m rows fs Ws c).loose
  hwaits c := Pipeline.hwaits_of_owed_zero (pcfgs (F := F)) adm (pdats m rows fs Ws) (none : HIx 1) _ _ 0 (fun _ _ => rfl) c
  pre c := iprop(xPts m c ∗ rPts c (rows c) ∗ yPts c (fs c) ∗ owes (T c) 0 (Ws c))
  post c := iprop(xPts m c ∗ rPts c (rows c) ∗ yPts c (finalY m rows fs Ws c)
    ∗ ∃ W', ⌜∀ p ∈ W', p ∈ Ws c ∨ p.2 = none⌝ ∗ owes (T c) 0 W')
  X _ := iprop(emp)
  Y _ := iprop(emp)
  Z _ := iprop(emp)
  hentry c := by
    rw [Pipeline.ownSems0_none, arrays1_eq]
    iintro ⟨⟨Hx, Hr, Hy, HO⟩, -, -⟩
    imodintro
    isplitl [Hx Hr Hy]
    · isplitl [Hx]; · iexact Hx
      isplitl [Hr]; · iexact Hr
      iexact Hy
    isplitr; · unfold Pipeline.prefHeld; rw [show (Finset.univ : Finset (Fin 0)) = ∅ from rfl, BI.bigSep_empty]; iempintro
    isplitl [HO]
    · unfold Pipeline.Dat.owesAt Pipeline.owesWithin
      iexists (Ws c); isplitr; · ipureintro; exact fun _ h => Or.inl h
      iexact HO
    isplitr <;> iempintro
  hin c := by iintro -; iempintro
  hout c := by
    rw [Pipeline.ownSems0_none, scopedRest1_eq]
    iintro -; isplitr; · iempintro
    isplitr <;> iempintro
  hexit c := by
    rw [arrays1_eq, arrAt1_x, arrAt1_r]
    iintro ⟨⟨Hx, Hr, Hy⟩, HO, -, -⟩
    imodintro
    isplitl [Hx]; · iexact Hx
    isplitl [Hr]; · iexact Hr
    isplitl [Hy]; · iexact Hy
    unfold Pipeline.Dat.owesAt Pipeline.owesWithin
    icases HO with ⟨%W, %hW, HO⟩
    iexists W; isplitr
    · ipureintro
      intro p hp
      rcases hW hp with h | ⟨w, s, rfl⟩
      · exact Or.inl h
      · exact Or.inr rfl
    iexact HO

set_option backward.isDefEq.respectTransparency.types false in
/-- The region's step, over families of contents: from the boundary, the three arrays held whole, the core owing
    nothing, and the pipeline's ghost state, the call runs to the boundary and the arrays again, the result's at what
    the pipeline library computes. -/
theorem region_wp_fam (d : Dev nD) {α : Type} (k : PUnit → Prog (TpuEff nD τ sig (Elt F) (ΛP (F := F)) .tc) α) (Φ : α → sProp 𝕄) :
    iprop(levAts (K (F := F)).L (K (F := F)).lev ∗ boundary (T d) ∗ xPts m d ∗ rPts d (rows d) ∗ yPts d (fs d) ∗ owes (T d) 0 (Ws d)
        ∗ Pipeline.cellsGhost (nD := nD) (τ := τ) cfgs EP 0 d ∗ Pipeline.toksInit (nD := nD) (τ := τ) cfgs EP 0 d
        ∗ (iprop(boundary (T d) ∗ xPts m d ∗ rPts d (rows d) ∗ yPts d (finalY m rows fs Ws d)
              ∗ ∃ W', ⌜∀ p ∈ W', p ∈ Ws d ∨ p.2 = none⌝ ∗ owes (T d) 0 W')
            -∗ wp frame (wpE (D (F := F)) 𝒱 (T d) none) Set.univ (k ⟨⟩) Φ))
      ⊢ wp frame (wpE (D (F := F)) 𝒱 (T d) none) Set.univ (.op (.customCall (Pipeline.entry 0) ()) k) Φ := by
  have hreg := Pipeline.RegionSeg.wp (pcfgs (F := F)) adm (pdats m rows fs Ws) (none : HIx 1) cellOf_inj EP defs₀ 𝒱₀
    (K (F := F)).L (K (F := F)).lev (reg1 m rows fs Ws) d none (fun _ h => by cases h) k Φ
  rw [show (reg1 m rows fs Ws).pre d = iprop(xPts m d ∗ rPts d (rows d) ∗ yPts d (fs d) ∗ owes (T d) 0 (Ws d)) from rfl,
    show (reg1 m rows fs Ws).post d = iprop(xPts m d ∗ rPts d (rows d) ∗ yPts d (finalY m rows fs Ws d)
      ∗ ∃ W', ⌜∀ p ∈ W', p ∈ Ws d ∨ p.2 = none⌝ ∗ owes (T d) 0 W') from rfl] at hreg
  iintro ⟨HL, Hb, Hx, Hr, Hy, HO, Hg, Ht, Hk⟩
  iapply hreg
  isplitl [Hk]
  · iintro ⟨Hb, Hx, Hr, Hy, HO⟩
    iapply Hk
    isplitl [Hb]; · iexact Hb
    isplitl [Hx]; · iexact Hx
    isplitl [Hr]; · iexact Hr
    isplitl [Hy]; · iexact Hy
    iexact HO
  isplitl [Hb]; · iexact Hb
  isplitl [Hx Hr Hy HO]
  · isplitl [Hx]; · iexact Hx
    isplitl [Hr]; · iexact Hr
    isplitl [Hy]; · iexact Hy
    iexact HO
  isplitl [HL]; · iexact HL
  isplitl [Hg]; · iexact Hg
  iexact Ht

/-! ## The value -/

theorem hz2 : (![0, 0] : Fin 2 → Nat) = fun _ => 0 := funext fun a => by fin_cases a <;> rfl

/-- The product the multiply kernel leaves in the result: entry (r, c) of the table times entry (0, c) of the one-row matrix. -/
def prodOf (d : Dev nD) (x : Buf (Elt F) (xLoc d)) (row : Buf (Elt F) (rLoc d)) : Buf (Elt F) (yLoc d) :=
  fun i => FloatOps.mulf (x i) (row (ValueIdx.ix2 0 (i 1)))

/-- The body's payload is the product of the table's block and the row broadcast down the block. -/
theorem pay1_eq (x0 : Vec F S1024x2048 .f32) (x1 : Vec F S1x2048 .f32) :
    k1_pay1 x0 x1 = mulf x0 (broadcastTo S1024x2048 (shapeCast S1x2048 x1 shapeCasts_S1x2048_S1x2048) broadcasts_S1x2048_S1024x2048) := rfl

/-- The printed index maps, decided over the grid: the table's and the result's blocks move together, down the rows;
    the one-row matrix's block stays. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the product of the table and the one-row matrix as the region finds them. -/
theorem flushed1_eq (c : Dev nD) (t : Fin cfg1.N) :
    (dat1 m rows fs Ws c).flushed 2 t = ((cfg1.win 2).blk t).view.read (Elt F) (prodOf c (m (xLoc c)) (rows c)) := by
  show (cfg1.win 2).cut (grid1.coords t) ((dat1 m rows fs Ws c).after 2 t) = _
  rw [after1_2]
  unfold outBlk
  rw [View.canon_unit_zero hz2]
  simp only [View.ld_unit_zero (S := S1024x2048) hz2, View.ld_unit_zero (S := S1x2048) hz2]
  rw [pay1_eq]
  obtain ⟨e0, e1, e2, e3, e4, e5⟩ := idx_facts1 t
  funext j
  show FloatOps.mulf (m (xLoc c) (((cfg1.win 0).blk t).view.emb j))
        (broadcastTo S1024x2048 (shapeCast S1x2048 (iblk m rows fs c 1 t) shapeCasts_S1x2048_S1x2048) broadcasts_S1x2048_S1024x2048 j)
     = FloatOps.mulf (m (xLoc c) (((cfg1.win 2).blk t).view.emb j)) (rows c (ValueIdx.ix2 0 ((((cfg1.win 2).blk t).view.emb j) 1)))
  have h0 : ((cfg1.win 0).blk t).view.emb j = ((cfg1.win 2).blk t).view.emb j := by
    funext a; apply Fin.ext
    match a with
    | ⟨0, _⟩ => show win1_0.index t (0 : Fin 2) * 1024 + 1 * (j 0).val = win1_2.index t (0 : Fin 2) * 1024 + 1 * (j 0).val; omega
    | ⟨1, _⟩ => show win1_0.index t (1 : Fin 2) * 2048 + 1 * (j 1).val = win1_2.index t (1 : Fin 2) * 2048 + 1 * (j 1).val; omega
  rw [h0]
  refine congrArg (FloatOps.mulf _) ?_
  let kk : S1x2048.Idx := ValueIdx.ix2 (0 : Fin 1) (j 1 : Fin 2048)
  refine (broadcastTo_apply _ broadcasts_S1x2048_S1024x2048 j kk (fun a => by match a with | ⟨0, _⟩ => rfl | ⟨1, _⟩ => rfl)).trans ?_
  refine (congrFun (shapeCast_self (s := S1x2048) (iblk m rows fs c 1 t) shapeCasts_S1x2048_S1x2048) kk).trans ?_
  show rows c (((cfg1.win 1).blk t).view.emb kk) = rows c (ValueIdx.ix2 0 ((((cfg1.win 2).blk t).view.emb j) 1))
  refine congrArg (rows c) ?_
  funext a; apply Fin.ext
  match a with
  | ⟨0, _⟩ => show win1_1.index t (0 : Fin 2) * 1 + 1 * 0 = 0; omega
  | ⟨1, _⟩ => show win1_1.index t (1 : Fin 2) * 2048 + 1 * (j 1).val = win1_2.index t (1 : Fin 2) * 2048 + 1 * (j 1).val; omega

/-- An index of the array is in point `t`'s block iff each coordinate is in the block's range on its axis. -/
theorem mem_blk1 (t : Fin cfg1.N) (i : S16384x2048.Idx) :
    i ∈ ((cfg1.win 2).blk t).view.set ↔ ∀ a : Fin 2, win1_2.index t a * S1024x2048.size a ≤ (i a).val ∧ (i a).val < win1_2.index t a * S1024x2048.size a + S1024x2048.size a := by
  show i ∈ ((View.whole main_v2).slice (win1_2.rect t)).set ↔ _
  rw [View.set_slice_whole, Rect.mem_set_unit]
  exact Iff.rfl

/-- Every band of 1024 rows is some point's block. -/
theorem idx_onto1 : ∀ q0 : Fin 16, ∃ t : Fin cfg1.N, win1_2.index t = ![q0.val, 0] :=
  (by decide +kernel : ∀ q0 : Fin 16, ∃ t : Fin grid1.N, win1_2.index t = ![q0.val, 0])

/-- The blocks cover the array: row r lies in the block of point r / 1024. -/
theorem cover1 (i : S16384x2048.Idx) : ∃ t : Fin cfg1.N, (cfg1.win 2).flush t = true ∧ i ∈ ((cfg1.win 2).blk t).view.set := by
  have hi0 : (i 0).val < 16384 := (i 0).isLt
  have hi1 : (i 1).val < 2048 := (i 1).isLt
  obtain ⟨t, ht⟩ := idx_onto1 ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 2048 ≤ (i 1).val ∧ (i 1).val < win1_2.index t (1 : Fin 2) * 2048 + 2048; omega

/-- THE ARRAY after the region: the product, everywhere. -/
theorem arrAt1_y (c : Dev nD) : (dat1 m rows fs Ws c).arrAt 2 cfg1.N = prodOf c (m (xLoc c)) (rows c) :=
  (dat1 m rows fs Ws c).arrAt_eq_of_cover 2 _ (fun t _ => flushed1_eq m rows fs Ws c t) cover1

/-! ## The step at one device's contents -/

/-- A datum at device `d` as a family over the devices: there is one device. -/
def famOf {β : Dev nD → Type} (d : Dev nD) (x : β d) (c : Dev nD) : β c :=
  (Subsingleton.elim d c : d = c) ▸ x

theorem famOf_self {β : Dev nD → Type} (d : Dev nD) (x : β d) : famOf d x d = x := rfl

/-- What the result's array holds after the region entered with the one-row matrix at `row` and the result's array at
    `f`, as the pipeline library computes it. -/
def outOf (d : Dev nD) (row : Buf (Elt F) (rLoc d)) (f : Buf (Elt F) (yLoc d)) (W₀ : Waits sig (HIx 1)) : Buf (Elt F) (yLoc d) :=
  finalY m (famOf (β := fun c => Buf (Elt F) (rLoc c)) d row) (famOf (β := fun c => Buf (Elt F) (yLoc c)) d f) (fun _ => W₀) d

/-- The region's step with the result's contents as the library computes them. -/
theorem region_wp_abs (d : Dev nD) (row : Buf (Elt F) (rLoc d)) (f : Buf (Elt F) (yLoc d)) (W₀ : Waits sig (HIx 1)) {α : Type}
    (k : PUnit → Prog (TpuEff nD τ sig (Elt F) (ΛP (F := F)) .tc) α) (Φ : α → sProp 𝕄) :
    iprop(levAts (K (F := F)).L (K (F := F)).lev ∗ boundary (T d) ∗ xPts m d ∗ rPts d row ∗ yPts d f ∗ owes (T d) 0 W₀
        ∗ Pipeline.cellsGhost (nD := nD) (τ := τ) cfgs EP 0 d ∗ Pipeline.toksInit (nD := nD) (τ := τ) cfgs EP 0 d
        ∗ (iprop(boundary (T d) ∗ xPts m d ∗ rPts d row ∗ yPts d (outOf m d row f W₀)
              ∗ ∃ W', ⌜∀ p ∈ W', p ∈ W₀ ∨ p.2 = none⌝ ∗ owes (T d) 0 W')
            -∗ wp frame (wpE (D (F := F)) 𝒱 (T d) none) Set.univ (k ⟨⟩) Φ))
      ⊢ wp frame (wpE (D (F := F)) 𝒱 (T d) none) Set.univ (.op (.customCall (Pipeline.entry 0) ()) k) Φ :=
  region_wp_fam m (famOf (β := fun c => Buf (Elt F) (rLoc c)) d row) (famOf (β := fun c => Buf (Elt F) (yLoc c)) d f) (fun _ => W₀) d k Φ

/-- What the library computes is the product. -/
theorem outOf_eq (d : Dev nD) (row : Buf (Elt F) (rLoc d)) (f : Buf (Elt F) (yLoc d)) (W₀ : Waits sig (HIx 1)) :
    outOf m d row f W₀ = prodOf d (m (xLoc d)) row := by
  unfold outOf finalY
  exact arrAt1_y m (famOf (β := fun c => Buf (Elt F) (rLoc c)) d row) (famOf (β := fun c => Buf (Elt F) (yLoc c)) d f) (fun _ => W₀) d

/-- THE REGION'S STEP: from the boundary, the table as launched, the one-row matrix at `row`, the result's array at
    anything, the core owing nothing with recorded pairs `W₀`, and the pipeline's ghost state, the call runs to the
    boundary with the table and the row as they were, the result at the product, and the core owing nothing, every
    pair recorded since being the pipeline's own. -/
theorem region_wp (d : Dev nD) (row : Buf (Elt F) (rLoc d)) (W₀ : Waits sig (HIx 1)) {α : Type}
    (k : PUnit → Prog (TpuEff nD τ sig (Elt F) (ΛP (F := F)) .tc) α) (Φ : α → sProp 𝕄) :
    iprop(levAts (K (F := F)).L (K (F := F)).lev ∗ boundary (T d) ∗ xPts m d ∗ rPts d row ∗ (∃ f, yPts d f) ∗ owes (T d) 0 W₀
        ∗ Pipeline.cellsGhost (nD := nD) (τ := τ) cfgs EP 0 d ∗ Pipeline.toksInit (nD := nD) (τ := τ) cfgs EP 0 d
        ∗ (iprop(boundary (T d) ∗ xPts m d ∗ rPts d row ∗ yPts d (prodOf d (m (xLoc d)) row)
              ∗ ∃ W', ⌜∀ p ∈ W', p ∈ W₀ ∨ p.2 = none⌝ ∗ owes (T d) 0 W')
            -∗ wp frame (wpE (D (F := F)) 𝒱 (T d) none) Set.univ (k ⟨⟩) Φ))
      ⊢ wp frame (wpE (D (F := F)) 𝒱 (T d) none) Set.univ (.op (.customCall (Pipeline.entry 0) ()) k) Φ := by
  iintro ⟨HL, Hb, Hx, Hr, ⟨%f, Hy⟩, HO, Hg, Ht, Hk⟩
  have h := region_wp_abs m d row f W₀ k Φ
  rw [outOf_eq] at h
  iapply h
  isplitl [HL]; · iexact HL
  isplitl [Hb]; · iexact Hb
  isplitl [Hx]; · iexact Hx
  isplitl [Hr]; · iexact Hr
  isplitl [Hy]; · iexact Hy
  isplitl [HO]; · iexact HO
  isplitl [Hg]; · iexact Hg
  isplitl [Ht]; · iexact Ht
  iexact Hk

/-- The product with a row of 2048 entries laid out as one row of a matrix reads the row at the entry's column. -/
theorem prodOf_reshape (d : Dev nD) (x : Buf (Elt F) (xLoc d)) (g : Buf (Elt F) (oLoc d)) :
    prodOf d x (shapeCast S1x2048 g shapeCasts_S2048_S1x2048)
      = fun i => FloatOps.mulf (x i) (g (ValueIdx.ix1 (i 1 : Fin 2048))) := by
  have key : ∀ j : Fin 2048, shapeCast S1x2048 (g : S2048.Idx → Elt F .f32) shapeCasts_S2048_S1x2048 (ValueIdx.ix2 (0 : Fin 1) j)
      = (g : S2048.Idx → Elt F .f32) (ValueIdx.ix1 j) := fun j =>
    shapeCast_apply (s := S2048) (t := S1x2048) g shapeCasts_S2048_S1x2048 (ValueIdx.ix2 (0 : Fin 1) j) (ValueIdx.ix1 j) (by
      rw [Shape.rowMajor_val_two, Shape.rowMajor_val_one]; show j.val = 0 * 2048 + j.val; omega)
  funext i
  unfold prodOf
  exact congrArg (FloatOps.mulf _) (key (i 1))

end Cert.Proof.KernelRun

end
-- ==== Proof.Kernel.TileValue.lean ====
/-
  The mask row as the working subcore builds it. The row starts at the word of 1.0 everywhere; the index list is then
  taken sixteen entries at a time, and an indexed store puts the word of 0.0 at every column one of those sixteen
  entries names. An indexed store of ONE value is a fold over its lanes that overwrites single entries with that value,
  so what it leaves does not depend on the order of the lanes or on repeated indices: the value wherever some lane
  names the entry, the old contents elsewhere (`storeIdx_fill`). After the first `n` groups of sixteen the row is
  0.0 at every column named by one of the first `16 n` entries and 1.0 elsewhere (`scat`); one more group moves
  `n` to `n + 1` (`scat_step`), and after all sixteen groups the row is the mask of the whole list (`scat_full`).
-/
import proofs.«207358_g28870770164171_cont_9to1_1763_19_alg».proof.Proof.Spec
import Idealize.ShloMosaic.PureOps.ShapeOps

noncomputable section

namespace Cert.Proof.KernelRun

open Idealize.ShloMosaic Cert.MaskSpec

variable {F : FTy → Type} [FloatOps F]

/-- The sixteen lanes of one vector. -/
abbrev SL : Shape := ⟨1, ![16]⟩

/-- The words of 0.0 and of 1.0. -/
abbrev zeroW : F .f32 := Scalar.ofBits .f32 0x00000000#32
abbrev oneW : F .f32 := Scalar.ofBits .f32 0x3F800000#32

open Classical in
/-- A left fold whose every step overwrites with one value `z` the entries its element targets: the result is `z`
    wherever some element of the list targets the entry, and the start function elsewhere. -/
theorem foldl_fill {ι β α : Type} (tgt : ι → β → Prop) [∀ n j, Decidable (tgt n j)] (z : α) :
    ∀ (l : List ι) (g : β → α),
      l.foldl (fun g n => fun j => if tgt n j then z else g j) g = fun j => if ∃ n ∈ l, tgt n j then z else g j
  | [], g => by funext j; simp
  | a :: l, g => by
    rw [List.foldl_cons, foldl_fill tgt z l]
    funext j
    by_cases ha : tgt a j
    · simp [ha]
    · simp [ha]

open Classical in
/-- An unmasked indexed store of one value `z` in every lane: `z` wherever some lane's index names the entry, the old
    contents elsewhere. -/
theorem storeIdx_fill {s : Shape} {e : EltTy} {d : Fin 1 → Nat} (g : Vec F s e) (idxs : Fin s.rank → IVec ⟨1, d⟩ 32) (z : Elt F e)
    (h : ∀ a x, (idxs a x).toNat < s.size a) :
    storeIdx g idxs (fun _ => z) (fun _ => 1#1) false h
      = fun j => if ∃ k : Fin (d 0), ∀ a, (j a).val = (idxs a (Shape.ofLane k)).toNat then z else g j := by
  unfold storeIdx
  have hstep : (fun (g : Vec F s e) (k : Fin (d 0)) =>
      let x := Shape.ofLane k
      if (fun _ => 1#1 : IVec ⟨1, d⟩ 1) x = 1 then
        let i := idxAt idxs h x
        let y := if false then Elt.idxAdd e (g i) ((fun _ => z : Vec F ⟨1, d⟩ e) x) else (fun _ => z : Vec F ⟨1, d⟩ e) x
        fun j => if (∀ a, (j a).val = (i a).val) then y else g j
      else g) = fun g k => fun j => if (∀ a, (j a).val = (idxs a (Shape.ofLane k)).toNat) then z else g j := by
    funext g k
    simp [idxAt]
  rw [hstep, foldl_fill (fun (k : Fin (d 0)) (j : s.Idx) => ∀ a, (j a).val = (idxs a (Shape.ofLane k)).toNat) z]
  funext j
  simp [List.mem_finRange]

open Classical in
/-- The mask row after the first `n` groups of sixteen entries: 0.0 at every column one of the first `16 n` entries
    names, 1.0 elsewhere. -/
def scat (idx : IVec SI 32) (n : Nat) : FVec F SM .f32 := fun j =>
  if ∃ k : SI.Idx, (k 0).val < 16 * n ∧ (idx k).toNat = (j 0).val then zeroW else oneW

/-- Before any group the row is 1.0 everywhere. -/
theorem scat_zero (idx : IVec SI 32) : scat (F := F) idx 0 = fun _ => oneW := by
  funext j
  unfold scat
  rw [if_neg]
  rintro ⟨k, hk, _⟩
  omega

/-- After all sixteen groups the row is the mask of the list. -/
theorem scat_full (idx : IVec SI 32) : scat (F := F) idx 16 = maskOf idx := by
  funext j
  unfold scat maskOf Hit
  by_cases h : ∃ k : SI.Idx, (idx k).toNat = (j 0).val
  · rw [if_pos h, if_pos]
    obtain ⟨k, e⟩ := h
    exact ⟨k, (k 0).isLt, e⟩
  · rw [if_neg h, if_neg]
    rintro ⟨k, _, e⟩
    exact h ⟨k, e⟩

/-- One more group: the indexed store of 0.0 at the sixteen entries `16 n, …, 16 n + 15` of the list. -/
theorem scat_step (idx : IVec SI 32) (n : Nat) (hn : n < 16) (v : IVec SL 32)
    (hv : ∀ (x : SL.Idx) (k : SI.Idx), (k 0).val = 16 * n + (x 0).val → v x = idx k)
    (h : ∀ a x, ((![v] : Fin SM.rank → IVec SL 32) a x).toNat < SM.size a) :
    storeIdx (F := F) (s := SM) (e := .f32) (scat idx n) ![v] (fun _ => zeroW) (fun _ => 1#1) false h = scat idx (n + 1) := by
  rw [storeIdx_fill]
  funext j
  have h16 : (![16] : Fin 1 → Nat) 0 = 16 := rfl
  by_cases h1 : ∃ k : Fin ((![16] : Fin 1 → Nat) 0), ∀ a, (j a).val = ((![v] : Fin SM.rank → IVec SL 32) a (Shape.ofLane k)).toNat
  · rw [if_pos h1]
    unfold scat
    rw [if_pos]
    obtain ⟨k, hk⟩ := h1
    have hk16 : k.val < 16 := lt_of_lt_of_eq k.isLt h16
    refine ⟨fun a => ⟨16 * n + k.val, by rw [Fin.eq_zero a]; show 16 * n + k.val < 256; omega⟩, by show 16 * n + k.val < 16 * (n + 1); omega, ?_⟩
    rw [← hv (Shape.ofLane k) _ rfl]
    exact (hk 0).symm
  · rw [if_neg h1]
    unfold scat
    by_cases h2 : ∃ k : SI.Idx, (k 0).val < 16 * n ∧ (idx k).toNat = (j 0).val
    · rw [if_pos h2, if_pos]
      obtain ⟨k, hk, e⟩ := h2
      exact ⟨k, by omega, e⟩
    · rw [if_neg h2, if_neg]
      rintro ⟨k, hk, e⟩
      by_cases hlt : (k 0).val < 16 * n
      · exact h2 ⟨k, hlt, e⟩
      · refine h1 ⟨⟨(k 0).val - 16 * n, by rw [h16]; omega⟩, fun a => ?_⟩
        rw [Fin.eq_zero a]
        show (j 0).val = (v (Shape.ofLane _)).toNat
        rw [hv _ k (by show (k 0).val = 16 * n + ((k 0).val - 16 * n); omega), e]

end Cert.Proof.KernelRun

end
-- ==== Proof.Kernel.TileBody.lean ====
/-
  The mask kernel's task on one vector subcore, run once at a symbolic place of the grid. Where the kernel's condition
  holds (the one working subcore) the task copies the launch's index list into its first scratch, fills its second
  scratch with the word of 1.0 by 128 sixteen-lane stores, then takes the index list sixteen entries at a time and stores
  the word of 0.0 at the columns they name, and copies the second scratch out to the mask row's array. The value is carried
  through the run: the first scratch holds the index list from the first copy on, so every group of sixteen loaded words
  is sixteen consecutive entries of the list (which name columns of the row, the list being in range: that is what each
  check of the indices asks); the second scratch is 1.0 everywhere after the 128 stores, and after `n` groups it is the
  row `scat n` of the value module, so after all sixteen it is the mask of the list, which the last copy puts in the
  array. Where the condition fails the task returns at once.
-/
import proofs.«207358_g28870770164171_cont_9to1_1763_19_alg».proof.Proof.Kernel.Common
import proofs.«207358_g28870770164171_cont_9to1_1763_19_alg».proof.Proof.Kernel.TileValue
import Idealize.ShloMosaic.Lib.Writes

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] (m : (ℓ : Loc nD τ sig) → Buf (Elt F) ℓ) (d : Dev nD) (L : grid0.Coords)

abbrev cV (L : grid0.Coords) : Fin τ.nSC := (L 0).castLE hcore0
abbrev jV (L : grid0.Coords) : Fin τ.nSub := (L 1).castLE hsub0

abbrev iV : Memref sig .scVector .hbm S256 .i32 := Memref.whole main_arg1_scv
abbrev oV : Memref sig .scVector .hbm S2048 .f32 := Memref.whole main_v0_scv
abbrev sI : Memref sig .scVector .vmem S256 .i32 := Memref.whole cc0_scratch0
abbrev sM : Memref sig .scVector .vmem S2048 .f32 := Memref.whole cc0_scratch1

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem pts_i (c : Fin τ.nSC) (i : Fin τ.nSub) (f : Buf (Elt F) (iLoc d)) :
    ((iV).view.loc (V d c i) ↦{fullShare} f : sProp 𝕄) = iLoc d ↦{fullShare} f := by
  simp only [Memref.view_whole, View.set_whole]
omit [FloatOps F] in
theorem pts_o (c : Fin τ.nSC) (i : Fin τ.nSub) (f : Buf (Elt F) (oLoc d)) :
    ((oV).view.loc (V d c i) ↦{fullShare} f : sProp 𝕄) = oLoc d ↦{fullShare} f := by
  simp only [Memref.view_whole, View.set_whole]

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_s (c : Fin τ.nSC) (i : Fin τ.nSub) (f : Buf (Elt F) ((V d c i).loc cc0_scratch0)) :
    ((sI).view.loc (V d c i) ↦{fullShare} f : sProp 𝕄) = (V d c i).loc cc0_scratch0 ↦{fullShare} f := rfl
omit [FloatOps F] in
theorem pts_m (c : Fin τ.nSC) (i : Fin τ.nSub) (f : Buf (Elt F) ((V d c i).loc cc0_scratch1)) :
    ((sM).view.loc (V d c i) ↦{fullShare} f : sProp 𝕄) = (V d c i).loc cc0_scratch1 ↦{fullShare} f := rfl

/-- The launch's index list, as the word vector the mask is the mask of. -/
abbrev idxOf (d : Dev nD) : IVec Cert.MaskSpec.SI 32 := m (iLoc d)

omit [FloatOps F] in
/-- Sixteen consecutive entries of the first scratch, once the index list has landed in it whole: lane `x` of the
    group at offset `off` is entry `off + x` of the launch's index list. -/
theorem chunk_eq (c : Fin τ.nSC) (i : Fin τ.nSub) (off : Nat) (inb : ∀ a, (![off] : Fin S256.rank → Nat) a + S16.size a ≤ S256.size a)
    (fs : Buf (Elt F) ((V d c i).loc cc0_scratch0)) (p : S256.Idx → Elt F .i32) (hp : p = m (iLoc d))
    (x : S16.Idx) (k : S256.Idx) (hk : (k 0).val = off + (x 0).val) :
    View.readAt (Elt F) (sI).view (Rect.unit (s := S256) ![off] S16.size inb).toLoadRect (View.write (Elt F) (sI).view fs p Finset.univ) x
      = m (iLoc d) k := by
  subst hp
  rw [View.readAt_apply]
  simp only [Memref.view_whole, View.read_whole]
  refine (congrFun (View.write_whole_univ (Val := Elt F) cc0_scratch0 fs (m (iLoc d))) _).trans ?_
  congr 1
  funext a
  rw [Fin.eq_zero a]
  apply Fin.ext
  show off + 1 * (x 0).val = (k 0).val
  omega

omit [FloatOps F] in
/-- Every lane of such a group names a column of the mask row, the index list being in range. -/
theorem chk_chunk (hidx : ∀ (d : Dev nD) (k : S256.Idx), ((m (iLoc d)) k).toNat < 2048) (c : Fin τ.nSC) (i : Fin τ.nSub) (off : Nat) (inb : ∀ a, (![off] : Fin S256.rank → Nat) a + S16.size a ≤ S256.size a)
    (fs : Buf (Elt F) ((V d c i).loc cc0_scratch0)) (p : S256.Idx → Elt F .i32) (hp : p = m (iLoc d)) :
    ∀ a x, ((![View.readAt (Elt F) (sI).view (Rect.unit (s := S256) ![off] S16.size inb).toLoadRect (View.write (Elt F) (sI).view fs p Finset.univ)]
      : Fin 1 → IVec S16 32) a x).toNat < S2048.size a := by
  intro a x
  rw [Fin.eq_zero a]
  have hin := inb 0
  have hx : (x 0).val < 16 := (x 0).isLt
  have e := chunk_eq m d c i off inb fs p hp x (fun a => ⟨off + (x 0).val, by
    rw [Fin.eq_zero a]; show off + (x 0).val < 256
    have : off + 16 ≤ 256 := hin
    omega⟩) rfl
  show (View.readAt (Elt F) (sI).view (Rect.unit (s := S256) ![off] S16.size inb).toLoadRect (View.write (Elt F) (sI).view fs p Finset.univ) x).toNat < 2048
  rw [e]
  exact hidx d _

/-- One indexed store of the sixteen-lane vector of 0.0 at group `n` of the index list: the mask row moves from its
    state after `n` groups to its state after `n + 1`. -/
theorem scat_store (c : Fin τ.nSC) (i : Fin τ.nSub) (n : Nat) (hn : n < 16) (v : IVec S16 32)
    (hv : ∀ (x : S16.Idx) (k : S256.Idx), (k 0).val = 16 * n + (x 0).val → v x = m (iLoc d) k)
    {α : Type} (h : ∀ a x, ((![v] : Fin S2048.rank → IVec S16 32) a x).toNat < S2048.size a)
    (hs : ((sM).access (.whole S2048)).Stores Finset.univ)
    (k : PUnit → Prog (TpuEff nD τ sig (Elt F) Λ₀ (.scVector c i)) α) (Q : α → sProp 𝕄) :
    ((sM).view.loc (V d c i) ↦{fullShare} (scat (F := F) (idxOf m d) n : Buf (Elt F) ((V d c i).loc cc0_scratch1)) : sProp 𝕄)
      ⊢ iprop((((sM).view.loc (V d c i) ↦{fullShare} (scat (F := F) (idxOf m d) (n + 1) : Buf (Elt F) ((V d c i).loc cc0_scratch1)))
          -∗ wp frame (wpE (defs₀ (F := F)) 𝒱₀ (V d c i) none) Set.univ (k ⟨⟩) Q)
        -∗ wp frame (wpE (defs₀ (F := F)) 𝒱₀ (V d c i) none) Set.univ
            (SparseCore.vectorStoreIdx (sM) ![v] (k0_pay2 (F := F)) (fun _ => 1#1) false h hs >>= k) Q) := by
  have hw := SparseCore.wp_vectorStoreIdx (defs := defs₀ (F := F)) 𝒱₀ (V d c i) none Set.univ (base := sM) (idxs := ![v]) (v := k0_pay2 (F := F))
    (mask := fun _ => 1#1) (add := false) (h := h) (hs := hs) (k := k) (Q := Q)
    (f := (scat (F := F) (idxOf m d) n : Buf (Elt F) ((V d c i).loc cc0_scratch1)))
  have e1 : (((sM).access (.whole S2048)) : View sig _ _ _ _).set = Finset.univ := Memref.set_access_whole cc0_scratch1
  have e2 : ((sM).access (.whole S2048)).write (Elt F) (scat (F := F) (idxOf m d) n : Buf (Elt F) ((V d c i).loc cc0_scratch1))
      (storeIdx (((sM).access (.whole S2048)).read (Elt F) (scat (F := F) (idxOf m d) n : Buf (Elt F) ((V d c i).loc cc0_scratch1))) ![v] (k0_pay2 (F := F)) (fun _ => 1#1) false h) Finset.univ
      = (scat (F := F) (idxOf m d) (n + 1) : Buf (Elt F) ((V d c i).loc cc0_scratch1)) := by
    have e3 : ((sM).access (.whole S2048)).read (Elt F) (scat (F := F) (idxOf m d) n : Buf (Elt F) ((V d c i).loc cc0_scratch1))
        = scat (F := F) (idxOf m d) n := Memref.read_access_whole (Elt F) cc0_scratch1 _
    have e4 : ∀ w, ((sM).access (.whole S2048)).write (Elt F) (scat (F := F) (idxOf m d) n : Buf (Elt F) ((V d c i).loc cc0_scratch1)) w Finset.univ = w :=
      fun w => Memref.write_access_whole_univ (Elt F) cc0_scratch1 _ w
    rw [e4, e3]
    exact scat_step (F := F) (idxOf m d) n hn v hv h
  rw [e1, e2] at hw
  exact hw

/-- The 128 sixteen-lane stores of 1.0 tile the mask row: whatever the second scratch held, it is 1.0 everywhere after
    them, which is the mask row's state before any group of the index list. -/
theorem ones_of_writes (c : Fin τ.nSC) (i : Fin τ.nSub) (fm : Buf (Elt F) ((V d c i).loc cc0_scratch1)) (Lst : List (View.Piece (Elt F) S2048 .f32))
    (hG : ∀ p ∈ Lst, ∀ x, p.2 x = (oneW : F .f32)) (hcov : View.Piece.tiled Lst ![16] = true) :
    ((sM).view.loc (V d c i) ↦{fullShare} (sM).view.writes (Elt F) fm Lst : sProp 𝕄)
      ⊢ (sM).view.loc (V d c i) ↦{fullShare} (scat (F := F) (idxOf m d) 0 : Buf (Elt F) ((V d c i).loc cc0_scratch1)) := by
  refine Entails.of_eq (congrArg (fun g => ((sM).view.loc (V d c i) ↦{fullShare} g : sProp 𝕄)) ?_)
  rw [scat_zero]
  funext y
  exact View.read_writes_apply_of_pieces (sM).view fm (fun _ => oneW) Lst (fun p hp x => hG p hp x) y (View.cover_of_tiled Lst ![16] hcov y)

theorem pay1_apply (x : S16.Idx) : (k0_pay1 (F := F)) x = oneW := rfl

/-- What the last copy puts in the mask row's array: the second scratch after all sixteen groups, which is the mask of
    the launch's index list. -/
theorem out_eq (fo : Buf (Elt F) (oLoc d)) (p : S2048.Idx → Elt F .f32) (hp : p = scat (F := F) (idxOf m d) 16) :
    View.write (Elt F) (oV).view fo p Finset.univ = maskBuf m d := by
  subst hp
  simp only [Memref.view_whole]
  refine (View.write_whole_univ (Val := Elt F) main_v0_scv fo _).trans ?_
  unfold maskBuf
  exact scat_full _

/-- The working subcore's task: the index list copied into the first scratch, the second scratch filled with 1.0 by 128
    sixteen-lane stores, 0.0 stored at the columns the index list names, sixteen entries at a time, and the second
    scratch copied out: the mask row's array ends at the mask of the index list, the index list unchanged, both
    scratches and both semaphores handed back. -/
theorem tile_body (hidx : ∀ (d : Dev nD) (k : S256.Idx), ((m (iLoc d)) k).toNat < 2048) (hL : k0_cond1 L = 1#1) (O : CellTallies nD τ sig (HIx 1)) (W : Waits sig (HIx 1)) (hO : ∀ g, O g none = 0) :
    iprop(levAts (K (F := F)).L (K (F := F)).lev ∗ emp ∗ handed m d
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__mask_sc_kernel L iV (Memref.isWhole_whole _) oV (Memref.isWhole_whole _)
            sI (Memref.isWhole_whole _) sM (Memref.isWhole_whole _) cc0_scoped0 cc0_scoped1)
          fun _ => iprop(back m d ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__mask_sc_kernel_eq_skeleton]; unfold cc0__mask_sc_kernel_skel
  rw [(K (F := F)).scopedBufs_V facts d (cV L) (jV L), SparseCore.Cfg.scopedSems0_V (Val := Elt F) d (cV L) (jV L), ownSems0_V, ownBufs_V]
  iintro ⟨#Hlv, -, ⟨Hi, %fo, Ho⟩, ⟨⟨%fs, Hs⟩, ⟨%fm, Hm⟩, Hbufs⟩, ⟨HsemA, HsemB, Hsems⟩, HO⟩
  ihave Hmw := ((K (F := F)).mayWaits_none (thr := V d (cV L) (jV L)) hO) $$ Hlv
  ihave Hi' := (Entails.of_eq (pts_i (F := F) d (cV L) (jV L) _).symm) $$ Hi
  ihave Ho' := (Entails.of_eq (pts_o (F := F) d (cV L) (jV L) _).symm) $$ Ho
  ihave Hs' := (Entails.of_eq (pts_s (F := F) d (cV L) (jV L) _).symm) $$ Hs
  ihave Hm' := (Entails.of_eq (pts_m (F := F) d (cV L) (jV L) _).symm) $$ Hm
  -- the first copy and the 128 stores of 1.0
  sl_exec
  ihave Hm' := (ones_of_writes m d (cV L) (jV L) fm _ ?hG ?hcov) $$ Hm'
  case hG =>
    simp only [List.forall_mem_cons]
    simp [pay1_apply]
  case hcov => rfl
  -- group 0 of the index list
  sl_exec (disch := exact fun _ => chk_chunk m d hidx _ _ _ _ _ _ rfl)
  iapply (scat_store m d (cV L) (jV L) 0 (by omega) _ ?hv0 _ _ _ _) $$ Hm'
  case hv0 => exact fun x k hk => chunk_eq m d _ _ _ _ _ _ rfl x k hk
  iintro Hm'
  -- group 1 of the index list
  sl_exec (disch := exact fun _ => chk_chunk m d hidx _ _ _ _ _ _ rfl)
  iapply (scat_store m d (cV L) (jV L) 1 (by omega) _ ?hv1 _ _ _ _) $$ Hm'
  case hv1 => exact fun x k hk => chunk_eq m d _ _ _ _ _ _ rfl x k hk
  iintro Hm'
  -- group 2 of the index list
  sl_exec (disch := exact fun _ => chk_chunk m d hidx _ _ _ _ _ _ rfl)
  iapply (scat_store m d (cV L) (jV L) 2 (by omega) _ ?hv2 _ _ _ _) $$ Hm'
  case hv2 => exact fun x k hk => chunk_eq m d _ _ _ _ _ _ rfl x k hk
  iintro Hm'
  -- group 3 of the index list
  sl_exec (disch := exact fun _ => chk_chunk m d hidx _ _ _ _ _ _ rfl)
  iapply (scat_store m d (cV L) (jV L) 3 (by omega) _ ?hv3 _ _ _ _) $$ Hm'
  case hv3 => exact fun x k hk => chunk_eq m d _ _ _ _ _ _ rfl x k hk
  iintro Hm'
  -- group 4 of the index list
  sl_exec (disch := exact fun _ => chk_chunk m d hidx _ _ _ _ _ _ rfl)
  iapply (scat_store m d (cV L) (jV L) 4 (by omega) _ ?hv4 _ _ _ _) $$ Hm'
  case hv4 => exact fun x k hk => chunk_eq m d _ _ _ _ _ _ rfl x k hk
  iintro Hm'
  -- group 5 of the index list
  sl_exec (disch := exact fun _ => chk_chunk m d hidx _ _ _ _ _ _ rfl)
  iapply (scat_store m d (cV L) (jV L) 5 (by omega) _ ?hv5 _ _ _ _) $$ Hm'
  case hv5 => exact fun x k hk => chunk_eq m d _ _ _ _ _ _ rfl x k hk
  iintro Hm'
  -- group 6 of the index list
  sl_exec (disch := exact fun _ => chk_chunk m d hidx _ _ _ _ _ _ rfl)
  iapply (scat_store m d (cV L) (jV L) 6 (by omega) _ ?hv6 _ _ _ _) $$ Hm'
  case hv6 => exact fun x k hk => chunk_eq m d _ _ _ _ _ _ rfl x k hk
  iintro Hm'
  -- group 7 of the index list
  sl_exec (disch := exact fun _ => chk_chunk m d hidx _ _ _ _ _ _ rfl)
  iapply (scat_store m d (cV L) (jV L) 7 (by omega) _ ?hv7 _ _ _ _) $$ Hm'
  case hv7 => exact fun x k hk => chunk_eq m d _ _ _ _ _ _ rfl x k hk
  iintro Hm'
  -- group 8 of the index list
  sl_exec (disch := exact fun _ => chk_chunk m d hidx _ _ _ _ _ _ rfl)
  iapply (scat_store m d (cV L) (jV L) 8 (by omega) _ ?hv8 _ _ _ _) $$ Hm'
  case hv8 => exact fun x k hk => chunk_eq m d _ _ _ _ _ _ rfl x k hk
  iintro Hm'
  -- group 9 of the index list
  sl_exec (disch := exact fun _ => chk_chunk m d hidx _ _ _ _ _ _ rfl)
  iapply (scat_store m d (cV L) (jV L) 9 (by omega) _ ?hv9 _ _ _ _) $$ Hm'
  case hv9 => exact fun x k hk => chunk_eq m d _ _ _ _ _ _ rfl x k hk
  iintro Hm'
  -- group 10 of the index list
  sl_exec (disch := exact fun _ => chk_chunk m d hidx _ _ _ _ _ _ rfl)
  iapply (scat_store m d (cV L) (jV L) 10 (by omega) _ ?hv10 _ _ _ _) $$ Hm'
  case hv10 => exact fun x k hk => chunk_eq m d _ _ _ _ _ _ rfl x k hk
  iintro Hm'
  -- group 11 of the index list
  sl_exec (disch := exact fun _ => chk_chunk m d hidx _ _ _ _ _ _ rfl)
  iapply (scat_store m d (cV L) (jV L) 11 (by omega) _ ?hv11 _ _ _ _) $$ Hm'
  case hv11 => exact fun x k hk => chunk_eq m d _ _ _ _ _ _ rfl x k hk
  iintro Hm'
  -- group 12 of the index list
  sl_exec (disch := exact fun _ => chk_chunk m d hidx _ _ _ _ _ _ rfl)
  iapply (scat_store m d (cV L) (jV L) 12 (by omega) _ ?hv12 _ _ _ _) $$ Hm'
  case hv12 => exact fun x k hk => chunk_eq m d _ _ _ _ _ _ rfl x k hk
  iintro Hm'
  -- group 13 of the index list
  sl_exec (disch := exact fun _ => chk_chunk m d hidx _ _ _ _ _ _ rfl)
  iapply (scat_store m d (cV L) (jV L) 13 (by omega) _ ?hv13 _ _ _ _) $$ Hm'
  case hv13 => exact fun x k hk => chunk_eq m d _ _ _ _ _ _ rfl x k hk
  iintro Hm'
  -- group 14 of the index list
  sl_exec (disch := exact fun _ => chk_chunk m d hidx _ _ _ _ _ _ rfl)
  iapply (scat_store m d (cV L) (jV L) 14 (by omega) _ ?hv14 _ _ _ _) $$ Hm'
  case hv14 => exact fun x k hk => chunk_eq m d _ _ _ _ _ _ rfl x k hk
  iintro Hm'
  -- group 15 of the index list
  sl_exec (disch := exact fun _ => chk_chunk m d hidx _ _ _ _ _ _ rfl)
  iapply (scat_store m d (cV L) (jV L) 15 (by omega) _ ?hv15 _ _ _ _) $$ Hm'
  case hv15 => exact fun x k hk => chunk_eq m d _ _ _ _ _ _ rfl x k hk
  iintro Hm'
  -- the last copy, and what is handed back
  sl_exec
  sl_step
  isplitl [Hi' Ho']
  · isplitl [Hi']
    · iapply (Entails.of_eq (pts_i (F := F) d (cV L) (jV L) _)); iexact Hi'
    · iapply (Entails.of_eq (pts_o (F := F) d (cV L) (jV L) _))
      iapply (Entails.of_eq (congrArg (fun g => ((oV).view.loc (V d (cV L) (jV L)) ↦{fullShare} g : sProp 𝕄)) (out_eq m d fo _ rfl)))
      iexact Ho'
  isplitl [Hs' Hm' Hbufs]
  · isplitl [Hs']; · iexists _; iexact Hs'
    isplitl [Hm']; · iexists _; iexact Hm'
    iexact Hbufs
  isplitl [HsemA HsemB Hsems]
  · isplitl [HsemA]; · iexact HsemA
    isplitl [HsemB]; · iexact HsemB
    iexact Hsems
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

/-- Every other subcore's task: the condition is false and the body returns at once, everything it was given in hand. -/
theorem tile_idle (hL : ¬ k0_cond1 L = 1#1) (O : CellTallies nD τ sig (HIx 1)) (W : Waits sig (HIx 1)) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__mask_sc_kernel L iV (Memref.isWhole_whole _) oV (Memref.isWhole_whole _)
            sI (Memref.isWhole_whole _) sM (Memref.isWhole_whole _) cc0_scoped0 cc0_scoped1)
          fun _ => iprop(emp ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__mask_sc_kernel_eq_skeleton]; unfold cc0__mask_sc_kernel_skel
  iintro ⟨-, -, He, Hsb, Hss, HO⟩
  sl_exec
  sl_step
  isplitl [He]; · iexact He
  isplitl [Hsb]; · iexact Hsb
  isplitl [Hss]; · iexact Hss
  iexists W; isplitr
  · ipureintro; exact fun p hp => .inl hp
  · iexact HO

end Cert.Proof.KernelRun

end
-- ==== Proof.Kernel.Tile.lean ====
/-
  The launch theorem's obligation for the mask kernel's vector-subcore tasks. Of the 2 × 16 grid points only (0, 0)
  satisfies the kernel's condition (decided over all 32): that subcore is handed the index list and the mask row's
  array and hands them back with the array at the mask of the list; every other subcore is handed nothing, finds the
  condition false and returns. The obligation enters the kernel's function through the pipeline's body table and the
  grid's bounds, and then is one of the two runs of the body module.
-/
import proofs.«207358_g28870770164171_cont_9to1_1763_19_alg».proof.Proof.Kernel.TileBody

noncomputable section

namespace Cert.Proof.KernelRun

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] (m : (ℓ : Loc nD τ sig) → Buf (Elt F) ℓ)

/-- Every entry of the launch's index list names a column of the mask row. -/
def IdxOK : Prop := ∀ (d : Dev nD) (k : S256.Idx), ((m (iLoc d)) k).toNat < 2048

/-- The kernel's condition holds at grid point (0, 0) and nowhere else. -/
theorem cond_iff : ∀ (c : Fin (grid0.bound 0)) (s : Fin (grid0.bound 1)), k0_cond1 (coordsV c s) = 1#1 ↔ c.val = 0 ∧ s.val = 0 := by
  decide

theorem defs₀_vector (c : Fin τ.nSC) (s : Fin τ.nSub) :
    defs₀ (F := F) (.scVector c s) 0 ()
      = SparseCore.onTile hcore0 hsub0 (fun c s => cc0__mask_sc_kernel (coordsV c s)
          iV (Memref.isWhole_whole _) oV (Memref.isWhole_whole _)
          sI (Memref.isWhole_whole _) sM (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hidx : IdxOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  by_cases h00 : c.val = 0 ∧ i.val = 0
  · -- the working subcore
    have hL : k0_cond1 (coordsV ⟨_, hc.1⟩ ⟨_, hc.2⟩) = 1#1 := (cond_iff _ _).mpr h00
    have hgo : (P m).go 0 d c i = handed m d := if_pos h00
    have htd : (P m).td 0 d c i = back m d := if_pos h00
    rw [hgo, htd]
    exact (tile_body m d (coordsV ⟨_, hc.1⟩ ⟨_, hc.2⟩) hidx hL O W hO).trans (wp_mono frame _ _ fun _ => obl_post)
  · -- every other subcore
    have hL : ¬ k0_cond1 (coordsV ⟨_, hc.1⟩ ⟨_, hc.2⟩) = 1#1 := fun h => h00 ((cond_iff _ _).mp h)
    have hgo : (P m).go 0 d c i = iprop(emp) := if_neg h00
    have htd : (P m).td 0 d c i = iprop(emp) := if_neg h00
    rw [hgo, htd]
    exact (tile_idle d (coordsV ⟨_, hc.1⟩ ⟨_, hc.2⟩) hL O W).trans (wp_mono frame _ _ fun _ => obl_post)

end Cert.Proof.KernelRun

end
-- ==== Proof.Kernel.Run.lean ====
/-
  The masking program's run: every weakly fair execution of all the device's threads ends, nothing faulting, with the
  table and the index list as launched and the result at the table times the mask of the index list, entry by entry.
  The launch supplies the run from the subcores' task and the multiply kernel's region; what is added here is that the
  multiply kernel's product with the reshaped mask row is the product with the mask: the reshape of a row of 2048 into
  a one-row matrix reads, at (0, c), the row at c.
-/
import proofs.«207358_g28870770164171_cont_9to1_1763_19_alg».proof.Proof.Kernel.Launch
import proofs.«207358_g28870770164171_cont_9to1_1763_19_alg».proof.Proof.Kernel.Region
import proofs.«207358_g28870770164171_cont_9to1_1763_19_alg».proof.Proof.Kernel.Tile

noncomputable section

namespace Cert.Proof.KernelRun

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-- The multiply kernel's product of the table with the reshaped mask of the index list is the table times the mask. -/
theorem prodOf_mask (d : Dev nD) :
    prodOf d (m (xLoc d)) (rowOf d (maskBuf m d)) = Cert.MaskSpec.timesMask (F := F) (m (xLoc d)) (m (iLoc d)) := by
  unfold rowOf
  rw [prodOf_reshape]
  rfl

theorem run_main [∀ e, Nonempty (Elt F e)] (hidx : IdxOK m) :
    θ_run (Cert.Kernel.defs (F := F)) (Cert.Kernel.threads (F := F)) ⟨m, fun _ => 0, ρ⟩ (fun r => ∀ c : Dev nD,
      r.2.mem (yLoc c) = Cert.MaskSpec.timesMask (F := F) (m (xLoc c)) (m (iLoc c))
      ∧ r.2.mem (xLoc c) = m (xLoc c) ∧ r.2.mem (iLoc c) = m (iLoc c)) :=
  (θ_run _ _ _).mono (fun _ h c => ⟨(h c).1.trans (prodOf_mask m c), (h c).2⟩)
    (run_of m ρ prodOf (tileObl m hidx) (fun d row W₀ _ k Φ => region_wp m d row W₀ k Φ))

end Cert.Proof.KernelRun

end
-- ==== Proof.KernelIdeal.Common.lean ====
/-
  The masking program as the launch theorem reads it, and what its handshakes carry. SparseCore 0 alone works, and of its
  sixteen vector subcores only subcore 0: the call hands that one subcore the index list and the mask row's array whole,
  and takes both back, the mask row at the mask of the index list (0.0 at every column the list names, 1.0 elsewhere);
  every other subcore is handed nothing. The ghost state is the handshakes' rounds beside the rounds of the multiply
  kernel's staging semaphores and the counters of the subcore's own two copies.
-/
import proofs.«207358_g28870770164171_cont_9to1_1763_19_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«207358_g28870770164171_cont_9to1_1763_19_alg».proof.Proof.Gen.KernelIdeal
import proofs.«207358_g28870770164171_cont_9to1_1763_19_alg».proof.Proof.Gen.KernelIdeal.Skeleton
import proofs.«207358_g28870770164171_cont_9to1_1763_19_alg».proof.Proof.Gen.KernelIdeal.Launch
import proofs.«207358_g28870770164171_cont_9to1_1763_19_alg».proof.Proof.Gen.KernelIdeal.Points
import proofs.«207358_g28870770164171_cont_9to1_1763_19_alg».proof.Proof.Spec

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, the left factor. -/
abbrev EH : Emb UH (MT nD τ sig (HIx 1) (Elt F) ℕ UU ℕ) := embL
/-- The staging semaphores' rounds, the left factor of the right factor. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-! ## The launch memory and the buffers -/

variable (m : (ℓ : Loc nD τ sig) → Buf (Elt F) ℓ) (ρ : Dev nD → PrngReg)

/-- The table, the index list, the mask row, the mask row as one row of a matrix, the result. -/
abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0
abbrev rLoc (d : Dev nD) : Loc nD τ sig := (SparseCore.T d).loc main_v1
abbrev yLoc (d : Dev nD) : Loc nD τ sig := (SparseCore.T d).loc main_v2

variable [FloatOps F]

abbrev xPts (d : Dev nD) : sProp 𝕄 := xLoc d ↦{fullShare} m (xLoc d)
abbrev iPts (d : Dev nD) : sProp 𝕄 := iLoc d ↦{fullShare} m (iLoc d)
abbrev oPts (d : Dev nD) (f : Buf (Elt F) (oLoc d)) : sProp 𝕄 := oLoc d ↦{fullShare} f
abbrev rPts (d : Dev nD) (f : Buf (Elt F) (rLoc d)) : sProp 𝕄 := rLoc d ↦{fullShare} f
abbrev yPts (d : Dev nD) (f : Buf (Elt F) (yLoc d)) : sProp 𝕄 := yLoc d ↦{fullShare} f

/-- The mask of the launch's index list, as the mask row's array holds it after the call. -/
def maskBuf (d : Dev nD) : Buf (Elt F) (oLoc d) := Cert.MaskSpec.maskOf (F := F) (m (iLoc d))

/-- What the working subcore is handed, and what it hands back. -/
abbrev handed (d : Dev nD) : sProp 𝕄 := iprop(iPts m d ∗ ∃ f, oPts d f)
abbrev back (d : Dev nD) : sProp 𝕄 := iprop(iPts m d ∗ oPts d (maskBuf m d))

/-- The call's payloads: SparseCore 0 and its vector subcore 0 get the index list and the mask row's array; the
    others nothing. -/
def P : (K (F := F)).Pay (nD := nD) (Val := Elt F) (Name := ℕ) (U := UU) where
  st := fun _ d c => if c.val = 0 then handed m d else iprop(emp)
  dn := fun _ d c => if c.val = 0 then back m d else iprop(emp)
  go := fun _ d c i => if c.val = 0 ∧ i.val = 0 then handed m d else iprop(emp)
  td := fun _ d c i => if c.val = 0 ∧ i.val = 0 then back m d else iprop(emp)
  x := fun _ _ => iprop(emp)

instance P_storable : (P (F := F) m).IsStorable where
  st _ d c := by unfold P; dsimp only; split <;> infer_instance
  dn _ d c := by unfold P; dsimp only; split <;> infer_instance
  go _ _ _ _ := by unfold P; dsimp only; split <;> infer_instance
  td _ _ _ _ := by unfold P; dsimp only; split <;> infer_instance

/-- The grid point of SparseCore `c`'s vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

end Cert.Proof.KernelIdealRun

end
-- ==== Proof.KernelIdeal.Launch.lean ====
/-
  The launch of the masking program: how SparseCore 0's operands go to its one working subcore and come back, the launch
  element of the ghost state (the handshakes' rounds, the staging semaphores' rounds funded for the multiply kernel, the
  copies' counters), the TensorCore's program — the call, the reshape of the mask row into a one-row matrix, the multiply
  kernel's region —, and how the final memory reads the result: the table times the mask of the index list.
-/
import proofs.«207358_g28870770164171_cont_9to1_1763_19_alg».proof.Proof.KernelIdeal.Common

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## One working subcore among sixteen -/

omit m in
/-- A family over the subcores that is `A` at subcore 0 of SparseCore 0 and empty elsewhere is `A` on SparseCore 0
    and empty on SparseCore 1. -/
theorem tasks_one (c : Fin ((K (F := F)).nCore 0)) (A : sProp 𝕄) :
    (bigSep Finset.univ fun i : Fin ((K (F := F)).nSub 0) => if c.val = 0 ∧ i.val = 0 then A else iprop(emp))
      = if c.val = 0 then A else iprop(emp) := by
  by_cases hc : c.val = 0
  · simp only [hc, _root_.true_and, if_true]
    refine ((bigSep_filter Finset.univ (fun i : Fin ((K (F := F)).nSub 0) => i.val = 0) (fun _ => A)).symm).trans ?_
    have hf : ((Finset.univ : Finset (Fin 16)).filter fun i => i.val = 0) = {(0 : Fin 16)} := by decide
    exact (congrArg (fun s : Finset (Fin 16) => bigSep s fun _ => A) hf).trans bigSep_singleton
  · simp only [hc, _root_.false_and, if_false]
    exact bigSep_emp_const _

variable [FloatOps F]

theorem vecSplit : (K (F := F)).VecSplit' (P m) 0 := by
  intro d c
  show (if c.val = 0 then handed m d else iprop(emp)) ⊢ |={Set.univ}=> iprop(
      (bigSep Finset.univ fun i : Fin ((K (F := F)).nSub 0) => if c.val = 0 ∧ i.val = 0 then handed m d else iprop(emp))
      ∗ ((bigSep Finset.univ fun i : Fin ((K (F := F)).nSub 0) => if c.val = 0 ∧ i.val = 0 then back m d else iprop(emp))
          -∗ (if c.val = 0 then back m d else iprop(emp))))
  rw [tasks_one, tasks_one]
  iintro H; imodintro
  isplitl [H]; · iexact H
  iintro H; iexact H

/-! ## The launch element -/

def u₀ : UU := (initOf (K (F := F)).hsCells (K (F := F)).hsToks,
  (initOf (Pipeline.cells (nD := nD) (τ := τ) cfgs cellOf_inj) (Pipeline.launchToks (nD := nD) (τ := τ) cfgs cellOf_inj), 1))

/-- What the launch deals the TensorCore of each device for the multiply kernel's region: its staging semaphores'
    ghost state and duty tokens. -/
abbrev G (d : Dev nD) : sProp 𝕄 :=
  iprop(Pipeline.cellsGhost (nD := nD) (τ := τ) cfgs EP 0 d ∗ Pipeline.toksInit (nD := nD) (τ := τ) cfgs EP 0 d)

omit [FloatOps F] in
theorem bigSep_emp' {I : Type} (s : Finset I) : (bigSep s fun _ => iprop(emp)) = (iprop(emp) : sProp 𝕄) := bigSep_emp_const s

omit [FloatOps F] in
theorem bigSep_fin1 (Φ : Fin 1 → sProp 𝕄) : bigSep Finset.univ Φ = Φ 0 := by
  rw [show (Finset.univ : Finset (Fin 1)) = {0} from rfl, bigSep_singleton]

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  have e1 : ∀ (X : Fin 1 → Dev nD → sProp 𝕄), (bigSep Finset.univ fun c : Dev nD => bigSep Finset.univ fun p : Fin 1 => X p c)
      = bigSep Finset.univ fun c : Dev nD => X 0 c := fun X => bigSep_congr fun d _ => bigSep_fin1 (F := F) _
  show _ ⊢ |={Set.univ}=> iprop(_ ∗ (bigSep Finset.univ fun d : Dev nD =>
      iprop(Pipeline.cellsGhost (nD := nD) (τ := τ) cfgs (EP (F := F)) 0 d ∗ Pipeline.toksInit (nD := nD) (τ := τ) cfgs (EP (F := F)) 0 d)) ∗ _)
  rw [bigSep_sep']
  iintro Hu
  ihave H := (ownU_pair _ _) $$ Hu
  icases H with ⟨HH, HR⟩
  ihave HR' := (own_pair_emb (embR : Emb (UP × Counters) 𝕄) _ _) $$ HR
  icases HR' with ⟨HP, -⟩
  have e : ∀ x : UP, (BI.own (((Emb.inl : Emb UP (UP × Counters)).trans (embR : Emb (UP × Counters) 𝕄)) x) : sProp 𝕄)
      = BI.own (EP (F := F) x) := fun _ => rfl
  ihave HP2 := (Entails.of_eq (e _)) $$ HP
  imod (Pipeline.fund_ghost (nD := nD) (τ := τ) cfgs (EP (F := F)) cellOf_inj) $$ HP2 with HG
  icases HG with ⟨Hc, Ht⟩
  ihave Hc' := (Entails.of_eq (e1 _)) $$ Hc
  ihave Ht' := (Entails.of_eq (e1 _)) $$ Ht
  imodintro
  isplitl [HH]; · iexact HH
  isplitl [Hc' Ht']
  · isplitl [Hc']
    · iexact Hc'
    · iexact Ht'
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev x' : DevRef τ sig := Proc.devRef .tc (main_arg0 : Ref sig .tc)
abbrev i' : DevRef τ sig := Proc.devRef .tc (main_arg1 : Ref sig .tc)
abbrev o' : DevRef τ sig := Proc.devRef .tc (main_v0 : Ref sig .tc)
abbrev r' : DevRef τ sig := Proc.devRef .tc (main_v1 : Ref sig .tc)
abbrev y' : DevRef τ sig := Proc.devRef .tc (main_v2 : Ref sig .tc)
abbrev opReshape : HloOp τ sig (Elt F) := StableHlo.reshape main_v0 main_v1 rfl shapeCasts_S2048_S1x2048

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1)
      ∗ (oLoc d ↦{fullShare} W main_v0) ∗ (rLoc d ↦{fullShare} W main_v1) ∗ (yLoc d ↦{fullShare} W main_v2)) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The two arrays the reshape touches. -/
abbrev S2 : Finset (DevRef τ sig) := {o', r'}

omit [FloatOps F] in
theorem held_S2 (d : Dev nD) (W : Valuation τ sig (Elt F)) :
    (held (T d) S2 W : sProp 𝕄) = iprop((oLoc d ↦{fullShare} W o') ∗ (rLoc d ↦{fullShare} W r')) := by
  unfold held S2
  rw [SparseCore.bigSep_insert' (by decide), bigSep_singleton]

/-- The mask row as the one row of a matrix. -/
def rowOf (d : Dev nD) (g : Buf (Elt F) (oLoc d)) : Buf (Elt F) (rLoc d) := shapeCast S1x2048 g shapeCasts_S2048_S1x2048

/-- The valuation the reshape runs at: the mask row at `g`, the one-row matrix at whatever `h` it holds. -/
def V1 (d : Dev nD) (g : Buf (Elt F) (oLoc d)) (h : Buf (Elt F) (rLoc d)) : Valuation τ sig (Elt F) :=
  Function.update (Function.update (fun b => m (d, b)) o' g) r' h

theorem V1_o (d : Dev nD) (g : Buf (Elt F) (oLoc d)) (h : Buf (Elt F) (rLoc d)) : V1 m d g h o' = g := by
  unfold V1; rw [Function.update_of_ne (show o' ≠ r' by decide), Function.update_self]
theorem V1_r (d : Dev nD) (g : Buf (Elt F) (oLoc d)) (h : Buf (Elt F) (rLoc d)) : V1 m d g h r' = h := Function.update_self _ _ _

theorem reshape_o (d : Dev nD) (g : Buf (Elt F) (oLoc d)) (h : Buf (Elt F) (rLoc d)) :
    (opReshape (F := F)).result (V1 m d g h) o' = g := by
  rw [(opReshape (F := F)).result_of_not_mem (V1 m d g h) (b := o') (show o' ∉ ({r'} : Finset (DevRef τ sig)) by decide), V1_o]
theorem reshape_r (d : Dev nD) (g : Buf (Elt F) (oLoc d)) (h : Buf (Elt F) (rLoc d)) :
    (opReshape (F := F)).result (V1 m d g h) r' = rowOf d g := by
  unfold opReshape
  rw [StableHlo.reshape_result]
  funext i
  show shapeCast S1x2048 (V1 m d g h o') shapeCasts_S2048_S1x2048 i = _
  rw [V1_o]; rfl

/-- The multiply kernel's region as the launch meets it: from the table, the one-row matrix `row` and the result's array
    whole, the TensorCore owing nothing, and the staging semaphores' ghost state, it runs to the result at `prodOf` of the
    table and the row, everything else as it was. -/
def RegionRule (prodOf : (d : Dev nD) → Buf (Elt F) (xLoc d) → Buf (Elt F) (rLoc d) → Buf (Elt F) (yLoc d)) : Prop :=
  ∀ (d : Dev nD) (row : Buf (Elt F) (rLoc d)) (W₀ : Waits sig (HIx 1)) {α : Type}
    (k : PUnit → Prog (TpuEff nD τ sig (Elt F) (ΛP (F := F)) .tc) α) (Φ : α → sProp 𝕄),
    iprop(levAts (K (F := F)).L (K (F := F)).lev ∗ boundary (SparseCore.T d) ∗ xPts m d ∗ rPts d row ∗ (∃ f, yPts d f) ∗ owes (SparseCore.T d) 0 W₀
        ∗ Pipeline.cellsGhost (nD := nD) (τ := τ) cfgs EP 0 d ∗ Pipeline.toksInit (nD := nD) (τ := τ) cfgs EP 0 d
        ∗ (iprop(boundary (SparseCore.T d) ∗ xPts m d ∗ rPts d row ∗ yPts d (prodOf d (m (xLoc d)) row)
              ∗ ∃ W', ⌜∀ p ∈ W', p ∈ W₀ ∨ p.2 = none⌝ ∗ owes (SparseCore.T d) 0 W')
             -∗ wp frame (wpE (D (F := F)) 𝒱 (SparseCore.T d) none) Set.univ (k ⟨⟩) Φ))
      ⊢ wp frame (wpE (D (F := F)) 𝒱 (SparseCore.T d) none) Set.univ (.op (.customCall (Pipeline.entry 0) ()) k) Φ

variable (prodOf : (d : Dev nD) → Buf (Elt F) (xLoc d) → Buf (Elt F) (rLoc d) → Buf (Elt F) (yLoc d))

/-- What @main leaves the claim: the table and the index list as launched, the result at the product of the table and
    the mask row of the index list. -/
abbrev FIN (d : Dev nD) : sProp 𝕄 :=
  iprop(xPts m d ∗ iPts m d ∗ yPts d (prodOf d (m (xLoc d)) (rowOf d (maskBuf m d))))

theorem st0_eq (d : Dev nD) : (bigSep Finset.univ fun c : Fin ((K (F := F)).nCore 0) => (P m).st 0 d c) = iprop(handed m d ∗ emp) := by
  show (bigSep (Finset.univ : Finset (Fin 2)) fun c => if c.val = 0 then handed m d else iprop(emp)) = _
  rw [show (Finset.univ : Finset (Fin 2)) = {0, 1} by decide, SparseCore.bigSep_insert' (by decide), bigSep_singleton]
  rfl
theorem dn0_eq (d : Dev nD) : (bigSep Finset.univ fun c : Fin ((K (F := F)).nCore 0) => (P m).dn 0 d c) = iprop(back m d ∗ emp) := by
  show (bigSep (Finset.univ : Finset (Fin 2)) fun c => if c.val = 0 then back m d else iprop(emp)) = _
  rw [show (Finset.univ : Finset (Fin 2)) = {0, 1} by decide, SparseCore.bigSep_insert' (by decide), bigSep_singleton]
  rfl

theorem Otc_one (d : Dev nD) : (K (F := F)).Otc d 1 = 0 := (K (F := F)).Otc_end d (le_refl _)

theorem held_after (d : Dev nD) :
    (held (T d) S2 ((opReshape (F := F)).result (V1 m d (maskBuf m d) (m (rLoc d)))) : sProp 𝕄)
      = iprop(oPts d (maskBuf m d) ∗ rPts d (rowOf d (maskBuf m d))) := by
  rw [held_S2, reshape_o, reshape_r]

/-- After the one call the TensorCore owes nothing: its state gives up its `owes` at no tallies, and takes one back. -/
theorem tcSt_open (d : Dev nD) : ((K (F := F)).tcSt EH d 1 : sProp 𝕄)
    ⊢ iprop((∃ W, ⌜(K (F := F)).WBelow (T d) W (8 * 1)⌝ ∗ owes (T d) 0 W)
        ∗ ((∃ W, ⌜(K (F := F)).WBelow (T d) W (8 * 1)⌝ ∗ owes (T d) 0 W) -∗ (K (F := F)).tcSt EH d 1)) := by
  unfold SparseCore.Cfg.tcSt
  rw [Otc_one]
  iintro ⟨HO, HR⟩
  isplitl [HO]; · iexact HO
  iintro HO
  isplitl [HO]; · iexact HO
  iexact HR

theorem hmain (hR : RegionRule m prodOf) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m prodOf d) := by
  unfold SparseCore.Cfg.tcRes
  rw [unscopedBufs_eq]
  simp only [main, wp_bind, wp_pure]
  iintro ⟨#Hctx, Hst, ⟨Hb, ⟨Hx, Hi, Ho, Hr, Hy⟩, -, -⟩, ⟨Hcg, Htk⟩⟩
  -- the call: the index list and the mask row's array to SparseCore 0 and back
  iapply ((K (F := F)).wp_run (D (F := F)) 𝒱 (EH := EH) (P := P m) κ d 0) $$ [Hst Hi Ho Hb Hx Hr Hy Hcg Htk]
  isplitr; · iexact Hctx
  isplitl [Hst]; · iexact Hst
  isplitl [Hi Ho]
  · rw [st0_eq]
    isplitl [Hi Ho]
    · isplitl [Hi]; · iexact Hi
      iexists _; iexact Ho
    · iempintro
  iintro ⟨Hst, Hdn⟩
  ihave Hdn' := (Entails.of_eq (dn0_eq m d)) $$ Hdn
  icases Hdn' with ⟨⟨Hi, Ho⟩, -⟩
  -- the reshape of the mask row into a one-row matrix
  iapply (wp_hlo_within 𝒱 (SparseCore.T d) none Set.univ (op := opReshape) (S := S2) (Finset.Subset.refl _)
    (V := V1 m d (maskBuf m d) (m (rLoc d)))) $$ [Hb Ho Hr]
  · isplitl [Hb]; · iexact Hb
    rw [held_S2, V1_o, V1_r]
    isplitl [Ho]; · iexact Ho
    iexact Hr
  iintro ⟨Hb, Hheld⟩
  ihave Hh := (Entails.of_eq (held_after (F := F) m d)) $$ Hheld
  icases Hh with ⟨Ho, Hr⟩
  rw [wp_ret]; imodintro
  -- the multiply kernel's region
  ihave Hst' := (show ((K (F := F)).tcSt EH d ((0 : Fin 1).val + 1) : sProp 𝕄) ⊢ _ from tcSt_open (F := F) d) $$ Hst
  icases Hst' with ⟨⟨%W, %hW, HO⟩, HR⟩
  ihave Hlev := ((K (F := F)).ctx_levAts κ) $$ Hctx
  have hprog : (Prog.lift (TpuEff.customCall (SparseCore.inner (Pipeline.entry 0)) ()) : Prog (TpuEff nD τ sig (Elt F) (SparseCore.Sig (ΛP (F := F)) 1) .tc) PUnit)
      = SparseCore.liftProg (.op (.customCall (Pipeline.entry 0) ()) fun _ => .ret ⟨⟩) := rfl
  rw [hprog]
  iapply ((K (F := F)).wp_liftProg (D (F := F)) 𝒱 (SparseCore.T d) Set.univ none _ _)
  have hreg := hR d (rowOf d (maskBuf m d)) W (α := PUnit) (fun _ => Prog.ret PUnit.unit)
    (fun _ => iprop(|={Set.univ}=> ((K (F := F)).tcSt EH d 1 ∗ FIN m prodOf d)))
  iapply hreg $$ [Hlev Hb Hx Hr Hy HO Hcg Htk Hi HR]
  isplitl [Hlev]; · iexact Hlev
  isplitl [Hb]; · iexact Hb
  isplitl [Hx]; · iexact Hx
  isplitl [Hr]; · iexact Hr
  isplitl [Hy]; · iexists _; iexact Hy
  isplitl [HO]; · iexact HO
  isplitl [Hcg]; · iexact Hcg
  isplitl [Htk]; · iexact Htk
  iintro ⟨Hb, Hx, Hr, Hy, %W', %hW', HO⟩
  rw [wp_ret]; imodintro; imodintro
  isplitl [HO HR]
  · iapply HR
    iexists W'; isplitr
    · ipureintro; intro p hp
      rcases hW' p hp with h | h
      · exact hW p h
      · show (K (F := F)).lev (T d, p.1) p.2 ≤ 8 * 1
        rw [h]; exact Nat.zero_le _
    · iexact HO
  isplitl [Hx]; · iexact Hx
  isplitl [Hi]; · iexact Hi
  iexact Hy

/-! ## Reading the claim off the final memory -/

def fq (d : Dev nD) (s' : Phys nD τ sig (Elt F)) : Prop :=
  s'.mem.mem (xLoc d) = m (xLoc d) ∧ s'.mem.mem (iLoc d) = m (iLoc d)
    ∧ s'.mem.mem (yLoc d) = prodOf d (m (xLoc d)) (rowOf d (maskBuf m d))

omit [FloatOps F] m in
/-- An array held whole beside the state interpretation is the state's array. -/
theorem agree_whole (ℓ : Loc nD τ sig) (f : Buf (Elt F) ℓ) (s' : Phys nD τ sig (Elt F)) (A : sProp 𝕄) :
    iprop((ℓ ↦{fullShare} f) ∗ A ∗ SI s') ⊢ (⌜s'.mem.mem ℓ = f⌝ : sProp 𝕄) := by
  iintro ⟨Hx, -, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m prodOf d ∗ SI s') ⊢ (⌜fq m prodOf d s'⌝ : sProp 𝕄) := by
  refine Laws.pure_elim (s'.mem.mem (xLoc d) = m (xLoc d)) ?_ fun hx => ?_
  · iintro ⟨⟨Hx, Hi, Hy⟩, HSI⟩
    iapply (agree_whole (xLoc d) (m (xLoc d)) s' iprop(iPts m d ∗ yPts d (prodOf d (m (xLoc d)) (rowOf d (maskBuf m d)))))
    isplitl [Hx]; · iexact Hx
    isplitl [Hi Hy]
    · isplitl [Hi]; · iexact Hi
      iexact Hy
    iexact HSI
  refine Laws.pure_elim (s'.mem.mem (iLoc d) = m (iLoc d)) ?_ fun hi => ?_
  · iintro ⟨⟨Hx, Hi, Hy⟩, HSI⟩
    iapply (agree_whole (iLoc d) (m (iLoc d)) s' iprop(xPts m d ∗ yPts d (prodOf d (m (xLoc d)) (rowOf d (maskBuf m d)))))
    isplitl [Hi]; · iexact Hi
    isplitl [Hx Hy]
    · isplitl [Hx]; · iexact Hx
      iexact Hy
    iexact HSI
  refine Entails.trans ?_ (Laws.pure_mono fun hy => (⟨hx, hi, hy⟩ : fq m prodOf d s'))
  iintro ⟨⟨Hx, Hi, Hy⟩, HSI⟩
  iapply (agree_whole (yLoc d) (prodOf d (m (xLoc d)) (rowOf d (maskBuf m d))) s' iprop(xPts m d ∗ iPts m d))
  isplitl [Hy]; · iexact Hy
  isplitl [Hx Hi]
  · isplitl [Hx]; · iexact Hx
    iexact Hi
  iexact HSI

/-! ## The program's run -/

/-- Every final memory has the table and the index list as launched and the result at the table times the mask row. -/
def QC : PUnit × MemSt nD τ sig (Elt F) → Prop := fun r => ∀ c : Dev nD,
  r.2.mem (yLoc c) = prodOf c (m (xLoc c)) (rowOf c (maskBuf m c)) ∧ r.2.mem (xLoc c) = m (xLoc c) ∧ r.2.mem (iLoc c) = m (iLoc c)

theorem run_of [∀ e, Nonempty (Elt F e)] (hT : (K (F := F)).TileObl (D (F := F)) 𝒱 (P m) v₀ 0) (hR : RegionRule m prodOf) :
    θ_run (Cert.KernelIdeal.defs (F := F)) (Cert.KernelIdeal.threads (F := F)) ⟨m, fun _ => 0, ρ⟩ (QC m prodOf) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (G (F := F)) (FIN m prodOf) (u₀ (F := F)) (sep_elim_left.trans (hu₀ m)) (hmain m ρ prodOf hR) (fq m prodOf) (hfin m prodOf) (QC m prodOf)
    (fun _ h c => ⟨(h c).2.2, (h c).1, (h c).2.1⟩)

end Cert.Proof.KernelIdealRun

end
-- ==== Proof.KernelIdeal.Region.lean ====
/-
  The multiply kernel's region: the pipelined call whose body multiplies a block of the table by the one-row matrix,
  broadcast down the block's rows. Its proof data (what each staging buffer holds after the body at each point), the
  body's triple, the body obligation, and the region's step: from the table, the row and the result's array held
  whole, the call runs to the same with the result at the product.
-/
import proofs.«207358_g28870770164171_cont_9to1_1763_19_alg».proof.Proof.KernelIdeal.Common
import Idealize.ShloMosaic.Lib.Pipeline.FrameBody
import Idealize.ShloMosaic.Lib.Pipeline.Value
import Idealize.ShloMosaic.Lib.Tactic

set_option maxRecDepth 16384

noncomputable section

namespace Cert.Proof.KernelIdealRun

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig (HIx 1) (Elt F) ℕ UU ℕ

variable (m : (ℓ : Loc nD τ sig) → Buf (Elt F) ℓ)

/-! ## The proof data -/

/-- The one admissible (empty) contents of the prefetched tables: the call has none. -/
abbrev adm : (p : Fin 1) → (pcfgs (F := F) p).Adm := fun p => (cfgs p).toPCfg_adm

/-- The three windows' arrays as the region finds them: the table as launched, the one-row matrix at `row`, the
    result's array at `f`. -/
def entryA (rows : (c : Dev nD) → Buf (Elt F) (rLoc c)) (fs : (c : Dev nD) → Buf (Elt F) (yLoc c)) (c : Dev nD) :
    (w : Fin cfg1.W) → Buf (Elt F) ((cfg1.win w).arr.view.loc (c.tc : Thread nD τ))
  | ⟨0, _⟩ => m (xLoc c)
  | ⟨1, _⟩ => rows c
  | ⟨2, _⟩ => fs c

variable (rows : (c : Dev nD) → Buf (Elt F) (rLoc c)) (fs : (c : Dev nD) → Buf (Elt F) (yLoc c)) (Ws : Dev nD → Waits sig (HIx 1))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (entryA m rows fs c w)

/-- The whole of a block-sized buffer. -/
abbrev rAll : Rect S1024x2048 := Rect.unit (s := S1024x2048) ![0, 0] S1024x2048.size inb_S1024x2048_S1024x2048_0_0

/-- The whole of a buffer of one row. -/
abbrev rRow : Rect S1x2048 := Rect.unit (s := S1x2048) ![0, 0] S1x2048.size inb_S1x2048_S1x2048_0_0

/-- The result's staging buffer after the body: its one store, the product of the two blocks as loaded. -/
def outBlk (x0 : Vec F S1024x2048 .f32) (x1 : Vec F S1x2048 .f32) : Vec F S1024x2048 .f32 :=
  View.canon [⟨rAll, k1_pay1 (View.ld x0 rAll) (View.ld x1 rRow)⟩]

/-- The store covers the buffer. -/
theorem cover_out (p0 : Vec F S1024x2048 .f32) (y : S1024x2048.Idx) :
    ∃ pc ∈ ([⟨rAll, p0⟩] : List (View.Piece (Elt F) S1024x2048 .f32)), y ∈ pc.1.set :=
  View.cover_of_tiled [⟨rAll, p0⟩] S1024x2048.size (by rfl) y

/-- The proof data: the arrays as the region finds them; after the body at point `t` each input's buffer at its block
    and the result's at the product of the two; no invariant; nothing owed, the recorded pairs those the core came with; full shares. -/
def dat1 (c : Dev nD) : Dat τ (Elt F) (HIx 1) ℕ UU ℕ cfg1 c where
  A w := entryA m rows fs c w
  after w t := match w with
    | ⟨0, _⟩ => iblk m rows fs c 0 t
    | ⟨1, _⟩ => iblk m rows fs c 1 t
    | ⟨2, _⟩ => outBlk (iblk m rows fs c 0 t) (iblk m rows fs c 1 t)
  Φ _ := iprop(emp)
  q _ := fullShare
  owed _ := 0
  recorded _ := (↑(Ws c) : Set (SemLoc sig × HIx 1))

def pdats : (p : Fin 1) → (c : Dev nD) → Dat τ (Elt F) (HIx 1) ℕ UU ℕ (Pipeline.pin (pcfgs (F := F)) adm p) c
  | 0 => dat1 m rows fs Ws

theorem after1_0 (c : Dev nD) (t : Fin cfg1.N) : (dat1 m rows fs Ws c).after 0 t = iblk m rows fs c 0 t := by dsimp only [dat1]
theorem after1_1 (c : Dev nD) (t : Fin cfg1.N) : (dat1 m rows fs Ws c).after 1 t = iblk m rows fs c 1 t := by dsimp only [dat1]
theorem after1_2 (c : Dev nD) (t : Fin cfg1.N) :
    (dat1 m rows fs Ws c).after 2 t = outBlk (iblk m rows fs c 0 t) (iblk m rows fs c 1 t) := by dsimp only [dat1]

/-- Each input's current staging buffer holds its block at every point, fetched there or not. -/
theorem before1_0 (c : Dev nD) (t : Fin cfg1.N) (d) : (dat1 m rows fs Ws c).before 0 t d = iblk m rows fs c 0 t :=
  ((dat1 m rows fs Ws c).before_in_eq_fetched 0 rfl (fun _ => rfl) (fun _ _ _ => rfl)
    (fun t => by rw [after1_0]; unfold Dat.blockOf iblk; rfl) t d).trans (by unfold Dat.fetched Dat.blockOf iblk; rfl)
theorem before1_1 (c : Dev nD) (t : Fin cfg1.N) (d) : (dat1 m rows fs Ws c).before 1 t d = iblk m rows fs c 1 t :=
  ((dat1 m rows fs Ws c).before_in_eq_fetched 1 rfl (fun _ => rfl) (fun _ _ _ => rfl)
    (fun t => by rw [after1_1]; unfold Dat.blockOf iblk; rfl) t d).trans (by unfold Dat.fetched Dat.blockOf iblk; rfl)

/-! ## The body's triple -/

set_option maxHeartbeats 1000000 in
/-- The body on whole staging memrefs, the inputs' at read contents and the result's at anything, runs to the
    continuation holding the inputs' as they were and the result's at the product. -/
theorem sound_body1 (c : Dev nD) (E : Set ℕ) (i : grid1.Coords) (arg1 : Memref sig .tc .vmem S1024x2048 .f32) (harg1 : arg1.IsWhole)
    (arg2 : Memref sig .tc .vmem S1x2048 .f32) (harg2 : arg2.IsWhole) (arg3 : Memref sig .tc .vmem S1024x2048 .f32) (harg3 : arg3.IsWhole)
    (x0 : Vec F S1024x2048 .f32) (x1 : Vec F S1x2048 .f32) (Q : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (outBlk x0 x1)) -∗ Q ⟨⟩))
      ⊢ wp frame (wpE (defs₀ (F := F)) Variants.none c none) E (cc1__tc_body i arg1 harg1 arg2 harg2 arg3 harg3) Q := by
  simp only [cc1__tc_body_eq_skeleton]; unfold cc1__tc_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_out _)

/-! ## The body obligation -/

/-- The body at any point: the inputs' buffers hold their blocks, so the triple applies; the invariant and the core's
    `owes` pass through unread. -/
theorem sound_pt (c : Dev nD) (t : Fin cfg1.N) :
    iprop((dat1 m rows fs Ws c).Φ t.castSucc ∗ (dat1 m rows fs Ws c).owesAt none t.castSucc
        ∗ (∃ d, owns (c : Thread nD τ) (st1_0 t) fullShare ((dat1 m rows fs Ws c).before 0 t d))
        ∗ (∃ d, owns (c : Thread nD τ) (st1_1 t) fullShare ((dat1 m rows fs Ws c).before 1 t d))
        ∗ (∃ d, owns (c : Thread nD τ) (st1_2 t) fullShare ((dat1 m rows fs Ws c).before 2 t d)))
      ⊢ wp frame (wpE (defs₀ (F := F)) Variants.none c none) Set.univ (bodyAt1 t) (fun _ =>
          iprop((dat1 m rows fs Ws c).Φ t.succ ∗ (dat1 m rows fs Ws c).owesAt none t.succ
            ∗ owns (c : Thread nD τ) (st1_0 t) fullShare ((dat1 m rows fs Ws c).after 0 t)
            ∗ owns (c : Thread nD τ) (st1_1 t) fullShare ((dat1 m rows fs Ws c).after 1 t)
            ∗ owns (c : Thread nD τ) (st1_2 t) fullShare ((dat1 m rows fs Ws c).after 2 t))) := by
  unfold bodyAt1
  simp only [before1_0, before1_1]
  rw [show (dat1 m rows fs Ws c).Φ t.succ = (dat1 m rows fs Ws c).Φ t.castSucc from rfl,
    show (dat1 m rows fs Ws c).owesAt none t.succ = (dat1 m rows fs Ws c).owesAt none t.castSucc from rfl,
    after1_0, after1_1, after1_2]
  iintro ⟨HΦ, Ho, ⟨%d0, H0⟩, ⟨%d1, H1⟩, ⟨%d2, H2⟩⟩
  iapply (sound_body1 c Set.univ (grid1.coords t) _ _ _ _ _ _ (iblk m rows fs c 0 t) (iblk m rows fs c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) :
    BodyObligation (dat1 (F := F) m rows fs Ws c) (defs₀ (F := F)) Variants.none (none : HIx 1) Set.univ := fun t => by
  rw [bigSep_W1, bigSep_W1]
  exact sound_pt m rows fs Ws c t

/-! ## The region -/

/-- The region's arrays at contents `Fa` are the table, the one-row matrix and the result's array held. -/
theorem arrays1_eq (c : Dev nD) (Fa) : ((pdats m rows fs Ws 0 c).arrays Fa : sProp 𝕄)
    = iprop((xLoc c ↦{fullShare} Fa 0) ∗ (rLoc c ↦{fullShare} Fa 1) ∗ (yLoc c ↦{fullShare} Fa 2)) := by
  rw [Pipeline.arrays_eq (Pipeline.pin (pcfgs (F := F)) adm) (pdats m rows fs Ws) 0 c launch1.arr_whole
    ((pdats m rows fs Ws 0 c).share_full fun _ => rfl) Fa, bigSep_W1]

/-- The input arrays reach the region's exit as it found them. -/
theorem arrAt1_x (c : Dev nD) (n : ℕ) : (pdats (F := F) m rows fs Ws 0 c).arrAt 0 n = m (xLoc c) :=
  (dat1 (F := F) m rows fs Ws c).arrAt_in 0 rfl n
theorem arrAt1_r (c : Dev nD) (n : ℕ) : (pdats (F := F) m rows fs Ws 0 c).arrAt 1 n = rows c :=
  (dat1 (F := F) m rows fs Ws c).arrAt_in 1 rfl n

/-- What the result's array holds after the region, as the pipeline library computes it from the proof data. -/
def finalY (c : Dev nD) : Buf (Elt F) (yLoc c) := (dat1 (F := F) m rows fs Ws c).arrAt 2 cfg1.N

/-- THE REGION: the three arrays into the pipeline, nothing beside them; the core owing nothing throughout, its
    recorded pairs those it came with and the pipeline's own waits'. -/
def reg1 : Pipeline.RegionSeg (pcfgs (F := F)) adm (pdats m rows fs Ws) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation m rows fs Ws c).loose
  hwaits c := Pipeline.hwaits_of_owed_zero (pcfgs (F := F)) adm (pdats m rows fs Ws) (none : HIx 1) _ _ 0 (fun _ _ => rfl) c
  pre c := iprop(xPts m c ∗ rPts c (rows c) ∗ yPts c (fs c) ∗ owes (T c) 0 (Ws c))
  post c := iprop(xPts m c ∗ rPts c (rows c) ∗ yPts c (finalY m rows fs Ws c)
    ∗ ∃ W', ⌜∀ p ∈ W', p ∈ Ws c ∨ p.2 = none⌝ ∗ owes (T c) 0 W')
  X _ := iprop(emp)
  Y _ := iprop(emp)
  Z _ := iprop(emp)
  hentry c := by
    rw [Pipeline.ownSems0_none, arrays1_eq]
    iintro ⟨⟨Hx, Hr, Hy, HO⟩, -, -⟩
    imodintro
    isplitl [Hx Hr Hy]
    · isplitl [Hx]; · iexact Hx
      isplitl [Hr]; · iexact Hr
      iexact Hy
    isplitr; · unfold Pipeline.prefHeld; rw [show (Finset.univ : Finset (Fin 0)) = ∅ from rfl, BI.bigSep_empty]; iempintro
    isplitl [HO]
    · unfold Pipeline.Dat.owesAt Pipeline.owesWithin
      iexists (Ws c); isplitr; · ipureintro; exact fun _ h => Or.inl h
      iexact HO
    isplitr <;> iempintro
  hin c := by iintro -; iempintro
  hout c := by
    rw [Pipeline.ownSems0_none, scopedRest1_eq]
    iintro -; isplitr; · iempintro
    isplitr <;> iempintro
  hexit c := by
    rw [arrays1_eq, arrAt1_x, arrAt1_r]
    iintro ⟨⟨Hx, Hr, Hy⟩, HO, -, -⟩
    imodintro
    isplitl [Hx]; · iexact Hx
    isplitl [Hr]; · iexact Hr
    isplitl [Hy]; · iexact Hy
    unfold Pipeline.Dat.owesAt Pipeline.owesWithin
    icases HO with ⟨%W, %hW, HO⟩
    iexists W; isplitr
    · ipureintro
      intro p hp
      rcases hW hp with h | ⟨w, s, rfl⟩
      · exact Or.inl h
      · exact Or.inr rfl
    iexact HO

set_option backward.isDefEq.respectTransparency.types false in
/-- The region's step, over families of contents: from the boundary, the three arrays held whole, the core owing
    nothing, and the pipeline's ghost state, the call runs to the boundary and the arrays again, the result's at what
    the pipeline library computes. -/
theorem region_wp_fam (d : Dev nD) {α : Type} (k : PUnit → Prog (TpuEff nD τ sig (Elt F) (ΛP (F := F)) .tc) α) (Φ : α → sProp 𝕄) :
    iprop(levAts (K (F := F)).L (K (F := F)).lev ∗ boundary (T d) ∗ xPts m d ∗ rPts d (rows d) ∗ yPts d (fs d) ∗ owes (T d) 0 (Ws d)
        ∗ Pipeline.cellsGhost (nD := nD) (τ := τ) cfgs EP 0 d ∗ Pipeline.toksInit (nD := nD) (τ := τ) cfgs EP 0 d
        ∗ (iprop(boundary (T d) ∗ xPts m d ∗ rPts d (rows d) ∗ yPts d (finalY m rows fs Ws d)
              ∗ ∃ W', ⌜∀ p ∈ W', p ∈ Ws d ∨ p.2 = none⌝ ∗ owes (T d) 0 W')
            -∗ wp frame (wpE (D (F := F)) 𝒱 (T d) none) Set.univ (k ⟨⟩) Φ))
      ⊢ wp frame (wpE (D (F := F)) 𝒱 (T d) none) Set.univ (.op (.customCall (Pipeline.entry 0) ()) k) Φ := by
  have hreg := Pipeline.RegionSeg.wp (pcfgs (F := F)) adm (pdats m rows fs Ws) (none : HIx 1) cellOf_inj EP defs₀ 𝒱₀
    (K (F := F)).L (K (F := F)).lev (reg1 m rows fs Ws) d none (fun _ h => by cases h) k Φ
  rw [show (reg1 m rows fs Ws).pre d = iprop(xPts m d ∗ rPts d (rows d) ∗ yPts d (fs d) ∗ owes (T d) 0 (Ws d)) from rfl,
    show (reg1 m rows fs Ws).post d = iprop(xPts m d ∗ rPts d (rows d) ∗ yPts d (finalY m rows fs Ws d)
      ∗ ∃ W', ⌜∀ p ∈ W', p ∈ Ws d ∨ p.2 = none⌝ ∗ owes (T d) 0 W') from rfl] at hreg
  iintro ⟨HL, Hb, Hx, Hr, Hy, HO, Hg, Ht, Hk⟩
  iapply hreg
  isplitl [Hk]
  · iintro ⟨Hb, Hx, Hr, Hy, HO⟩
    iapply Hk
    isplitl [Hb]; · iexact Hb
    isplitl [Hx]; · iexact Hx
    isplitl [Hr]; · iexact Hr
    isplitl [Hy]; · iexact Hy
    iexact HO
  isplitl [Hb]; · iexact Hb
  isplitl [Hx Hr Hy HO]
  · isplitl [Hx]; · iexact Hx
    isplitl [Hr]; · iexact Hr
    isplitl [Hy]; · iexact Hy
    iexact HO
  isplitl [HL]; · iexact HL
  isplitl [Hg]; · iexact Hg
  iexact Ht

/-! ## The value -/

theorem hz2 : (![0, 0] : Fin 2 → Nat) = fun _ => 0 := funext fun a => by fin_cases a <;> rfl

/-- The product the multiply kernel leaves in the result: entry (r, c) of the table times entry (0, c) of the one-row matrix. -/
def prodOf (d : Dev nD) (x : Buf (Elt F) (xLoc d)) (row : Buf (Elt F) (rLoc d)) : Buf (Elt F) (yLoc d) :=
  fun i => FloatOps.mulf (x i) (row (ValueIdx.ix2 0 (i 1)))

/-- The body's payload is the product of the table's block and the row broadcast down the block. -/
theorem pay1_eq (x0 : Vec F S1024x2048 .f32) (x1 : Vec F S1x2048 .f32) :
    k1_pay1 x0 x1 = mulf x0 (broadcastTo S1024x2048 (shapeCast S1x2048 x1 shapeCasts_S1x2048_S1x2048) broadcasts_S1x2048_S1024x2048) := rfl

/-- The printed index maps, decided over the grid: the table's and the result's blocks move together, down the rows;
    the one-row matrix's block stays. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the product of the table and the one-row matrix as the region finds them. -/
theorem flushed1_eq (c : Dev nD) (t : Fin cfg1.N) :
    (dat1 m rows fs Ws c).flushed 2 t = ((cfg1.win 2).blk t).view.read (Elt F) (prodOf c (m (xLoc c)) (rows c)) := by
  show (cfg1.win 2).cut (grid1.coords t) ((dat1 m rows fs Ws c).after 2 t) = _
  rw [after1_2]
  unfold outBlk
  rw [View.canon_unit_zero hz2]
  simp only [View.ld_unit_zero (S := S1024x2048) hz2, View.ld_unit_zero (S := S1x2048) hz2]
  rw [pay1_eq]
  obtain ⟨e0, e1, e2, e3, e4, e5⟩ := idx_facts1 t
  funext j
  show FloatOps.mulf (m (xLoc c) (((cfg1.win 0).blk t).view.emb j))
        (broadcastTo S1024x2048 (shapeCast S1x2048 (iblk m rows fs c 1 t) shapeCasts_S1x2048_S1x2048) broadcasts_S1x2048_S1024x2048 j)
     = FloatOps.mulf (m (xLoc c) (((cfg1.win 2).blk t).view.emb j)) (rows c (ValueIdx.ix2 0 ((((cfg1.win 2).blk t).view.emb j) 1)))
  have h0 : ((cfg1.win 0).blk t).view.emb j = ((cfg1.win 2).blk t).view.emb j := by
    funext a; apply Fin.ext
    match a with
    | ⟨0, _⟩ => show win1_0.index t (0 : Fin 2) * 1024 + 1 * (j 0).val = win1_2.index t (0 : Fin 2) * 1024 + 1 * (j 0).val; omega
    | ⟨1, _⟩ => show win1_0.index t (1 : Fin 2) * 2048 + 1 * (j 1).val = win1_2.index t (1 : Fin 2) * 2048 + 1 * (j 1).val; omega
  rw [h0]
  refine congrArg (FloatOps.mulf _) ?_
  let kk : S1x2048.Idx := ValueIdx.ix2 (0 : Fin 1) (j 1 : Fin 2048)
  refine (broadcastTo_apply _ broadcasts_S1x2048_S1024x2048 j kk (fun a => by match a with | ⟨0, _⟩ => rfl | ⟨1, _⟩ => rfl)).trans ?_
  refine (congrFun (shapeCast_self (s := S1x2048) (iblk m rows fs c 1 t) shapeCasts_S1x2048_S1x2048) kk).trans ?_
  show rows c (((cfg1.win 1).blk t).view.emb kk) = rows c (ValueIdx.ix2 0 ((((cfg1.win 2).blk t).view.emb j) 1))
  refine congrArg (rows c) ?_
  funext a; apply Fin.ext
  match a with
  | ⟨0, _⟩ => show win1_1.index t (0 : Fin 2) * 1 + 1 * 0 = 0; omega
  | ⟨1, _⟩ => show win1_1.index t (1 : Fin 2) * 2048 + 1 * (j 1).val = win1_2.index t (1 : Fin 2) * 2048 + 1 * (j 1).val; omega

/-- An index of the array is in point `t`'s block iff each coordinate is in the block's range on its axis. -/
theorem mem_blk1 (t : Fin cfg1.N) (i : S16384x2048.Idx) :
    i ∈ ((cfg1.win 2).blk t).view.set ↔ ∀ a : Fin 2, win1_2.index t a * S1024x2048.size a ≤ (i a).val ∧ (i a).val < win1_2.index t a * S1024x2048.size a + S1024x2048.size a := by
  show i ∈ ((View.whole main_v2).slice (win1_2.rect t)).set ↔ _
  rw [View.set_slice_whole, Rect.mem_set_unit]
  exact Iff.rfl

/-- Every band of 1024 rows is some point's block. -/
theorem idx_onto1 : ∀ q0 : Fin 16, ∃ t : Fin cfg1.N, win1_2.index t = ![q0.val, 0] :=
  (by decide +kernel : ∀ q0 : Fin 16, ∃ t : Fin grid1.N, win1_2.index t = ![q0.val, 0])

/-- The blocks cover the array: row r lies in the block of point r / 1024. -/
theorem cover1 (i : S16384x2048.Idx) : ∃ t : Fin cfg1.N, (cfg1.win 2).flush t = true ∧ i ∈ ((cfg1.win 2).blk t).view.set := by
  have hi0 : (i 0).val < 16384 := (i 0).isLt
  have hi1 : (i 1).val < 2048 := (i 1).isLt
  obtain ⟨t, ht⟩ := idx_onto1 ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 2048 ≤ (i 1).val ∧ (i 1).val < win1_2.index t (1 : Fin 2) * 2048 + 2048; omega

/-- THE ARRAY after the region: the product, everywhere. -/
theorem arrAt1_y (c : Dev nD) : (dat1 m rows fs Ws c).arrAt 2 cfg1.N = prodOf c (m (xLoc c)) (rows c) :=
  (dat1 m rows fs Ws c).arrAt_eq_of_cover 2 _ (fun t _ => flushed1_eq m rows fs Ws c t) cover1

/-! ## The step at one device's contents -/

/-- A datum at device `d` as a family over the devices: there is one device. -/
def famOf {β : Dev nD → Type} (d : Dev nD) (x : β d) (c : Dev nD) : β c :=
  (Subsingleton.elim d c : d = c) ▸ x

theorem famOf_self {β : Dev nD → Type} (d : Dev nD) (x : β d) : famOf d x d = x := rfl

/-- What the result's array holds after the region entered with the one-row matrix at `row` and the result's array at
    `f`, as the pipeline library computes it. -/
def outOf (d : Dev nD) (row : Buf (Elt F) (rLoc d)) (f : Buf (Elt F) (yLoc d)) (W₀ : Waits sig (HIx 1)) : Buf (Elt F) (yLoc d) :=
  finalY m (famOf (β := fun c => Buf (Elt F) (rLoc c)) d row) (famOf (β := fun c => Buf (Elt F) (yLoc c)) d f) (fun _ => W₀) d

/-- The region's step with the result's contents as the library computes them. -/
theorem region_wp_abs (d : Dev nD) (row : Buf (Elt F) (rLoc d)) (f : Buf (Elt F) (yLoc d)) (W₀ : Waits sig (HIx 1)) {α : Type}
    (k : PUnit → Prog (TpuEff nD τ sig (Elt F) (ΛP (F := F)) .tc) α) (Φ : α → sProp 𝕄) :
    iprop(levAts (K (F := F)).L (K (F := F)).lev ∗ boundary (T d) ∗ xPts m d ∗ rPts d row ∗ yPts d f ∗ owes (T d) 0 W₀
        ∗ Pipeline.cellsGhost (nD := nD) (τ := τ) cfgs EP 0 d ∗ Pipeline.toksInit (nD := nD) (τ := τ) cfgs EP 0 d
        ∗ (iprop(boundary (T d) ∗ xPts m d ∗ rPts d row ∗ yPts d (outOf m d row f W₀)
              ∗ ∃ W', ⌜∀ p ∈ W', p ∈ W₀ ∨ p.2 = none⌝ ∗ owes (T d) 0 W')
            -∗ wp frame (wpE (D (F := F)) 𝒱 (T d) none) Set.univ (k ⟨⟩) Φ))
      ⊢ wp frame (wpE (D (F := F)) 𝒱 (T d) none) Set.univ (.op (.customCall (Pipeline.entry 0) ()) k) Φ :=
  region_wp_fam m (famOf (β := fun c => Buf (Elt F) (rLoc c)) d row) (famOf (β := fun c => Buf (Elt F) (yLoc c)) d f) (fun _ => W₀) d k Φ

/-- What the library computes is the product. -/
theorem outOf_eq (d : Dev nD) (row : Buf (Elt F) (rLoc d)) (f : Buf (Elt F) (yLoc d)) (W₀ : Waits sig (HIx 1)) :
    outOf m d row f W₀ = prodOf d (m (xLoc d)) row := by
  unfold outOf finalY
  exact arrAt1_y m (famOf (β := fun c => Buf (Elt F) (rLoc c)) d row) (famOf (β := fun c => Buf (Elt F) (yLoc c)) d f) (fun _ => W₀) d

/-- THE REGION'S STEP: from the boundary, the table as launched, the one-row matrix at `row`, the result's array at
    anything, the core owing nothing with recorded pairs `W₀`, and the pipeline's ghost state, the call runs to the
    boundary with the table and the row as they were, the result at the product, and the core owing nothing, every
    pair recorded since being the pipeline's own. -/
theorem region_wp (d : Dev nD) (row : Buf (Elt F) (rLoc d)) (W₀ : Waits sig (HIx 1)) {α : Type}
    (k : PUnit → Prog (TpuEff nD τ sig (Elt F) (ΛP (F := F)) .tc) α) (Φ : α → sProp 𝕄) :
    iprop(levAts (K (F := F)).L (K (F := F)).lev ∗ boundary (T d) ∗ xPts m d ∗ rPts d row ∗ (∃ f, yPts d f) ∗ owes (T d) 0 W₀
        ∗ Pipeline.cellsGhost (nD := nD) (τ := τ) cfgs EP 0 d ∗ Pipeline.toksInit (nD := nD) (τ := τ) cfgs EP 0 d
        ∗ (iprop(boundary (T d) ∗ xPts m d ∗ rPts d row ∗ yPts d (prodOf d (m (xLoc d)) row)
              ∗ ∃ W', ⌜∀ p ∈ W', p ∈ W₀ ∨ p.2 = none⌝ ∗ owes (T d) 0 W')
            -∗ wp frame (wpE (D (F := F)) 𝒱 (T d) none) Set.univ (k ⟨⟩) Φ))
      ⊢ wp frame (wpE (D (F := F)) 𝒱 (T d) none) Set.univ (.op (.customCall (Pipeline.entry 0) ()) k) Φ := by
  iintro ⟨HL, Hb, Hx, Hr, ⟨%f, Hy⟩, HO, Hg, Ht, Hk⟩
  have h := region_wp_abs m d row f W₀ k Φ
  rw [outOf_eq] at h
  iapply h
  isplitl [HL]; · iexact HL
  isplitl [Hb]; · iexact Hb
  isplitl [Hx]; · iexact Hx
  isplitl [Hr]; · iexact Hr
  isplitl [Hy]; · iexact Hy
  isplitl [HO]; · iexact HO
  isplitl [Hg]; · iexact Hg
  isplitl [Ht]; · iexact Ht
  iexact Hk

/-- The product with a row of 2048 entries laid out as one row of a matrix reads the row at the entry's column. -/
theorem prodOf_reshape (d : Dev nD) (x : Buf (Elt F) (xLoc d)) (g : Buf (Elt F) (oLoc d)) :
    prodOf d x (shapeCast S1x2048 g shapeCasts_S2048_S1x2048)
      = fun i => FloatOps.mulf (x i) (g (ValueIdx.ix1 (i 1 : Fin 2048))) := by
  have key : ∀ j : Fin 2048, shapeCast S1x2048 (g : S2048.Idx → Elt F .f32) shapeCasts_S2048_S1x2048 (ValueIdx.ix2 (0 : Fin 1) j)
      = (g : S2048.Idx → Elt F .f32) (ValueIdx.ix1 j) := fun j =>
    shapeCast_apply (s := S2048) (t := S1x2048) g shapeCasts_S2048_S1x2048 (ValueIdx.ix2 (0 : Fin 1) j) (ValueIdx.ix1 j) (by
      rw [Shape.rowMajor_val_two, Shape.rowMajor_val_one]; show j.val = 0 * 2048 + j.val; omega)
  funext i
  unfold prodOf
  exact congrArg (FloatOps.mulf _) (key (i 1))

end Cert.Proof.KernelIdealRun

end
-- ==== Proof.KernelIdeal.TileValue.lean ====
/-
  The mask row as the working subcore builds it. The row starts at the word of 1.0 everywhere; the index list is then
  taken sixteen entries at a time, and an indexed store puts the word of 0.0 at every column one of those sixteen
  entries names. An indexed store of ONE value is a fold over its lanes that overwrites single entries with that value,
  so what it leaves does not depend on the order of the lanes or on repeated indices: the value wherever some lane
  names the entry, the old contents elsewhere (`storeIdx_fill`). After the first `n` groups of sixteen the row is
  0.0 at every column named by one of the first `16 n` entries and 1.0 elsewhere (`scat`); one more group moves
  `n` to `n + 1` (`scat_step`), and after all sixteen groups the row is the mask of the whole list (`scat_full`).
-/
import proofs.«207358_g28870770164171_cont_9to1_1763_19_alg».proof.Proof.Spec
import Idealize.ShloMosaic.PureOps.ShapeOps

noncomputable section

namespace Cert.Proof.KernelIdealRun

open Idealize.ShloMosaic Cert.MaskSpec

variable {F : FTy → Type} [FloatOps F]

/-- The sixteen lanes of one vector. -/
abbrev SL : Shape := ⟨1, ![16]⟩

/-- The words of 0.0 and of 1.0. -/
abbrev zeroW : F .f32 := Scalar.ofBits .f32 0x00000000#32
abbrev oneW : F .f32 := Scalar.ofBits .f32 0x3F800000#32

open Classical in
/-- A left fold whose every step overwrites with one value `z` the entries its element targets: the result is `z`
    wherever some element of the list targets the entry, and the start function elsewhere. -/
theorem foldl_fill {ι β α : Type} (tgt : ι → β → Prop) [∀ n j, Decidable (tgt n j)] (z : α) :
    ∀ (l : List ι) (g : β → α),
      l.foldl (fun g n => fun j => if tgt n j then z else g j) g = fun j => if ∃ n ∈ l, tgt n j then z else g j
  | [], g => by funext j; simp
  | a :: l, g => by
    rw [List.foldl_cons, foldl_fill tgt z l]
    funext j
    by_cases ha : tgt a j
    · simp [ha]
    · simp [ha]

open Classical in
/-- An unmasked indexed store of one value `z` in every lane: `z` wherever some lane's index names the entry, the old
    contents elsewhere. -/
theorem storeIdx_fill {s : Shape} {e : EltTy} {d : Fin 1 → Nat} (g : Vec F s e) (idxs : Fin s.rank → IVec ⟨1, d⟩ 32) (z : Elt F e)
    (h : ∀ a x, (idxs a x).toNat < s.size a) :
    storeIdx g idxs (fun _ => z) (fun _ => 1#1) false h
      = fun j => if ∃ k : Fin (d 0), ∀ a, (j a).val = (idxs a (Shape.ofLane k)).toNat then z else g j := by
  unfold storeIdx
  have hstep : (fun (g : Vec F s e) (k : Fin (d 0)) =>
      let x := Shape.ofLane k
      if (fun _ => 1#1 : IVec ⟨1, d⟩ 1) x = 1 then
        let i := idxAt idxs h x
        let y := if false then Elt.idxAdd e (g i) ((fun _ => z : Vec F ⟨1, d⟩ e) x) else (fun _ => z : Vec F ⟨1, d⟩ e) x
        fun j => if (∀ a, (j a).val = (i a).val) then y else g j
      else g) = fun g k => fun j => if (∀ a, (j a).val = (idxs a (Shape.ofLane k)).toNat) then z else g j := by
    funext g k
    simp [idxAt]
  rw [hstep, foldl_fill (fun (k : Fin (d 0)) (j : s.Idx) => ∀ a, (j a).val = (idxs a (Shape.ofLane k)).toNat) z]
  funext j
  simp [List.mem_finRange]

open Classical in
/-- The mask row after the first `n` groups of sixteen entries: 0.0 at every column one of the first `16 n` entries
    names, 1.0 elsewhere. -/
def scat (idx : IVec SI 32) (n : Nat) : FVec F SM .f32 := fun j =>
  if ∃ k : SI.Idx, (k 0).val < 16 * n ∧ (idx k).toNat = (j 0).val then zeroW else oneW

/-- Before any group the row is 1.0 everywhere. -/
theorem scat_zero (idx : IVec SI 32) : scat (F := F) idx 0 = fun _ => oneW := by
  funext j
  unfold scat
  rw [if_neg]
  rintro ⟨k, hk, _⟩
  omega

/-- After all sixteen groups the row is the mask of the list. -/
theorem scat_full (idx : IVec SI 32) : scat (F := F) idx 16 = maskOf idx := by
  funext j
  unfold scat maskOf Hit
  by_cases h : ∃ k : SI.Idx, (idx k).toNat = (j 0).val
  · rw [if_pos h, if_pos]
    obtain ⟨k, e⟩ := h
    exact ⟨k, (k 0).isLt, e⟩
  · rw [if_neg h, if_neg]
    rintro ⟨k, _, e⟩
    exact h ⟨k, e⟩

/-- One more group: the indexed store of 0.0 at the sixteen entries `16 n, …, 16 n + 15` of the list. -/
theorem scat_step (idx : IVec SI 32) (n : Nat) (hn : n < 16) (v : IVec SL 32)
    (hv : ∀ (x : SL.Idx) (k : SI.Idx), (k 0).val = 16 * n + (x 0).val → v x = idx k)
    (h : ∀ a x, ((![v] : Fin SM.rank → IVec SL 32) a x).toNat < SM.size a) :
    storeIdx (F := F) (s := SM) (e := .f32) (scat idx n) ![v] (fun _ => zeroW) (fun _ => 1#1) false h = scat idx (n + 1) := by
  rw [storeIdx_fill]
  funext j
  have h16 : (![16] : Fin 1 → Nat) 0 = 16 := rfl
  by_cases h1 : ∃ k : Fin ((![16] : Fin 1 → Nat) 0), ∀ a, (j a).val = ((![v] : Fin SM.rank → IVec SL 32) a (Shape.ofLane k)).toNat
  · rw [if_pos h1]
    unfold scat
    rw [if_pos]
    obtain ⟨k, hk⟩ := h1
    have hk16 : k.val < 16 := lt_of_lt_of_eq k.isLt h16
    refine ⟨fun a => ⟨16 * n + k.val, by rw [Fin.eq_zero a]; show 16 * n + k.val < 256; omega⟩, by show 16 * n + k.val < 16 * (n + 1); omega, ?_⟩
    rw [← hv (Shape.ofLane k) _ rfl]
    exact (hk 0).symm
  · rw [if_neg h1]
    unfold scat
    by_cases h2 : ∃ k : SI.Idx, (k 0).val < 16 * n ∧ (idx k).toNat = (j 0).val
    · rw [if_pos h2, if_pos]
      obtain ⟨k, hk, e⟩ := h2
      exact ⟨k, by omega, e⟩
    · rw [if_neg h2, if_neg]
      rintro ⟨k, hk, e⟩
      by_cases hlt : (k 0).val < 16 * n
      · exact h2 ⟨k, hlt, e⟩
      · refine h1 ⟨⟨(k 0).val - 16 * n, by rw [h16]; omega⟩, fun a => ?_⟩
        rw [Fin.eq_zero a]
        show (j 0).val = (v (Shape.ofLane _)).toNat
        rw [hv _ k (by show (k 0).val = 16 * n + ((k 0).val - 16 * n); omega), e]

end Cert.Proof.KernelIdealRun

end
-- ==== Proof.KernelIdeal.TileBody.lean ====
/-
  The mask kernel's task on one vector subcore, run once at a symbolic place of the grid. Where the kernel's condition
  holds (the one working subcore) the task copies the launch's index list into its first scratch, fills its second
  scratch with the word of 1.0 by 128 sixteen-lane stores, then takes the index list sixteen entries at a time and stores
  the word of 0.0 at the columns they name, and copies the second scratch out to the mask row's array. The value is carried
  through the run: the first scratch holds the index list from the first copy on, so every group of sixteen loaded words
  is sixteen consecutive entries of the list (which name columns of the row, the list being in range: that is what each
  check of the indices asks); the second scratch is 1.0 everywhere after the 128 stores, and after `n` groups it is the
  row `scat n` of the value module, so after all sixteen it is the mask of the list, which the last copy puts in the
  array. Where the condition fails the task returns at once.
-/
import proofs.«207358_g28870770164171_cont_9to1_1763_19_alg».proof.Proof.KernelIdeal.Common
import proofs.«207358_g28870770164171_cont_9to1_1763_19_alg».proof.Proof.KernelIdeal.TileValue
import Idealize.ShloMosaic.Lib.Writes

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] (m : (ℓ : Loc nD τ sig) → Buf (Elt F) ℓ) (d : Dev nD) (L : grid0.Coords)

abbrev cV (L : grid0.Coords) : Fin τ.nSC := (L 0).castLE hcore0
abbrev jV (L : grid0.Coords) : Fin τ.nSub := (L 1).castLE hsub0

abbrev iV : Memref sig .scVector .hbm S256 .i32 := Memref.whole main_arg1_scv
abbrev oV : Memref sig .scVector .hbm S2048 .f32 := Memref.whole main_v0_scv
abbrev sI : Memref sig .scVector .vmem S256 .i32 := Memref.whole cc0_scratch0
abbrev sM : Memref sig .scVector .vmem S2048 .f32 := Memref.whole cc0_scratch1

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

omit [FloatOps F] in
theorem pts_i (c : Fin τ.nSC) (i : Fin τ.nSub) (f : Buf (Elt F) (iLoc d)) :
    ((iV).view.loc (V d c i) ↦{fullShare} f : sProp 𝕄) = iLoc d ↦{fullShare} f := by
  simp only [Memref.view_whole, View.set_whole]
omit [FloatOps F] in
theorem pts_o (c : Fin τ.nSC) (i : Fin τ.nSub) (f : Buf (Elt F) (oLoc d)) :
    ((oV).view.loc (V d c i) ↦{fullShare} f : sProp 𝕄) = oLoc d ↦{fullShare} f := by
  simp only [Memref.view_whole, View.set_whole]

omit [FloatOps F] in
theorem ownSems0_V :
    (ownSems0 (V d (cV L) (jV L)) : sProp 𝕄)
      = iprop(semVal (cAcell d (cV L) (jV L)) 0 ∗ semVal (cBcell d (cV L) (jV L)) 0
          ∗ bigSep (((ownCells (V d (cV L) (jV L))).erase (cAcell d (cV L) (jV L))).erase (cBcell d (cV L) (jV L)))
              fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped1.sem : SemLoc sig).isScoped .scVector = true; decide⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
theorem pts_s (c : Fin τ.nSC) (i : Fin τ.nSub) (f : Buf (Elt F) ((V d c i).loc cc0_scratch0)) :
    ((sI).view.loc (V d c i) ↦{fullShare} f : sProp 𝕄) = (V d c i).loc cc0_scratch0 ↦{fullShare} f := rfl
omit [FloatOps F] in
theorem pts_m (c : Fin τ.nSC) (i : Fin τ.nSub) (f : Buf (Elt F) ((V d c i).loc cc0_scratch1)) :
    ((sM).view.loc (V d c i) ↦{fullShare} f : sProp 𝕄) = (V d c i).loc cc0_scratch1 ↦{fullShare} f := rfl

/-- The launch's index list, as the word vector the mask is the mask of. -/
abbrev idxOf (d : Dev nD) : IVec Cert.MaskSpec.SI 32 := m (iLoc d)

omit [FloatOps F] in
/-- Sixteen consecutive entries of the first scratch, once the index list has landed in it whole: lane `x` of the
    group at offset `off` is entry `off + x` of the launch's index list. -/
theorem chunk_eq (c : Fin τ.nSC) (i : Fin τ.nSub) (off : Nat) (inb : ∀ a, (![off] : Fin S256.rank → Nat) a + S16.size a ≤ S256.size a)
    (fs : Buf (Elt F) ((V d c i).loc cc0_scratch0)) (p : S256.Idx → Elt F .i32) (hp : p = m (iLoc d))
    (x : S16.Idx) (k : S256.Idx) (hk : (k 0).val = off + (x 0).val) :
    View.readAt (Elt F) (sI).view (Rect.unit (s := S256) ![off] S16.size inb).toLoadRect (View.write (Elt F) (sI).view fs p Finset.univ) x
      = m (iLoc d) k := by
  subst hp
  rw [View.readAt_apply]
  simp only [Memref.view_whole, View.read_whole]
  refine (congrFun (View.write_whole_univ (Val := Elt F) cc0_scratch0 fs (m (iLoc d))) _).trans ?_
  congr 1
  funext a
  rw [Fin.eq_zero a]
  apply Fin.ext
  show off + 1 * (x 0).val = (k 0).val
  omega

omit [FloatOps F] in
/-- Every lane of such a group names a column of the mask row, the index list being in range. -/
theorem chk_chunk (hidx : ∀ (d : Dev nD) (k : S256.Idx), ((m (iLoc d)) k).toNat < 2048) (c : Fin τ.nSC) (i : Fin τ.nSub) (off : Nat) (inb : ∀ a, (![off] : Fin S256.rank → Nat) a + S16.size a ≤ S256.size a)
    (fs : Buf (Elt F) ((V d c i).loc cc0_scratch0)) (p : S256.Idx → Elt F .i32) (hp : p = m (iLoc d)) :
    ∀ a x, ((![View.readAt (Elt F) (sI).view (Rect.unit (s := S256) ![off] S16.size inb).toLoadRect (View.write (Elt F) (sI).view fs p Finset.univ)]
      : Fin 1 → IVec S16 32) a x).toNat < S2048.size a := by
  intro a x
  rw [Fin.eq_zero a]
  have hin := inb 0
  have hx : (x 0).val < 16 := (x 0).isLt
  have e := chunk_eq m d c i off inb fs p hp x (fun a => ⟨off + (x 0).val, by
    rw [Fin.eq_zero a]; show off + (x 0).val < 256
    have : off + 16 ≤ 256 := hin
    omega⟩) rfl
  show (View.readAt (Elt F) (sI).view (Rect.unit (s := S256) ![off] S16.size inb).toLoadRect (View.write (Elt F) (sI).view fs p Finset.univ) x).toNat < 2048
  rw [e]
  exact hidx d _

/-- One indexed store of the sixteen-lane vector of 0.0 at group `n` of the index list: the mask row moves from its
    state after `n` groups to its state after `n + 1`. -/
theorem scat_store (c : Fin τ.nSC) (i : Fin τ.nSub) (n : Nat) (hn : n < 16) (v : IVec S16 32)
    (hv : ∀ (x : S16.Idx) (k : S256.Idx), (k 0).val = 16 * n + (x 0).val → v x = m (iLoc d) k)
    {α : Type} (h : ∀ a x, ((![v] : Fin S2048.rank → IVec S16 32) a x).toNat < S2048.size a)
    (hs : ((sM).access (.whole S2048)).Stores Finset.univ)
    (k : PUnit → Prog (TpuEff nD τ sig (Elt F) Λ₀ (.scVector c i)) α) (Q : α → sProp 𝕄) :
    ((sM).view.loc (V d c i) ↦{fullShare} (scat (F := F) (idxOf m d) n : Buf (Elt F) ((V d c i).loc cc0_scratch1)) : sProp 𝕄)
      ⊢ iprop((((sM).view.loc (V d c i) ↦{fullShare} (scat (F := F) (idxOf m d) (n + 1) : Buf (Elt F) ((V d c i).loc cc0_scratch1)))
          -∗ wp frame (wpE (defs₀ (F := F)) 𝒱₀ (V d c i) none) Set.univ (k ⟨⟩) Q)
        -∗ wp frame (wpE (defs₀ (F := F)) 𝒱₀ (V d c i) none) Set.univ
            (SparseCore.vectorStoreIdx (sM) ![v] (k0_pay2 (F := F)) (fun _ => 1#1) false h hs >>= k) Q) := by
  have hw := SparseCore.wp_vectorStoreIdx (defs := defs₀ (F := F)) 𝒱₀ (V d c i) none Set.univ (base := sM) (idxs := ![v]) (v := k0_pay2 (F := F))
    (mask := fun _ => 1#1) (add := false) (h := h) (hs := hs) (k := k) (Q := Q)
    (f := (scat (F := F) (idxOf m d) n : Buf (Elt F) ((V d c i).loc cc0_scratch1)))
  have e1 : (((sM).access (.whole S2048)) : View sig _ _ _ _).set = Finset.univ := Memref.set_access_whole cc0_scratch1
  have e2 : ((sM).access (.whole S2048)).write (Elt F) (scat (F := F) (idxOf m d) n : Buf (Elt F) ((V d c i).loc cc0_scratch1))
      (storeIdx (((sM).access (.whole S2048)).read (Elt F) (scat (F := F) (idxOf m d) n : Buf (Elt F) ((V d c i).loc cc0_scratch1))) ![v] (k0_pay2 (F := F)) (fun _ => 1#1) false h) Finset.univ
      = (scat (F := F) (idxOf m d) (n + 1) : Buf (Elt F) ((V d c i).loc cc0_scratch1)) := by
    have e3 : ((sM).access (.whole S2048)).read (Elt F) (scat (F := F) (idxOf m d) n : Buf (Elt F) ((V d c i).loc cc0_scratch1))
        = scat (F := F) (idxOf m d) n := Memref.read_access_whole (Elt F) cc0_scratch1 _
    have e4 : ∀ w, ((sM).access (.whole S2048)).write (Elt F) (scat (F := F) (idxOf m d) n : Buf (Elt F) ((V d c i).loc cc0_scratch1)) w Finset.univ = w :=
      fun w => Memref.write_access_whole_univ (Elt F) cc0_scratch1 _ w
    rw [e4, e3]
    exact scat_step (F := F) (idxOf m d) n hn v hv h
  rw [e1, e2] at hw
  exact hw

/-- The 128 sixteen-lane stores of 1.0 tile the mask row: whatever the second scratch held, it is 1.0 everywhere after
    them, which is the mask row's state before any group of the index list. -/
theorem ones_of_writes (c : Fin τ.nSC) (i : Fin τ.nSub) (fm : Buf (Elt F) ((V d c i).loc cc0_scratch1)) (Lst : List (View.Piece (Elt F) S2048 .f32))
    (hG : ∀ p ∈ Lst, ∀ x, p.2 x = (oneW : F .f32)) (hcov : View.Piece.tiled Lst ![16] = true) :
    ((sM).view.loc (V d c i) ↦{fullShare} (sM).view.writes (Elt F) fm Lst : sProp 𝕄)
      ⊢ (sM).view.loc (V d c i) ↦{fullShare} (scat (F := F) (idxOf m d) 0 : Buf (Elt F) ((V d c i).loc cc0_scratch1)) := by
  refine Entails.of_eq (congrArg (fun g => ((sM).view.loc (V d c i) ↦{fullShare} g : sProp 𝕄)) ?_)
  rw [scat_zero]
  funext y
  exact View.read_writes_apply_of_pieces (sM).view fm (fun _ => oneW) Lst (fun p hp x => hG p hp x) y (View.cover_of_tiled Lst ![16] hcov y)

theorem pay1_apply (x : S16.Idx) : (k0_pay1 (F := F)) x = oneW := rfl

/-- What the last copy puts in the mask row's array: the second scratch after all sixteen groups, which is the mask of
    the launch's index list. -/
theorem out_eq (fo : Buf (Elt F) (oLoc d)) (p : S2048.Idx → Elt F .f32) (hp : p = scat (F := F) (idxOf m d) 16) :
    View.write (Elt F) (oV).view fo p Finset.univ = maskBuf m d := by
  subst hp
  simp only [Memref.view_whole]
  refine (View.write_whole_univ (Val := Elt F) main_v0_scv fo _).trans ?_
  unfold maskBuf
  exact scat_full _

/-- The working subcore's task: the index list copied into the first scratch, the second scratch filled with 1.0 by 128
    sixteen-lane stores, 0.0 stored at the columns the index list names, sixteen entries at a time, and the second
    scratch copied out: the mask row's array ends at the mask of the index list, the index list unchanged, both
    scratches and both semaphores handed back. -/
theorem tile_body (hidx : ∀ (d : Dev nD) (k : S256.Idx), ((m (iLoc d)) k).toNat < 2048) (hL : k0_cond1 L = 1#1) (O : CellTallies nD τ sig (HIx 1)) (W : Waits sig (HIx 1)) (hO : ∀ g, O g none = 0) :
    iprop(levAts (K (F := F)).L (K (F := F)).lev ∗ emp ∗ handed m d
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__mask_sc_kernel L iV (Memref.isWhole_whole _) oV (Memref.isWhole_whole _)
            sI (Memref.isWhole_whole _) sM (Memref.isWhole_whole _) cc0_scoped0 cc0_scoped1)
          fun _ => iprop(back m d ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__mask_sc_kernel_eq_skeleton]; unfold cc0__mask_sc_kernel_skel
  rw [(K (F := F)).scopedBufs_V facts d (cV L) (jV L), SparseCore.Cfg.scopedSems0_V (Val := Elt F) d (cV L) (jV L), ownSems0_V, ownBufs_V]
  iintro ⟨#Hlv, -, ⟨Hi, %fo, Ho⟩, ⟨⟨%fs, Hs⟩, ⟨%fm, Hm⟩, Hbufs⟩, ⟨HsemA, HsemB, Hsems⟩, HO⟩
  ihave Hmw := ((K (F := F)).mayWaits_none (thr := V d (cV L) (jV L)) hO) $$ Hlv
  ihave Hi' := (Entails.of_eq (pts_i (F := F) d (cV L) (jV L) _).symm) $$ Hi
  ihave Ho' := (Entails.of_eq (pts_o (F := F) d (cV L) (jV L) _).symm) $$ Ho
  ihave Hs' := (Entails.of_eq (pts_s (F := F) d (cV L) (jV L) _).symm) $$ Hs
  ihave Hm' := (Entails.of_eq (pts_m (F := F) d (cV L) (jV L) _).symm) $$ Hm
  -- the first copy and the 128 stores of 1.0
  sl_exec
  ihave Hm' := (ones_of_writes m d (cV L) (jV L) fm _ ?hG ?hcov) $$ Hm'
  case hG =>
    simp only [List.forall_mem_cons]
    simp [pay1_apply]
  case hcov => rfl
  -- group 0 of the index list
  sl_exec (disch := exact fun _ => chk_chunk m d hidx _ _ _ _ _ _ rfl)
  iapply (scat_store m d (cV L) (jV L) 0 (by omega) _ ?hv0 _ _ _ _) $$ Hm'
  case hv0 => exact fun x k hk => chunk_eq m d _ _ _ _ _ _ rfl x k hk
  iintro Hm'
  -- group 1 of the index list
  sl_exec (disch := exact fun _ => chk_chunk m d hidx _ _ _ _ _ _ rfl)
  iapply (scat_store m d (cV L) (jV L) 1 (by omega) _ ?hv1 _ _ _ _) $$ Hm'
  case hv1 => exact fun x k hk => chunk_eq m d _ _ _ _ _ _ rfl x k hk
  iintro Hm'
  -- group 2 of the index list
  sl_exec (disch := exact fun _ => chk_chunk m d hidx _ _ _ _ _ _ rfl)
  iapply (scat_store m d (cV L) (jV L) 2 (by omega) _ ?hv2 _ _ _ _) $$ Hm'
  case hv2 => exact fun x k hk => chunk_eq m d _ _ _ _ _ _ rfl x k hk
  iintro Hm'
  -- group 3 of the index list
  sl_exec (disch := exact fun _ => chk_chunk m d hidx _ _ _ _ _ _ rfl)
  iapply (scat_store m d (cV L) (jV L) 3 (by omega) _ ?hv3 _ _ _ _) $$ Hm'
  case hv3 => exact fun x k hk => chunk_eq m d _ _ _ _ _ _ rfl x k hk
  iintro Hm'
  -- group 4 of the index list
  sl_exec (disch := exact fun _ => chk_chunk m d hidx _ _ _ _ _ _ rfl)
  iapply (scat_store m d (cV L) (jV L) 4 (by omega) _ ?hv4 _ _ _ _) $$ Hm'
  case hv4 => exact fun x k hk => chunk_eq m d _ _ _ _ _ _ rfl x k hk
  iintro Hm'
  -- group 5 of the index list
  sl_exec (disch := exact fun _ => chk_chunk m d hidx _ _ _ _ _ _ rfl)
  iapply (scat_store m d (cV L) (jV L) 5 (by omega) _ ?hv5 _ _ _ _) $$ Hm'
  case hv5 => exact fun x k hk => chunk_eq m d _ _ _ _ _ _ rfl x k hk
  iintro Hm'
  -- group 6 of the index list
  sl_exec (disch := exact fun _ => chk_chunk m d hidx _ _ _ _ _ _ rfl)
  iapply (scat_store m d (cV L) (jV L) 6 (by omega) _ ?hv6 _ _ _ _) $$ Hm'
  case hv6 => exact fun x k hk => chunk_eq m d _ _ _ _ _ _ rfl x k hk
  iintro Hm'
  -- group 7 of the index list
  sl_exec (disch := exact fun _ => chk_chunk m d hidx _ _ _ _ _ _ rfl)
  iapply (scat_store m d (cV L) (jV L) 7 (by omega) _ ?hv7 _ _ _ _) $$ Hm'
  case hv7 => exact fun x k hk => chunk_eq m d _ _ _ _ _ _ rfl x k hk
  iintro Hm'
  -- group 8 of the index list
  sl_exec (disch := exact fun _ => chk_chunk m d hidx _ _ _ _ _ _ rfl)
  iapply (scat_store m d (cV L) (jV L) 8 (by omega) _ ?hv8 _ _ _ _) $$ Hm'
  case hv8 => exact fun x k hk => chunk_eq m d _ _ _ _ _ _ rfl x k hk
  iintro Hm'
  -- group 9 of the index list
  sl_exec (disch := exact fun _ => chk_chunk m d hidx _ _ _ _ _ _ rfl)
  iapply (scat_store m d (cV L) (jV L) 9 (by omega) _ ?hv9 _ _ _ _) $$ Hm'
  case hv9 => exact fun x k hk => chunk_eq m d _ _ _ _ _ _ rfl x k hk
  iintro Hm'
  -- group 10 of the index list
  sl_exec (disch := exact fun _ => chk_chunk m d hidx _ _ _ _ _ _ rfl)
  iapply (scat_store m d (cV L) (jV L) 10 (by omega) _ ?hv10 _ _ _ _) $$ Hm'
  case hv10 => exact fun x k hk => chunk_eq m d _ _ _ _ _ _ rfl x k hk
  iintro Hm'
  -- group 11 of the index list
  sl_exec (disch := exact fun _ => chk_chunk m d hidx _ _ _ _ _ _ rfl)
  iapply (scat_store m d (cV L) (jV L) 11 (by omega) _ ?hv11 _ _ _ _) $$ Hm'
  case hv11 => exact fun x k hk => chunk_eq m d _ _ _ _ _ _ rfl x k hk
  iintro Hm'
  -- group 12 of the index list
  sl_exec (disch := exact fun _ => chk_chunk m d hidx _ _ _ _ _ _ rfl)
  iapply (scat_store m d (cV L) (jV L) 12 (by omega) _ ?hv12 _ _ _ _) $$ Hm'
  case hv12 => exact fun x k hk => chunk_eq m d _ _ _ _ _ _ rfl x k hk
  iintro Hm'
  -- group 13 of the index list
  sl_exec (disch := exact fun _ => chk_chunk m d hidx _ _ _ _ _ _ rfl)
  iapply (scat_store m d (cV L) (jV L) 13 (by omega) _ ?hv13 _ _ _ _) $$ Hm'
  case hv13 => exact fun x k hk => chunk_eq m d _ _ _ _ _ _ rfl x k hk
  iintro Hm'
  -- group 14 of the index list
  sl_exec (disch := exact fun _ => chk_chunk m d hidx _ _ _ _ _ _ rfl)
  iapply (scat_store m d (cV L) (jV L) 14 (by omega) _ ?hv14 _ _ _ _) $$ Hm'
  case hv14 => exact fun x k hk => chunk_eq m d _ _ _ _ _ _ rfl x k hk
  iintro Hm'
  -- group 15 of the index list
  sl_exec (disch := exact fun _ => chk_chunk m d hidx _ _ _ _ _ _ rfl)
  iapply (scat_store m d (cV L) (jV L) 15 (by omega) _ ?hv15 _ _ _ _) $$ Hm'
  case hv15 => exact fun x k hk => chunk_eq m d _ _ _ _ _ _ rfl x k hk
  iintro Hm'
  -- the last copy, and what is handed back
  sl_exec
  sl_step
  isplitl [Hi' Ho']
  · isplitl [Hi']
    · iapply (Entails.of_eq (pts_i (F := F) d (cV L) (jV L) _)); iexact Hi'
    · iapply (Entails.of_eq (pts_o (F := F) d (cV L) (jV L) _))
      iapply (Entails.of_eq (congrArg (fun g => ((oV).view.loc (V d (cV L) (jV L)) ↦{fullShare} g : sProp 𝕄)) (out_eq m d fo _ rfl)))
      iexact Ho'
  isplitl [Hs' Hm' Hbufs]
  · isplitl [Hs']; · iexists _; iexact Hs'
    isplitl [Hm']; · iexists _; iexact Hm'
    iexact Hbufs
  isplitl [HsemA HsemB Hsems]
  · isplitl [HsemA]; · iexact HsemA
    isplitl [HsemB]; · iexact HsemB
    iexact Hsems
  iexists (insert (SemLoc.dma cc0_scoped1.sem, (default : HIx 1)) (insert (SemLoc.dma cc0_scoped0.sem, (default : HIx 1)) W)); isplitr
  · ipureintro; intro p hp
    rcases Finset.mem_insert.mp hp with hp | hp
    · exact .inr (hp ▸ rfl)
    rcases Finset.mem_insert.mp hp with hp | hp
    · exact .inr (hp ▸ rfl)
    · exact .inl hp
  · iexact HO

/-- Every other subcore's task: the condition is false and the body returns at once, everything it was given in hand. -/
theorem tile_idle (hL : ¬ k0_cond1 L = 1#1) (O : CellTallies nD τ sig (HIx 1)) (W : Waits sig (HIx 1)) :
    (iprop(levAts (K (F := F)).L (K (F := F)).lev ∗ emp ∗ emp
        ∗ scopedBufs (V d (cV L) (jV L)) ∗ scopedSems0 (V d (cV L) (jV L)) ∗ owes (V d (cV L) (jV L)) O W) : sProp 𝕄)
      ⊢ wp frame (wpE (defs₀ (F := F)) 𝒱₀ (V d (cV L) (jV L)) none) Set.univ
          (cc0__mask_sc_kernel L iV (Memref.isWhole_whole _) oV (Memref.isWhole_whole _)
            sI (Memref.isWhole_whole _) sM (Memref.isWhole_whole _) cc0_scoped0 cc0_scoped1)
          fun _ => iprop(emp ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__mask_sc_kernel_eq_skeleton]; unfold cc0__mask_sc_kernel_skel
  iintro ⟨-, -, He, Hsb, Hss, HO⟩
  sl_exec
  sl_step
  isplitl [He]; · iexact He
  isplitl [Hsb]; · iexact Hsb
  isplitl [Hss]; · iexact Hss
  iexists W; isplitr
  · ipureintro; exact fun p hp => .inl hp
  · iexact HO

end Cert.Proof.KernelIdealRun

end
-- ==== Proof.KernelIdeal.Tile.lean ====
/-
  The launch theorem's obligation for the mask kernel's vector-subcore tasks. Of the 2 × 16 grid points only (0, 0)
  satisfies the kernel's condition (decided over all 32): that subcore is handed the index list and the mask row's
  array and hands them back with the array at the mask of the list; every other subcore is handed nothing, finds the
  condition false and returns. The obligation enters the kernel's function through the pipeline's body table and the
  grid's bounds, and then is one of the two runs of the body module.
-/
import proofs.«207358_g28870770164171_cont_9to1_1763_19_alg».proof.Proof.KernelIdeal.TileBody

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] (m : (ℓ : Loc nD τ sig) → Buf (Elt F) ℓ)

/-- Every entry of the launch's index list names a column of the mask row. -/
def IdxOK : Prop := ∀ (d : Dev nD) (k : S256.Idx), ((m (iLoc d)) k).toNat < 2048

/-- The kernel's condition holds at grid point (0, 0) and nowhere else. -/
theorem cond_iff : ∀ (c : Fin (grid0.bound 0)) (s : Fin (grid0.bound 1)), k0_cond1 (coordsV c s) = 1#1 ↔ c.val = 0 ∧ s.val = 0 := by
  decide

theorem defs₀_vector (c : Fin τ.nSC) (s : Fin τ.nSub) :
    defs₀ (F := F) (.scVector c s) 0 ()
      = SparseCore.onTile hcore0 hsub0 (fun c s => cc0__mask_sc_kernel (coordsV c s)
          iV (Memref.isWhole_whole _) oV (Memref.isWhole_whole _)
          sI (Memref.isWhole_whole _) sM (Memref.isWhole_whole _) cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hidx : IdxOK m) : (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  by_cases h00 : c.val = 0 ∧ i.val = 0
  · -- the working subcore
    have hL : k0_cond1 (coordsV ⟨_, hc.1⟩ ⟨_, hc.2⟩) = 1#1 := (cond_iff _ _).mpr h00
    have hgo : (P m).go 0 d c i = handed m d := if_pos h00
    have htd : (P m).td 0 d c i = back m d := if_pos h00
    rw [hgo, htd]
    exact (tile_body m d (coordsV ⟨_, hc.1⟩ ⟨_, hc.2⟩) hidx hL O W hO).trans (wp_mono frame _ _ fun _ => obl_post)
  · -- every other subcore
    have hL : ¬ k0_cond1 (coordsV ⟨_, hc.1⟩ ⟨_, hc.2⟩) = 1#1 := fun h => h00 ((cond_iff _ _).mp h)
    have hgo : (P m).go 0 d c i = iprop(emp) := if_neg h00
    have htd : (P m).td 0 d c i = iprop(emp) := if_neg h00
    rw [hgo, htd]
    exact (tile_idle d (coordsV ⟨_, hc.1⟩ ⟨_, hc.2⟩) hL O W).trans (wp_mono frame _ _ fun _ => obl_post)

end Cert.Proof.KernelIdealRun

end
-- ==== Proof.KernelIdeal.Run.lean ====
/-
  The masking program's run: every weakly fair execution of all the device's threads ends, nothing faulting, with the
  table and the index list as launched and the result at the table times the mask of the index list, entry by entry.
  The launch supplies the run from the subcores' task and the multiply kernel's region; what is added here is that the
  multiply kernel's product with the reshaped mask row is the product with the mask: the reshape of a row of 2048 into
  a one-row matrix reads, at (0, c), the row at c.
-/
import proofs.«207358_g28870770164171_cont_9to1_1763_19_alg».proof.Proof.KernelIdeal.Launch
import proofs.«207358_g28870770164171_cont_9to1_1763_19_alg».proof.Proof.KernelIdeal.Region
import proofs.«207358_g28870770164171_cont_9to1_1763_19_alg».proof.Proof.KernelIdeal.Tile

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-- The multiply kernel's product of the table with the reshaped mask of the index list is the table times the mask. -/
theorem prodOf_mask (d : Dev nD) :
    prodOf d (m (xLoc d)) (rowOf d (maskBuf m d)) = Cert.MaskSpec.timesMask (F := F) (m (xLoc d)) (m (iLoc d)) := by
  unfold rowOf
  rw [prodOf_reshape]
  rfl

theorem run_main [∀ e, Nonempty (Elt F e)] (hidx : IdxOK m) :
    θ_run (Cert.KernelIdeal.defs (F := F)) (Cert.KernelIdeal.threads (F := F)) ⟨m, fun _ => 0, ρ⟩ (fun r => ∀ c : Dev nD,
      r.2.mem (yLoc c) = Cert.MaskSpec.timesMask (F := F) (m (xLoc c)) (m (iLoc c))
      ∧ r.2.mem (xLoc c) = m (xLoc c) ∧ r.2.mem (iLoc c) = m (iLoc c)) :=
  (θ_run _ _ _).mono (fun _ h c => ⟨(h c).1.trans (prodOf_mask m c), (h c).2⟩)
    (run_of m ρ prodOf (tileObl m hidx) (fun d row W₀ _ k Φ => region_wp m d row W₀ k Φ))

end Cert.Proof.KernelIdealRun

end
-- ==== Proof.lean ====
/-
  The claim for the column-masking kernel against `x.at[:, mask_indices].set(0.0)`.

  The kernel builds a mask row on one vector subcore of a SparseCore — 1.0 in every column, then 0.0 stored at the
  columns the index list names — and the TensorCore multiplies the table by that row, block by block. The reference
  overwrites the named columns of the table with 0.0 by a scatter. Read on the extended reals both results are one
  function of the arguments, the MASKED table: the table's entry in a column the list does not name, 0.0 in a named
  one — for the kernel because x · 1 = x and x · 0 = 0 for every extended real x, for the reference because each
  update of the scatter's fold writes the same 0.0 and, the indices lying in [0, 2047], lands in the column its index
  names. The precondition is used for exactly that range: it keeps the subcore's indexed stores inside the mask row
  (without it the subcore has no step and no frame holds) and makes the reference's wrap of negative indices the
  identity. The ideal pass rewrote nothing, so `preserves` states nothing.

  Both kernel programs — the word-level one and the idealized one — run by the same argument, written once for any float
  instance: the SparseCore launch (one working subcore among thirty-two, its two copies and its stores run by the
  symbolic executor), the reshape of the mask row, and the multiply kernel's region with its result read block by block.
-/
import proofs.«207358_g28870770164171_cont_9to1_1763_19_alg».proof.Defs
import proofs.«207358_g28870770164171_cont_9to1_1763_19_alg».proof.Proof.Gen.Kernel
import proofs.«207358_g28870770164171_cont_9to1_1763_19_alg».proof.Proof.Gen.KernelIdeal
import proofs.«207358_g28870770164171_cont_9to1_1763_19_alg».proof.Proof.Gen.ReferenceIdeal
import proofs.«207358_g28870770164171_cont_9to1_1763_19_alg».proof.Proof.Gen.Pre_input_domain
import proofs.«207358_g28870770164171_cont_9to1_1763_19_alg».proof.Proof.PreFacts
import proofs.«207358_g28870770164171_cont_9to1_1763_19_alg».proof.Proof.RefValue
import proofs.«207358_g28870770164171_cont_9to1_1763_19_alg».proof.Proof.Kernel.Run
import proofs.«207358_g28870770164171_cont_9to1_1763_19_alg».proof.Proof.KernelIdeal.Run
import Idealize.ShloMosaic.Adequacy
import Idealize.ShloMosaic.Init

noncomputable section

namespace Cert.Proof

open Idealize.ShloMosaic Idealize.SL.Sem

/-- The word-level kernel runs and keeps its arguments: its run with the result's value dropped. -/
theorem frame_p : Cert.frame_Kernel := fun m ρ hpre =>
  (θ_run (Cert.Kernel.defs (F := Bits)) _ _).mono (fun _ h c => ⟨(h c).2.1, (h c).2.2⟩)
    (Cert.Proof.KernelRun.run_main (F := Bits) m ρ (fun d k => Cert.PreFacts.idx_lt _ _ (hpre d) k))

/-- The idealized kernel runs and keeps its arguments. -/
theorem frame_pi : Cert.frame_KernelIdeal := fun m ρ hpre =>
  (θ_run (Cert.KernelIdeal.defs (F := Ideal)) _ _).mono (fun _ h c => ⟨(h c).2.1, (h c).2.2⟩)
    (Cert.Proof.KernelIdealRun.run_main (F := Ideal) m ρ (fun d k => Cert.PreFacts.idx_lt _ _ (hpre d) k))

/-- On the extended reals the kernel's table-times-mask and the reference's scatter of zeros are the masked table. -/
theorem algebraic : Cert.algebraic_KernelIdeal_ReferenceIdeal := by
  intro m ρ m' ρ' hpre hagree
  refine ⟨fun c => Cert.MaskSpec.masked (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun _ h c => ⟨(h c).1.trans (Cert.MaskSpec.timesMask_eq_masked _ _), (h c).2.1, (h c).2.2⟩)
      (Cert.Proof.KernelIdealRun.run_main (F := Ideal) m ρ (fun d k => Cert.PreFacts.idx_lt _ _ (hpre d) k))
  · refine (θ_run (Cert.ReferenceIdeal.defs (F := Ideal)) _ _).mono (fun _ h c => ⟨?_, (h c).2.1, (h c).2.2⟩)
      (Cert.ReferenceIdeal.RefValue.run_masked m' ρ' (fun c k => by
        rw [(hagree c).2]; exact Cert.PreFacts.idx_range _ _ (hpre c) k))
    rw [(h c).1, (hagree c).1, (hagree c).2]

theorem claim : Cert.Claim :=
  ⟨Cert.Kernel.Gen.facts, Cert.KernelIdeal.Gen.facts, Cert.ReferenceIdeal.Gen.facts, Cert.Pre_input_domain.Gen.facts,
    frame_p, frame_pi, Cert.ReferenceIdeal.RefValue.frame_ri, trivial, algebraic⟩

end Cert.Proof

end
